-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1024 : Shape := ⟨1, ![1024]⟩
abbrev S8x4096x256 : Shape := ⟨3, ![8, 4096, 256]⟩
abbrev S8x256x256 : Shape := ⟨3, ![8, 256, 256]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S8x4096x256 : S_.BroadcastsInDim S8x4096x256 (![] : Fin 0 → Fin S8x4096x256.rank)
  reducesTo_S8x4096x256_S_d0_1_2 : S8x4096x256.ReducesTo [0, 1, 2] S_
  bcast_S_S8x256x256 : S_.BroadcastsInDim S8x256x256 (![] : Fin 0 → Fin S8x256x256.rank)
  reducesTo_S8x256x256_S_d0_1_2 : S8x256x256.ReducesTo [0, 1, 2] S_

variable [Facts]

def fn_part1 {F : FTy → Type} [FloatOps F] (main_v13 : IVec S_ 1) (main_v16 : IVec S8x256x256 1) : IVec S_ 1 :=
  let main_c_5 : IVec S_ 1 := constantI S_ 1 1#1
  let main_v17 : IVec S_ 1 := (fun x v => Host.reduce IntOp.andi x v reducesTo_S8x256x256_S_d0_1_2 h_S_) main_v16 main_c_5
  let main_v18 : IVec S_ 1 := andi main_v13 main_v17
  main_v18

def fn {F : FTy → Type} [FloatOps F] (main_arg0 : FVec F S1024x2048 .f32) (main_arg1 : IVec S1024 32) (main_arg2 : FVec F S8x4096x256 .f32) (main_arg3 : FVec F S8x256x256 .f32) (main_arg4 : FVec F S8x256x256 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S8x4096x256 .f32 := Host.absf main_arg2
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  let main_v9 : FVec F S8x256x256 .f32 := Host.absf main_arg3
  let main_cst_2 : FVec F S_ .f32 := constant S_ .f32 0x7F800000#32
  let main_v10 : FVec F S8x256x256 .f32 := broadcastInDim S8x256x256 ![] bcast_S_S8x256x256 main_cst_2
  let main_v11 : IVec S8x256x256 1 := cmpf .olt main_v9 main_v10
  let main_c_3 : IVec S_ 1 := constantI S_ 1 1#1
  let main_v12 : IVec S_ 1 := (fun x v => Host.reduce IntOp.andi x v reducesTo_S8x256x256_S_d0_1_2 h_S_) main_v11 main_c_3
  let main_v13 : IVec S_ 1 := andi main_v8 main_v12
  let main_v14 : FVec F S8x256x256 .f32 := Host.absf main_arg4
  let main_cst_4 : FVec F S_ .f32 := constant S_ .f32 0x7F800000#32
  let main_v15 : FVec F S8x256x256 .f32 := broadcastInDim S8x256x256 ![] bcast_S_S8x256x256 main_cst_4
  let main_v16 : IVec S8x256x256 1 := cmpf .olt main_v14 main_v15
  fn_part1 (F := F) main_v13 main_v16
-- ==== Kernel.lean ====
abbrev S1024x2048 : Shape := ⟨2, ![1024, 2048]⟩
abbrev S1024 : Shape := ⟨1, ![1024]⟩
abbrev S8x4096x256 : Shape := ⟨3, ![8, 4096, 256]⟩
abbrev S8x256x256 : Shape := ⟨3, ![8, 256, 256]⟩
abbrev S1024x8x256 : Shape := ⟨3, ![1024, 8, 256]⟩
abbrev S8x1024x256 : Shape := ⟨3, ![8, 1024, 256]⟩
abbrev S1024x1 : Shape := ⟨2, ![1024, 1]⟩
abbrev S1024x8x4096 : Shape := ⟨3, ![1024, 8, 4096]⟩
abbrev S256x1 : Shape := ⟨2, ![256, 1]⟩
abbrev S256x8x256 : Shape := ⟨3, ![256, 8, 256]⟩
abbrev S8x256 : Shape := ⟨2, ![8, 256]⟩
abbrev S8x256x1 : Shape := ⟨3, ![8, 256, 1]⟩
abbrev S256x256 : Shape := ⟨2, ![256, 256]⟩
abbrev S1x256x256 : Shape := ⟨3, ![1, 256, 256]⟩

abbrev nBuf : Space → Nat
  | .hbm => 11
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S1024, .i32⟩
  | .hbm, ⟨2, _⟩ => ⟨S8x4096x256, .f32⟩
  | .hbm, ⟨3, _⟩ => ⟨S8x256x256, .f32⟩
  | .hbm, ⟨4, _⟩ => ⟨S8x256x256, .f32⟩
  | .hbm, ⟨5, _⟩ => ⟨S1024x8x256, .f32⟩
  | .hbm, ⟨6, _⟩ => ⟨S8x1024x256, .f32⟩
  | .hbm, ⟨7, _⟩ => ⟨S1024x1, .i32⟩
  | .hbm, ⟨8, _⟩ => ⟨S1024x8x4096, .f32⟩
  | .hbm, ⟨9, _⟩ => ⟨S1024x8x4096, .f32⟩
  | .hbm, ⟨10, _⟩ => ⟨S1024x8x256, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .vmem, ⟨4, _⟩ => ⟨S8x256x256, .f32⟩
  | .local _ .vmem, ⟨5, _⟩ => ⟨S8x256x256, .f32⟩
  | .local _ .vmem, ⟨6, _⟩ => ⟨S256x1, .i32⟩
  | .local _ .vmem, ⟨7, _⟩ => ⟨S256x1, .i32⟩
  | .local _ .vmem, ⟨8, _⟩ => ⟨S256x8x256, .f32⟩
  | .local _ .vmem, ⟨9, _⟩ => ⟨S256x8x256, .f32⟩
  | .local _ .vmem, ⟨10, _⟩ => ⟨S256x8x256, .f32⟩
  | .local _ .vmem, ⟨11, _⟩ => ⟨S256x8x256, .f32⟩
  | .local _ .vmem, ⟨12, _⟩ => ⟨S256x8x256, .f32⟩
  | .local _ .vmem, ⟨13, _⟩ => ⟨S256x8x256, .f32⟩
  | .local _ .vmem, ⟨14, _⟩ => ⟨S8x256x256, .bf16⟩
  | .local _ .vmem, ⟨15, _⟩ => ⟨S8x256x256, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S1024x2048_S1024x8x256 : S1024x2048.ShapeCasts S1024x8x256
  transposes_S1024x8x256_S8x1024x256_1_0_2 : S1024x8x256.Transposes [1, 0, 2] S8x1024x256
  shapeCasts_S1024_S1024x1 : S1024.ShapeCasts S1024x1
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  bitsLt_bf16_f32 : FTy.bits .bf16 < FTy.bits .f32
  packedbf16_S8x256x256_S8x256x256_0_0_0 : (Rect.unit (s := S8x256x256) ![0, 0, 0] S8x256x256.size inb_S8x256x256_S8x256x256_0_0_0).PackedRows (EltTy.packing .bf16)
  transposes_S8x256x256_p1_0_2_S256x8x256 : S8x256x256.Transposes [1, 0, 2] S256x8x256
  inb_S256x8x256_S256x8x256_0_0_0 : ∀ a, (![0, 0, 0] : Fin 3 → Nat) a + S256x8x256.size a ≤ S256x8x256.size a
  h_S256x8x256 : 0 < S256x8x256.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x256_d1_w32 : S256x256.Iotas .tc 32 [1]
  broadcasts_S256x1_S256x256 : S256x1.Broadcasts S256x256
  natLt_1_32 : 1 < 32
  shapeCasts_S256x256_S1x256x256 : S256x256.ShapeCasts S1x256x256
  broadcasts_S1x256x256_S8x256x256 : S1x256x256.Broadcasts S8x256x256
  dot_S8x256x256_S8x256x256_S8x256x256_2_1_1_2_0_0_wf : DotDims.WF S8x256x256 S8x256x256 S8x256x256 [2] [1] [1] [2] [0] [0]
  dot_S8x256x256_S8x256x256_S8x256x256_2_2_1_1_0_0_wf : DotDims.WF S8x256x256 S8x256x256 S8x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S8x1024x256.size a
  hwx0_0 : ∀ i : grid0.Coords, EltTy.bits .f32 = 32 ∨ (Rect.block (s := S8x1024x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S8x4096x256.size a
  hwx0_1 : ∀ i : grid0.Coords, EltTy.bits .f32 = 32 ∨ (Rect.block (s := S8x4096x256) S8x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S8x256x256.size a
  hwx0_2 : ∀ i : grid0.Coords, EltTy.bits .f32 = 32 ∨ (Rect.block (s := S8x256x256) S8x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S8x256x256.size a
  hwx0_3 : ∀ i : grid0.Coords, EltTy.bits .f32 = 32 ∨ (Rect.block (s := S8x256x256) S8x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S1024x1.size a
  hwx0_4 : ∀ i : grid0.Coords, EltTy.bits .i32 = 32 ∨ (Rect.block (s := S1024x1) S256x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x8x256.size a ≤ S1024x8x4096.size a
  hwx0_5 : ∀ i : grid0.Coords, EltTy.bits .f32 = 32 ∨ (Rect.block (s := S1024x8x4096) S256x8x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x8x256.size a ≤ S1024x8x4096.size a
  hwx0_6 : ∀ i : grid0.Coords, EltTy.bits .f32 = 32 ∨ (Rect.block (s := S1024x8x4096) S256x8x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x8x256.size a ≤ S1024x8x256.size a
  hwx0_7 : ∀ i : grid0.Coords, EltTy.bits .f32 = 32 ∨ (Rect.block (s := S1024x8x256) S256x8x256.size (cc0_transform_7 i) (hinb0_7 i)).WholeWords (EltTy.packing .f32)

variable [Facts₀]

def dot_S8x256x256_S8x256x256_S8x256x256_2_1_1_2_0_0 : DotDims S8x256x256 S8x256x256 S8x256x256 where
  lhsContracting := [2]
  rhsContracting := [1]
  lhsNonContracting := [1]
  rhsNonContracting := [2]
  lhsBatch := [0]
  rhsBatch := [0]
  wf := dot_S8x256x256_S8x256x256_S8x256x256_2_1_1_2_0_0_wf
def dot_S8x256x256_S8x256x256_S8x256x256_2_2_1_1_0_0 : DotDims S8x256x256 S8x256x256 S8x256x256 where
  lhsContracting := [2]
  rhsContracting := [2]
  lhsNonContracting := [1]
  rhsNonContracting := [1]
  lhsBatch := [0]
  rhsBatch := [0]
  wf := dot_S8x256x256_S8x256x256_S8x256x256_2_2_1_1_0_0_wf

abbrev win0_0 : Pipeline.Window sig grid0 :=
  Pipeline.Window.ofSpec (Memref.whole main_v1) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S256x8x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S256x8x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_2) S256x8x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) | ⟨_ + 8, h⟩ => absurd h (Nat.not_lt.2 (Nat.le_add_left _ _))

class Facts : Prop extends Facts₀ where

variable [Facts]
-- ==== ReferenceIdeal.lean ====
abbrev S1024x2048 : Shape := ⟨2, ![1024, 2048]⟩
abbrev S1024 : Shape := ⟨1, ![1024]⟩
abbrev S8x4096x256 : Shape := ⟨3, ![8, 4096, 256]⟩
abbrev S8x256x256 : Shape := ⟨3, ![8, 256, 256]⟩
abbrev S1024x8x256 : Shape := ⟨3, ![1024, 8, 256]⟩
abbrev S8x1024x256 : Shape := ⟨3, ![8, 1024, 256]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1024x1 : Shape := ⟨3, ![8, 1024, 1]⟩
abbrev S8x1024x4096 : Shape := ⟨3, ![8, 1024, 4096]⟩
abbrev S1024x1 : Shape := ⟨2, ![1024, 1]⟩
abbrev S1x4096 : Shape := ⟨2, ![1, 4096]⟩
abbrev S1024x4096 : Shape := ⟨2, ![1024, 4096]⟩
abbrev S1x1024x4096 : Shape := ⟨3, ![1, 1024, 4096]⟩
abbrev S1024x8x4096 : Shape := ⟨3, ![1024, 8, 4096]⟩

abbrev nBuf : Space → Nat
  | .hbm => 97
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024, .i32⟩
  | .hbm, ⟨2, _⟩ => ⟨S8x4096x256, .f32⟩
  | .hbm, ⟨3, _⟩ => ⟨S8x256x256, .f32⟩
  | .hbm, ⟨4, _⟩ => ⟨S8x256x256, .f32⟩
  | .hbm, ⟨5, _⟩ => ⟨S1024x8x256, .f32⟩
  | .hbm, ⟨6, _⟩ => ⟨S8x1024x256, .f32⟩
  | .hbm, ⟨7, _⟩ => ⟨S8x4096x256, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x256, .f32⟩
  | .hbm, ⟨16, _⟩ => ⟨S8x4096x256, .f32⟩
  | .hbm, ⟨17, _⟩ => ⟨S8x1024x256, .f32⟩
  | .hbm, ⟨18, _⟩ => ⟨S_, .f32⟩
  | .hbm, ⟨19, _⟩ => ⟨S8x1024, .f32⟩
  | .hbm, ⟨20, _⟩ => ⟨S8x1024x1, .f32⟩
  | .hbm, ⟨21, _⟩ => ⟨S8x1024x1, .f32⟩
  | .hbm, ⟨22, _⟩ => ⟨S_, .f32⟩
  | .hbm, ⟨23, _⟩ => ⟨S8x1024x1, .f32⟩
  | .hbm, ⟨24, _⟩ => ⟨S8x1024x1, .f32⟩
  | .hbm, ⟨25, _⟩ => ⟨S8x1024x256, .f32⟩
  | .hbm, ⟨26, _⟩ => ⟨S8x1024x256, .f32⟩
  | .hbm, ⟨27, _⟩ => ⟨S8x1024x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x1024x4096, .f32⟩
  | .hbm, ⟨32, _⟩ => ⟨S8x1024x4096, .f32⟩
  | .hbm, ⟨33, _⟩ => ⟨S_, .f32⟩
  | .hbm, ⟨34, _⟩ => ⟨S8x1024x4096, .f32⟩
  | .hbm, ⟨35, _⟩ => ⟨S8x1024x4096, .f32⟩
  | .hbm, ⟨36, _⟩ => ⟨S8x1024x256, .f32⟩
  | .hbm, ⟨37, _⟩ => ⟨S_, .f32⟩
  | .hbm, ⟨38, _⟩ => ⟨S8x1024, .f32⟩
  | .hbm, ⟨39, _⟩ => ⟨S_, .f32⟩
  | .hbm, ⟨40, _⟩ => ⟨S8x1024, .f32⟩
  | .hbm, ⟨41, _⟩ => ⟨S8x1024, .f32⟩
  | .hbm, ⟨42, _⟩ => ⟨S8x1024x1, .f32⟩
  | .hbm, ⟨43, _⟩ => ⟨S8x1024x256, .f32⟩
  | .hbm, ⟨44, _⟩ => ⟨S8x1024x256, .f32⟩
  | .hbm, ⟨45, _⟩ => ⟨S8x1024x256, .f32⟩
  | .hbm, ⟨46, _⟩ => ⟨S_, .f32⟩
  | .hbm, ⟨47, _⟩ => ⟨S8x1024, .f32⟩
  | .hbm, ⟨48, _⟩ => ⟨S8x1024x1, .f32⟩
  | .hbm, ⟨49, _⟩ => ⟨S8x1024x256, .f32⟩
  | .hbm, ⟨50, _⟩ => ⟨S8x1024x256, .f32⟩
  | .hbm, ⟨51, _⟩ => ⟨S8x1024x256, .f32⟩
  | .hbm, ⟨52, _⟩ => ⟨S8x1024x256, .f32⟩
  | .hbm, ⟨53, _⟩ => ⟨S_, .f32⟩
  | .hbm, ⟨54, _⟩ => ⟨S8x1024, .f32⟩
  | .hbm, ⟨55, _⟩ => ⟨S8x1024x1, .f32⟩
  | .hbm, ⟨56, _⟩ => ⟨S8x1024x1, .f32⟩
  | .hbm, ⟨57, _⟩ => ⟨S_, .f32⟩
  | .hbm, ⟨58, _⟩ => ⟨S8x1024x1, .f32⟩
  | .hbm, ⟨59, _⟩ => ⟨S8x1024x1, .f32⟩
  | .hbm, ⟨60, _⟩ => ⟨S8x1024x256, .f32⟩
  | .hbm, ⟨61, _⟩ => ⟨S8x1024x256, .f32⟩
  | .hbm, ⟨62, _⟩ => ⟨S8x1024x4096, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S8x1024x4096, .f32⟩
  | .hbm, ⟨67, _⟩ => ⟨S8x1024x4096, .f32⟩
  | .hbm, ⟨68, _⟩ => ⟨S_, .f32⟩
  | .hbm, ⟨69, _⟩ => ⟨S8x1024x4096, .f32⟩
  | .hbm, ⟨70, _⟩ => ⟨S8x1024x4096, .f32⟩
  | .hbm, ⟨71, _⟩ => ⟨S1024x1, .i32⟩
  | .hbm, ⟨72, _⟩ => ⟨S1x4096, .i32⟩
  | .hbm, ⟨73, _⟩ => ⟨S1024x4096, .i32⟩
  | .hbm, ⟨74, _⟩ => ⟨S1024x4096, .i32⟩
  | .hbm, ⟨75, _⟩ => ⟨S1024x4096, .i1⟩
  | .hbm, ⟨76, _⟩ => ⟨S1024x4096, .f32⟩
  | .hbm, ⟨77, _⟩ => ⟨S1x1024x4096, .f32⟩
  | .hbm, ⟨78, _⟩ => ⟨S_, .f32⟩
  | .hbm, ⟨79, _⟩ => ⟨S1x1024x4096, .f32⟩
  | .hbm, ⟨80, _⟩ => ⟨S1x1024x4096, .f32⟩
  | .hbm, ⟨81, _⟩ => ⟨S8x1024x4096, .f32⟩
  | .hbm, ⟨82, _⟩ => ⟨S8x1024x4096, .f32⟩
  | .hbm, ⟨83, _⟩ => ⟨S_, .f32⟩
  | .hbm, ⟨84, _⟩ => ⟨S8x1024x4096, .f32⟩
  | .hbm, ⟨85, _⟩ => ⟨S8x1024x4096, .f32⟩
  | .hbm, ⟨86, _⟩ => ⟨S_, .f32⟩
  | .hbm, ⟨87, _⟩ => ⟨S1x1024x4096, .f32⟩
  | .hbm, ⟨88, _⟩ => ⟨S1x1024x4096, .f32⟩
  | .hbm, ⟨89, _⟩ => ⟨S8x1024x4096, .f32⟩
  | .hbm, ⟨90, _⟩ => ⟨S8x1024x4096, .f32⟩
  | .hbm, ⟨91, _⟩ => ⟨S_, .f32⟩
  | .hbm, ⟨92, _⟩ => ⟨S8x1024x4096, .f32⟩
  | .hbm, ⟨93, _⟩ => ⟨S8x1024x4096, .f32⟩
  | .hbm, ⟨94, _⟩ => ⟨S1024x8x4096, .f32⟩
  | .hbm, ⟨95, _⟩ => ⟨S1024x8x4096, .f32⟩
  | .hbm, ⟨96, _⟩ => ⟨S1024x8x256, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_cst_11 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v42 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v43 : Ref sig .tc := ⟨.hbm, 76, rfl⟩
abbrev main_v44 : Ref sig .tc := ⟨.hbm, 77, rfl⟩
abbrev main_cst_12 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_13 : Ref sig .tc := ⟨.hbm, 83, rfl⟩
abbrev main_v49 : Ref sig .tc := ⟨.hbm, 84, rfl⟩
abbrev main_v50 : Ref sig .tc := ⟨.hbm, 85, rfl⟩
abbrev main_cst_14 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_15 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩

abbrev nD : Nat := 1
abbrev τ : Topo := Topo.v7x

variable {F : FTy → Type} [FloatOps F]

class Facts₀ : Prop where
  shapeCasts_S1024x2048_S1024x8x256 : S1024x2048.ShapeCasts S1024x8x256
  transposes_S1024x8x256_S8x1024x256_1_0_2 : S1024x8x256.Transposes [1, 0, 2] S8x1024x256
  reducesTo_S8x4096x256_S8x4096_d2 : S8x4096x256.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x256_0_1_2 : S8x4096x1.BroadcastsInDim S8x4096x256 (![0, 1, 2] : Fin 3 → Fin S8x4096x256.rank)
  reducesTo_S8x1024x256_S8x1024_d2 : S8x1024x256.ReducesTo [2] S8x1024
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x256_0_1_2 : S8x1024x1.BroadcastsInDim S8x1024x256 (![0, 1, 2] : Fin 3 → Fin S8x1024x256.rank)
  bcast_S_S8x1024x4096 : S_.BroadcastsInDim S8x1024x4096 (![] : Fin 0 → Fin S8x1024x4096.rank)
  bcast_S_S8x1024 : S_.BroadcastsInDim S8x1024 (![] : Fin 0 → Fin S8x1024.rank)
  bcast_S1024_S1024x1_0 : S1024.BroadcastsInDim S1024x1 (![0] : Fin 1 → Fin S1024x1.rank)
  bcast_S1024x1_S1024x4096_0_1 : S1024x1.BroadcastsInDim S1024x4096 (![0, 1] : Fin 2 → Fin S1024x4096.rank)
  bcast_S1x4096_S1024x4096_0_1 : S1x4096.BroadcastsInDim S1024x4096 (![0, 1] : Fin 2 → Fin S1024x4096.rank)
  bcast_S1024x4096_S1x1024x4096_1_2 : S1024x4096.BroadcastsInDim S1x1024x4096 (![1, 2] : Fin 2 → Fin S1x1024x4096.rank)
  bcast_S_S1x1024x4096 : S_.BroadcastsInDim S1x1024x4096 (![] : Fin 0 → Fin S1x1024x4096.rank)
  bcast_S1x1024x4096_S8x1024x4096_0_1_2 : S1x1024x4096.BroadcastsInDim S8x1024x4096 (![0, 1, 2] : Fin 3 → Fin S8x1024x4096.rank)
  transposes_S8x1024x4096_S1024x8x4096_1_0_2 : S8x1024x4096.Transposes [1, 0, 2] S1024x8x4096
  transposes_S8x1024x256_S1024x8x256_1_0_2 : S8x1024x256.Transposes [1, 0, 2] S1024x8x256
  dot_S8x1024x256_S8x4096x256_S8x1024x4096_2_2_1_1_0_0_wf : DotDims.WF S8x1024x256 S8x4096x256 S8x1024x4096 [2] [2] [1] [1] [0] [0]
  dot_S8x1024x256_S8x256x256_S8x1024x256_2_1_1_2_0_0_wf : DotDims.WF S8x1024x256 S8x256x256 S8x1024x256 [2] [1] [1] [2] [0] [0]
  dot_S8x1024x256_S8x256x256_S8x1024x256_2_2_1_1_0_0_wf : DotDims.WF S8x1024x256 S8x256x256 S8x1024x256 [2] [2] [1] [1] [0] [0]

variable [Facts₀]

def dot_S8x1024x256_S8x4096x256_S8x1024x4096_2_2_1_1_0_0 : DotDims S8x1024x256 S8x4096x256 S8x1024x4096 where
  lhsContracting := [2]
  rhsContracting := [2]
  lhsNonContracting := [1]
  rhsNonContracting := [1]
  lhsBatch := [0]
  rhsBatch := [0]
  wf := dot_S8x1024x256_S8x4096x256_S8x1024x4096_2_2_1_1_0_0_wf
def dot_S8x1024x256_S8x256x256_S8x1024x256_2_1_1_2_0_0 : DotDims S8x1024x256 S8x256x256 S8x1024x256 where
  lhsContracting := [2]
  rhsContracting := [1]
  lhsNonContracting := [1]
  rhsNonContracting := [2]
  lhsBatch := [0]
  rhsBatch := [0]
  wf := dot_S8x1024x256_S8x256x256_S8x1024x256_2_1_1_2_0_0_wf
def dot_S8x1024x256_S8x256x256_S8x1024x256_2_2_1_1_0_0 : DotDims S8x1024x256 S8x256x256 S8x1024x256 where
  lhsContracting := [2]
  rhsContracting := [2]
  lhsNonContracting := [1]
  rhsNonContracting := [1]
  lhsBatch := [0]
  rhsBatch := [0]
  wf := dot_S8x1024x256_S8x256x256_S8x1024x256_2_2_1_1_0_0_wf

class Facts : Prop extends Facts₀ where

variable [Facts]
-- ==== Proof.KernelBody.Shared.lean ====
/-
  What the two runs of the kernel body and the proof data share: the one branch of the body — taken exactly at
  the first column tile of each row tile, i.e. at the grid points t with t % 16 = 0 —, where the third output's
  window is idle (every other point) and where it is written back (the last column tile, t % 16 = 15), the
  staging memrefs of a point, and the two scratch buffers the body carries from the first column tile of a row
  tile to the fifteen that follow.
-/
import proofs.«109032_j15315853378150_2_alg».proof.Proof.Gen.Kernel.Frame
import proofs.«109032_j15315853378150_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition: the column-tile coordinate is zero. -/
abbrev cond0_0 (i : grid0.Coords) : Prop := k0_cond1 i = 1#1

/-- It holds exactly at the points t with t % 16 = 0 (the grid is 4 × 16, the column tile the fast axis). -/
theorem hcond0_0 : ∀ t : Fin cfg0.N, cond0_0 (grid0.coords t) ↔ t.val % 16 = 0 :=
  (by decide +kernel : ∀ t : Fin grid0.N, cond0_0 (grid0.coords t) ↔ t.val % 16 = 0)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- The third output is stored only where the branch is taken: -/
theorem liveAt0_7 : ∀ t : Fin cfg0.N, t.val % 16 = 0 → cfg0.idle 7 (grid0.coords t) = false := by decide +kernel
/-- at every other point its window is idle, -/
theorem idleAt0_7 : ∀ t : Fin cfg0.N, ¬ t.val % 16 = 0 → cfg0.idle 7 (grid0.coords t) = true := by decide +kernel
/-- and it is written back at the last column tile of each row tile only. -/
theorem flushAt0_7 : ∀ t : Fin cfg0.N, (cfg0.win 7).flush t = decide (t.val % 16 = 15) := by decide +kernel

/-- Each window's current staging memref at point t, and its wholeness. -/
abbrev ms0_0 (t : Fin cfg0.N) : Memref sig .tc .vmem S8x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x8x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x8x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x8x256 .f32 := win0_7.stage (cfg0.slots t 7)
abbrev hs0_7 (t : Fin cfg0.N) : (ms0_7 t).IsWhole := hstage0_7 ((cfg0.slots t 7).cast nbuf0_7)
/-- The two scratch operands: whole buffers of the kernel's own. -/
abbrev scM0_0 : Memref sig .tc .vmem S8x256x256 .bf16 := Memref.whole cc0_scratch0
abbrev scM0_1 : Memref sig .tc .vmem S8x256x256 .bf16 := Memref.whole cc0_scratch1

/-- One whole buffer of each shape the body stores into, through which contents are stated. -/
abbrev VO0_5 : View sig .tc .vmem S256x8x256 .f32 := (Memref.whole cc0_stg5_0 : Memref sig .tc .vmem S256x8x256 .f32).view
abbrev VS0_0 : View sig .tc .vmem S8x256x256 .bf16 := scM0_0.view

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.KernelBody.RunA.lean ====
/-
  The kernel body at a point where its branch is taken (the first column tile of a row tile): from the five input
  blocks it stores the normalised x rows into the first scratch, the softmax into the third output's buffer, the
  normalised soft-quantised rows into the second scratch, and then — reading both scratch buffers back — the two
  margin-combined cosine blocks into the first two outputs' buffers. Each buffer ends holding the pieces the body's
  stores wrote, which the symbolic run finds.
-/
import proofs.«109032_j15315853378150_2_alg».proof.Proof.KernelBody.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces each output buffer and each scratch buffer ends with when the branch is taken, with the proof that on
    whole memrefs — the inputs' at their contents, the others at anything — the body runs and hands every buffer
    back, the inputs' as they were, the others with those pieces written. -/
noncomputable def kernelRun0_A (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) :
    Σ' (L5 : List (View.Piece (Elt F) S256x8x256 .f32)) (L6 : List (View.Piece (Elt F) S256x8x256 .f32)) (L7 : List (View.Piece (Elt F) S256x8x256 .f32)) (LS0 : List (View.Piece (Elt F) S8x256x256 .bf16)), { LS1 : List (View.Piece (Elt F) S8x256x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Body

end
-- ==== Proof.KernelBody.RunB.lean ====
/-
  The kernel body at a point where its branch is not taken (the fifteen later column tiles of a row tile): it reads
  the weight block, the label block and the two scratch buffers — which hold what the row tile's first point stored —
  and stores the two margin-combined cosine blocks; the third output's buffer and both scratch buffers are handed
  back untouched.
-/
import proofs.«109032_j15315853378150_2_alg».proof.Proof.KernelBody.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the first two output buffers end with when the branch is not taken, with the proof that on whole
    memrefs — the inputs', the third output's and the two scratch buffers at their contents, the first two outputs'
    at anything — the body runs and hands every buffer back, those two with the pieces written, the rest as they were. -/
noncomputable def kernelRun0_B (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : ¬cond0_0 i)
    (x0 : Vec F S8x256x256 .f32) (x1 : Vec F S8x256x256 .f32) (x2 : Vec F S8x256x256 .f32) (x3 : Vec F S8x256x256 .f32) (x4 : Vec F S256x1 .i32) (xs0 : Vec F S8x256x256 .bf16) (xs1 : Vec F S8x256x256 .bf16) :
    Σ' (L5 : List (View.Piece (Elt F) S256x8x256 .f32)), { L6 : List (View.Piece (Elt F) S256x8x256 .f32) //
      ∀ (xi7 : Vec F S256x8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ owns (c : Thread nD τ) arg10 fullShare xs0 ∗ owns (c : Thread nD τ) arg11 fullShare xs1) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, fun xi7 E K => ?run⟩
  case run =>
    simp only [cc0__kernel_eq_skeleton]; unfold cc0__kernel_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg9.eq_unread hf7; obtain rfl := harg10.eq_unread hfs0; obtain rfl := harg11.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    isplitl [HS0]
    · iexists _; isplitr; · ipureintro; exact harg10.read_unread _
      iexact HS0
    iexists _; isplitr; · ipureintro; exact harg11.read_unread _
    iexact HS1

end Cert.Kernel.Body

end
-- ==== Proof.KernelBody.Frame.lean ====
/-
  The proof data of the pipeline and the body obligation, with every output named.

  A row tile's first point (t % 16 = 0) stores both scratch buffers and the third output's block; the fifteen points
  that follow only read them. So after point t the first scratch holds what the point base t = t - t % 16 stored,
  likewise the second, and the third output's buffer — idle at those fifteen points and written back at the last of
  them — still holds what base t stored. The first two outputs' buffers hold, at every point, the block the body stored
  there: computed from the point's weight and label blocks and the two scratch buffers' contents.
-/
import proofs.«109032_j15315853378150_2_alg».proof.Proof.KernelBody.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's run leaves, read back -/

def outA5 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) : Vec F S256x8x256 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 x0 x1 x2 x3 x4).1)
theorem cover_outA5 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) (y : S256x8x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4).1, y ∈ pc.1.set :=
  View.cover_of_tiledL _ S256x8x256.size (by sl_kernel_rfl) y

def outA6 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) : Vec F S256x8x256 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 x0 x1 x2 x3 x4).2.1)
theorem cover_outA6 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) (y : S256x8x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4).2.1, y ∈ pc.1.set :=
  View.cover_of_tiledL _ S256x8x256.size (by sl_kernel_rfl) y

def outA7 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) : Vec F S256x8x256 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 x0 x1 x2 x3 x4).2.2.1)
theorem cover_outA7 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) (y : S256x8x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4).2.2.1, y ∈ pc.1.set :=
  View.cover_of_tiledL _ S256x8x256.size (by sl_kernel_rfl) y

def scrA0 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) : Vec F S8x256x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4).2.2.2.1)
theorem cover_scrA0 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) (y : S8x256x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4).2.2.2.1, y ∈ pc.1.set :=
  View.cover_of_tiledL _ S8x256x256.size (by sl_kernel_rfl) y

def scrA1 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) : Vec F S8x256x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4).2.2.2.2.1)
theorem cover_scrA1 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) (y : S8x256x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4).2.2.2.2.1, y ∈ pc.1.set :=
  View.cover_of_tiledL _ S8x256x256.size (by sl_kernel_rfl) y

def outB5 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : ¬cond0_0 i)
    (x0 : Vec F S8x256x256 .f32) (x1 : Vec F S8x256x256 .f32) (x2 : Vec F S8x256x256 .f32) (x3 : Vec F S8x256x256 .f32) (x4 : Vec F S256x1 .i32) (xs0 : Vec F S8x256x256 .bf16) (xs1 : Vec F S8x256x256 .bf16) : Vec F S256x8x256 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 x0 x1 x2 x3 x4 xs0 xs1).1)
theorem cover_outB5 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : ¬cond0_0 i)
    (x0 : Vec F S8x256x256 .f32) (x1 : Vec F S8x256x256 .f32) (x2 : Vec F S8x256x256 .f32) (x3 : Vec F S8x256x256 .f32) (x4 : Vec F S256x1 .i32) (xs0 : Vec F S8x256x256 .bf16) (xs1 : Vec F S8x256x256 .bf16) (y : S256x8x256.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 xs0 xs1).1, y ∈ pc.1.set :=
  View.cover_of_tiledL _ S256x8x256.size (by sl_kernel_rfl) y

def outB6 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : ¬cond0_0 i)
    (x0 : Vec F S8x256x256 .f32) (x1 : Vec F S8x256x256 .f32) (x2 : Vec F S8x256x256 .f32) (x3 : Vec F S8x256x256 .f32) (x4 : Vec F S256x1 .i32) (xs0 : Vec F S8x256x256 .bf16) (xs1 : Vec F S8x256x256 .bf16) : Vec F S256x8x256 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 x0 x1 x2 x3 x4 xs0 xs1).2.1)
theorem cover_outB6 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : ¬cond0_0 i)
    (x0 : Vec F S8x256x256 .f32) (x1 : Vec F S8x256x256 .f32) (x2 : Vec F S8x256x256 .f32) (x3 : Vec F S8x256x256 .f32) (x4 : Vec F S256x1 .i32) (xs0 : Vec F S8x256x256 .bf16) (xs1 : Vec F S8x256x256 .bf16) (y : S256x8x256.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 xs0 xs1).2.1, y ∈ pc.1.set :=
  View.cover_of_tiledL _ S256x8x256.size (by sl_kernel_rfl) y

/-! ## A row tile's first point -/

/-- The first point of t's row tile. -/
def base (t : Fin cfg0.N) : Fin cfg0.N := ⟨t.val - t.val % 16, Nat.lt_of_le_of_lt (Nat.sub_le _ _) t.isLt⟩
theorem base_mod (t : Fin cfg0.N) : (base t).val % 16 = 0 := by
  show (t.val - t.val % 16) % 16 = 0; omega
theorem base_of_first (t : Fin cfg0.N) (h : t.val % 16 = 0) : base t = t :=
  Fin.ext (by show t.val - t.val % 16 = t.val; omega)
theorem base_pred (n : ℕ) (hn : n + 1 < cfg0.N) (h : ¬ (n + 1) % 16 = 0) :
    base ⟨n, Nat.lt_of_succ_lt hn⟩ = base ⟨n + 1, hn⟩ :=
  Fin.ext (by show n - n % 16 = (n + 1) - (n + 1) % 16; omega)

/-- What the first point s of a row tile leaves in the first scratch buffer, -/
def scr0At (c : Dev nD) (s : Fin cfg0.N) (h : s.val % 16 = 0) : Vec F S8x256x256 .bf16 :=
  scrA0 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) scM0_0 (Memref.isWhole_whole _) scM0_1 (Memref.isWhole_whole _) ((hcond0_0 s).mpr h) (iblk m c 0 s) (iblk m c 1 s) (iblk m c 2 s) (iblk m c 3 s) (iblk m c 4 s)
/-- in the second, -/
def scr1At (c : Dev nD) (s : Fin cfg0.N) (h : s.val % 16 = 0) : Vec F S8x256x256 .bf16 :=
  scrA1 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) scM0_0 (Memref.isWhole_whole _) scM0_1 (Memref.isWhole_whole _) ((hcond0_0 s).mpr h) (iblk m c 0 s) (iblk m c 1 s) (iblk m c 2 s) (iblk m c 3 s) (iblk m c 4 s)
/-- and in the third output's buffer. -/
def out7At (c : Dev nD) (s : Fin cfg0.N) (h : s.val % 16 = 0) : Vec F S256x8x256 .f32 :=
  outA7 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) scM0_0 (Memref.isWhole_whole _) scM0_1 (Memref.isWhole_whole _) ((hcond0_0 s).mpr h) (iblk m c 0 s) (iblk m c 1 s) (iblk m c 2 s) (iblk m c 3 s) (iblk m c 4 s)

theorem scr0At_congr (c : Dev nD) (s s' : Fin cfg0.N) (e : s = s') (h : s.val % 16 = 0) (h' : s'.val % 16 = 0) :
    scr0At m c s h = scr0At m c s' h' := by subst e; rfl
theorem scr1At_congr (c : Dev nD) (s s' : Fin cfg0.N) (e : s = s') (h : s.val % 16 = 0) (h' : s'.val % 16 = 0) :
    scr1At m c s h = scr1At m c s' h' := by subst e; rfl
theorem out7At_congr (c : Dev nD) (s s' : Fin cfg0.N) (e : s = s') (h : s.val % 16 = 0) (h' : s'.val % 16 = 0) :
    out7At m c s h = out7At m c s' h' := by subst e; rfl

/-! ## What the outputs' buffers hold after each point -/

def after5 (c : Dev nD) (t : Fin cfg0.N) : Vec F S256x8x256 .f32 :=
  if h : t.val % 16 = 0 then outA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h) (iblk m c 0 t) (iblk m c 1 t) (iblk m c 2 t) (iblk m c 3 t) (iblk m c 4 t)
  else outB5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hc => h ((hcond0_0 t).mp hc)) (iblk m c 0 t) (iblk m c 1 t) (iblk m c 2 t) (iblk m c 3 t) (iblk m c 4 t) (scr0At m c (base t) (base_mod t)) (scr1At m c (base t) (base_mod t))
def after6 (c : Dev nD) (t : Fin cfg0.N) : Vec F S256x8x256 .f32 :=
  if h : t.val % 16 = 0 then outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h) (iblk m c 0 t) (iblk m c 1 t) (iblk m c 2 t) (iblk m c 3 t) (iblk m c 4 t)
  else outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hc => h ((hcond0_0 t).mp hc)) (iblk m c 0 t) (iblk m c 1 t) (iblk m c 2 t) (iblk m c 3 t) (iblk m c 4 t) (scr0At m c (base t) (base_mod t)) (scr1At m c (base t) (base_mod t))
def after7 (c : Dev nD) (t : Fin cfg0.N) : Vec F S256x8x256 .f32 := out7At m c (base t) (base_mod t)

/-- The region's invariant before position n: before the first point both scratch buffers hold anything; afterwards
    they hold what the first point of the previous point's row tile stored. -/
def PhiS (c : Dev nD) : (n : ℕ) → n ≤ cfg0.N → sProp 𝕄
  | 0, _ => Pipeline.ΦA spec0 c
  | n + 1, hn => iprop(iprop(owns (c : Thread nD τ) scM0_0 fullShare (scr0At m c (base ⟨n, hn⟩) (base_mod _)) ∗ owns (c : Thread nD τ) scM0_1 fullShare (scr1At m c (base ⟨n, hn⟩) (base_mod _))) ∗ (∃ r, prngReg c r))

theorem PhiS_zero (c : Dev nD) (n : ℕ) (h : n ≤ cfg0.N) (hz : n = 0) : PhiS m c n h = Pipeline.ΦA spec0 c := by
  subst hz; rfl

/-- Before any later point: the scratch buffers at what the previous point's row tile stored. -/
theorem PhiS_pos (c : Dev nD) (n : ℕ) (h : n ≤ cfg0.N) (hz : n ≠ 0) :
    PhiS m c n h = iprop(iprop(owns (c : Thread nD τ) scM0_0 fullShare (scr0At m c (base ⟨n - 1, by omega⟩) (base_mod _)) ∗ owns (c : Thread nD τ) scM0_1 fullShare (scr1At m c (base ⟨n - 1, by omega⟩) (base_mod _))) ∗ (∃ r, prngReg c r)) := by
  cases n with
  | zero => exact absurd rfl hz
  | succ n => rfl

theorem PhiS_after (c : Dev nD) (t : Fin cfg0.N) :
    PhiS m c (t.val + 1) t.isLt = iprop(iprop(owns (c : Thread nD τ) scM0_0 fullShare (scr0At m c (base t) (base_mod t)) ∗ owns (c : Thread nD τ) scM0_1 fullShare (scr1At m c (base t) (base_mod t))) ∗ (∃ r, prngReg c r)) := rfl

/-- Before a point that is not the first of its row tile the scratch buffers hold what that row tile's first point stored. -/
theorem PhiS_later (c : Dev nD) (t : Fin cfg0.N) (h0 : ¬ t.val % 16 = 0) :
    PhiS m c t.val (Nat.le_of_lt t.isLt) = iprop(iprop(owns (c : Thread nD τ) scM0_0 fullShare (scr0At m c (base t) (base_mod t)) ∗ owns (c : Thread nD τ) scM0_1 fullShare (scr1At m c (base t) (base_mod t))) ∗ (∃ r, prngReg c r)) := by
  obtain ⟨n, hn⟩ := t
  cases n with
  | zero => exact absurd (Nat.zero_mod _) h0
  | succ n =>
    show iprop(iprop(owns (c : Thread nD τ) scM0_0 fullShare (scr0At m c (base ⟨n, _⟩) (base_mod _)) ∗ owns (c : Thread nD τ) scM0_1 fullShare (scr1At m c (base ⟨n, _⟩) (base_mod _))) ∗ (∃ r, prngReg c r)) = _
    rw [scr0At_congr m c _ _ (base_pred n hn h0) _ (base_mod _), scr1At_congr m c _ _ (base_pred n hn h0) _ (base_mod _)]

/-- Before a row tile's first point that is not the grid's first the scratch buffers hold something. -/
theorem PhiS_first (c : Dev nD) (n : ℕ) (h : n ≤ cfg0.N) (hz : n ≠ 0) :
    PhiS m c n h ⊢ Pipeline.ΦA spec0 c := by
  cases n with
  | zero => exact absurd rfl hz
  | succ n =>
    rw [PhiA0_eq]
    show iprop(iprop(owns (c : Thread nD τ) scM0_0 fullShare _ ∗ owns (c : Thread nD τ) scM0_1 fullShare _) ∗ (∃ r, prngReg c r)) ⊢ _
    iintro ⟨⟨HS0, HS1⟩, Hg⟩
    isplitl [HS0 HS1]
    · isplitl [HS0]
      · iexists _; iexact HS0
      iexists _; iexact HS1
    iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => after5 m c t
    | ⟨6, _⟩ => after6 m c t
    | ⟨7, _⟩ => after7 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = after5 m c t := by dsimp only [dats]
theorem after0_6 (c : Dev nD) (t : Fin cfg0.N) : (dats m 0 c).after 6 t = after6 m c t := by dsimp only [dats]
theorem after0_7 (c : Dev nD) (t : Fin cfg0.N) : (dats m 0 c).after 7 t = after7 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a point that is not the first of its row tile the third output's buffer still holds what that first point
    stored: no point in between stores into it or writes it back. -/
theorem before0_7_later (c : Dev nD) : ∀ (n : ℕ) (hn : n < cfg0.N), ¬ n % 16 = 0 → ∀ d,
    (dats m 0 c).before 7 ⟨n, hn⟩ d = after7 m c ⟨n, hn⟩
  | 0, _, h, _ => absurd (Nat.zero_mod _) h
  | n + 1, hn, h, d => by
    rw [Dat.before_of_pos (dats m 0 c) 7 ⟨n + 1, hn⟩ (Nat.succ_ne_zero n) ((cfg0.win 7).fetch_out rfl _)]
    have hfl : (cfg0.win 7).flush ⟨n + 1 - 1, Nat.lt_of_le_of_lt (Nat.sub_le _ _) hn⟩ = false := by
      rw [flushAt0_7]; exact decide_eq_false (by show ¬ (n + 1 - 1) % 16 = 15; omega)
    rw [hfl, if_neg Bool.false_ne_true]
    unfold Dat.left
    by_cases hp : n % 16 = 0
    · rw [show cfg0.idle 7 (cfg0.grid.coords ⟨n + 1 - 1, Nat.lt_of_le_of_lt (Nat.sub_le _ _) hn⟩) = false from
        liveAt0_7 ⟨n + 1 - 1, Nat.lt_of_le_of_lt (Nat.sub_le _ _) hn⟩ (by show (n + 1 - 1) % 16 = 0; omega)]
      show (dats m 0 c).after 7 ⟨n, Nat.lt_of_succ_lt hn⟩ = _
      rw [after0_7]; unfold after7
      exact out7At_congr m c _ _ (base_pred n hn h) _ _
    · rw [show cfg0.idle 7 (cfg0.grid.coords ⟨n + 1 - 1, Nat.lt_of_le_of_lt (Nat.sub_le _ _) hn⟩) = true from
        idleAt0_7 ⟨n + 1 - 1, Nat.lt_of_le_of_lt (Nat.sub_le _ _) hn⟩ (by show ¬ (n + 1 - 1) % 16 = 0; omega)]
      show (dats m 0 c).before 7 ⟨n, Nat.lt_of_succ_lt hn⟩ d = _
      rw [before0_7_later c n (Nat.lt_of_succ_lt hn) hp d]; unfold after7
      exact out7At_congr m c _ _ (base_pred n hn h) _ _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' buffers hold their blocks; at a row tile's first point the first run applies
    (the scratch buffers at anything in, at what it stored out), at the others the second (the scratch buffers and the
    third output's buffer in and out at what the row tile's first point stored). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_after]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 16 = 0
  · rw [show (dats m 0 c).leavesExact 7 t = owns (c : Thread nD τ) (ms0_7 t) fullShare ((dats m 0 c).after 7 t) from by
      unfold Dat.leavesExact; rw [liveAt0_7 t h0], after0_7]
    rw [scr0At_congr m c (base t) t (base_of_first t h0) (base_mod t) h0, scr1At_congr m c (base t) t (base_of_first t h0) (base_mod t) h0]
    rw [show after7 m c t = out7At m c t h0 from out7At_congr m c _ _ (base_of_first t h0) _ _]
    rw [show after5 m c t = outA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) from dif_pos h0]
    rw [show after6 m c t = outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) from dif_pos h0]
    unfold outA5 outA6 out7At outA7 scr0At scrA0 scr1At scrA1
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (cover_scrA0 c _ _ _ _ _ _ _ _ _ _ _ _ _ _ _ _ _ _ _ _ _ _ _ _ _ _ _)
          unfold owns; iexists _; isplitr
          swap; · iexact HS1
          ipureintro; exact View.read_writes_of_cover _ _ _ _ _ (cover_scrA1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover_outA5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover_outA6 c _ _ _ _ _ _ _ _ _ _ _ _ _ _ _ _ _ _ _ _ _ _ _ _ _ _ _)
      unfold owns; iexists _; isplitr
      swap; · iexact H7
      ipureintro; exact View.read_writes_of_cover _ _ _ _ _ (cover_outA7 c _ _ _ _ _ _ _ _ _ _ _ _ _ _ _ _ _ _ _ _ _ _ _ _ _ _ _)
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexists _; iexact HS0
      isplitl [HS1]; · iexists _; iexact HS1
      iintro ⟨H0, H1, H2, H3, H4, ⟨%e5, H5⟩, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (cover_scrA0 c _ _ _ _ _ _ _ _ _ _ _ _ _ _ _ _ _ _ _ _ _ _ _ _ _ _ _)
          unfold owns; iexists _; isplitr
          swap; · iexact HS1
          ipureintro; exact View.read_writes_of_cover _ _ _ _ _ (cover_scrA1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover_outA5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover_outA6 c _ _ _ _ _ _ _ _ _ _ _ _ _ _ _ _ _ _ _ _ _ _ _ _ _ _ _)
      unfold owns; iexists _; isplitr
      swap; · iexact H7
      ipureintro; exact View.read_writes_of_cover _ _ _ _ _ (cover_outA7 c _ _ _ _ _ _ _ _ _ _ _ _ _ _ _ _ _ _ _ _ _ _ _ _ _ _ _)
  · rw [show after5 m c t = outB5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hc => h0 ((hcond0_0 t).mp hc)) (iblk m c 0 t) (iblk m c 1 t) (iblk m c 2 t) (iblk m c 3 t) (iblk m c 4 t) (scr0At m c (base t) (base_mod t)) (scr1At m c (base t) (base_mod t)) from dif_neg h0]
    rw [show after6 m c t = outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hc => h0 ((hcond0_0 t).mp hc)) (iblk m c 0 t) (iblk m c 1 t) (iblk m c 2 t) (iblk m c 3 t) (iblk m c 4 t) (scr0At m c (base t) (base_mod t)) (scr1At m c (base t) (base_mod t)) from dif_neg h0]
    unfold outB5 outB6
    rw [PhiS_castSucc m c t, PhiS_later m c t h0]
    simp only [before0_7_later m c t.val t.isLt h0]
    by_cases hf : t.val % 16 = 15
    · rw [show (dats m 0 c).leavesExact 7 t = owns (c : Thread nD τ) (ms0_7 t) fullShare ((dats m 0 c).after 7 t) from by
        unfold Dat.leavesExact; rw [idleAt0_7 t h0, show (cfg0.win 7).flush t = true from by rw [flushAt0_7]; exact decide_eq_true hf], after0_7]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun hc => h0 ((hcond0_0 t).mp hc)) (iblk m c 0 t) (iblk m c 1 t) (iblk m c 2 t) (iblk m c 3 t) (iblk m c 4 t) _ _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      isplitl [HS1]; · iexact HS1
      iintro ⟨H0, H1, H2, H3, H4, ⟨%e5, H5⟩, ⟨%e6, H6⟩, H7, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover_outB5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover_outB6 c _ _ _ _ _ _ _ _ _ _ _ _ _ _ _ _ _ _ _ _ _ _ _ _ _ _ _ _ _)
      iexact H7
    · rw [Dat.leavesExact_idle (dats m 0 c) 7 t (idleAt0_7 t h0) (by rw [flushAt0_7]; exact decide_eq_false hf)]
      simp only [before0_7_later m c t.val t.isLt h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun hc => h0 ((hcond0_0 t).mp hc)) (iblk m c 0 t) (iblk m c 1 t) (iblk m c 2 t) (iblk m c 3 t) (iblk m c 4 t) _ _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      isplitl [HS1]; · iexact HS1
      iintro ⟨H0, H1, H2, H3, H4, ⟨%e5, H5⟩, ⟨%e6, H6⟩, H7, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover_outB5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover_outB6 c _ _ _ _ _ _ _ _ _ _ _ _ _ _ _ _ _ _ _ _ _ _ _ _ _ _ _ _ _)
      iexists d7; iexact H7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_first m c _ _ (by rw [Fin.val_last]; have : cfg0.N = 64 := N_0; omega)

/-! ## The run and the frame -/

set_option backward.isDefEq.respectTransparency.types false in
/-- Every weakly fair execution of @main terminates, and every final state has every array of the pipeline at what the
    proof data's blocks, written back point by point, make of it, and every other buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every argument array ends as it began, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KernelIdealBody.Shared.lean ====
/-
  What the two runs of the kernel body and the proof data share: the one branch of the body — taken exactly at
  the first column tile of each row tile, i.e. at the grid points t with t % 16 = 0 —, where the third output's
  window is idle (every other point) and where it is written back (the last column tile, t % 16 = 15), the
  staging memrefs of a point, and the two scratch buffers the body carries from the first column tile of a row
  tile to the fifteen that follow.
-/
import proofs.«109032_j15315853378150_2_alg».proof.Proof.Gen.KernelIdeal.Frame
import proofs.«109032_j15315853378150_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition: the column-tile coordinate is zero. -/
abbrev cond0_0 (i : grid0.Coords) : Prop := k0_cond1 i = 1#1

/-- It holds exactly at the points t with t % 16 = 0 (the grid is 4 × 16, the column tile the fast axis). -/
theorem hcond0_0 : ∀ t : Fin cfg0.N, cond0_0 (grid0.coords t) ↔ t.val % 16 = 0 :=
  (by decide +kernel : ∀ t : Fin grid0.N, cond0_0 (grid0.coords t) ↔ t.val % 16 = 0)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- The third output is stored only where the branch is taken: -/
theorem liveAt0_7 : ∀ t : Fin cfg0.N, t.val % 16 = 0 → cfg0.idle 7 (grid0.coords t) = false := by decide +kernel
/-- at every other point its window is idle, -/
theorem idleAt0_7 : ∀ t : Fin cfg0.N, ¬ t.val % 16 = 0 → cfg0.idle 7 (grid0.coords t) = true := by decide +kernel
/-- and it is written back at the last column tile of each row tile only. -/
theorem flushAt0_7 : ∀ t : Fin cfg0.N, (cfg0.win 7).flush t = decide (t.val % 16 = 15) := by decide +kernel

/-- Each window's current staging memref at point t, and its wholeness. -/
abbrev ms0_0 (t : Fin cfg0.N) : Memref sig .tc .vmem S8x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x8x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x8x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x8x256 .f32 := win0_7.stage (cfg0.slots t 7)
abbrev hs0_7 (t : Fin cfg0.N) : (ms0_7 t).IsWhole := hstage0_7 ((cfg0.slots t 7).cast nbuf0_7)
/-- The two scratch operands: whole buffers of the kernel's own. -/
abbrev scM0_0 : Memref sig .tc .vmem S8x256x256 .bf16 := Memref.whole cc0_scratch0
abbrev scM0_1 : Memref sig .tc .vmem S8x256x256 .bf16 := Memref.whole cc0_scratch1

/-- One whole buffer of each shape the body stores into, through which contents are stated. -/
abbrev VO0_5 : View sig .tc .vmem S256x8x256 .f32 := (Memref.whole cc0_stg5_0 : Memref sig .tc .vmem S256x8x256 .f32).view
abbrev VS0_0 : View sig .tc .vmem S8x256x256 .bf16 := scM0_0.view

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.KernelIdealBody.RunA.lean ====
/-
  The kernel body at a point where its branch is taken (the first column tile of a row tile): from the five input
  blocks it stores the normalised x rows into the first scratch, the softmax into the third output's buffer, the
  normalised soft-quantised rows into the second scratch, and then — reading both scratch buffers back — the two
  margin-combined cosine blocks into the first two outputs' buffers. Each buffer ends holding the pieces the body's
  stores wrote, which the symbolic run finds.
-/
import proofs.«109032_j15315853378150_2_alg».proof.Proof.KernelIdealBody.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces each output buffer and each scratch buffer ends with when the branch is taken, with the proof that on
    whole memrefs — the inputs' at their contents, the others at anything — the body runs and hands every buffer
    back, the inputs' as they were, the others with those pieces written. -/
noncomputable def kernelRun0_A (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) :
    Σ' (L5 : List (View.Piece (Elt F) S256x8x256 .f32)) (L6 : List (View.Piece (Elt F) S256x8x256 .f32)) (L7 : List (View.Piece (Elt F) S256x8x256 .f32)) (LS0 : List (View.Piece (Elt F) S8x256x256 .bf16)), { LS1 : List (View.Piece (Elt F) S8x256x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Body

end
-- ==== Proof.KernelIdealBody.RunB.lean ====
/-
  The kernel body at a point where its branch is not taken (the fifteen later column tiles of a row tile): it reads
  the weight block, the label block and the two scratch buffers — which hold what the row tile's first point stored —
  and stores the two margin-combined cosine blocks; the third output's buffer and both scratch buffers are handed
  back untouched.
-/
import proofs.«109032_j15315853378150_2_alg».proof.Proof.KernelIdealBody.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the first two output buffers end with when the branch is not taken, with the proof that on whole
    memrefs — the inputs', the third output's and the two scratch buffers at their contents, the first two outputs'
    at anything — the body runs and hands every buffer back, those two with the pieces written, the rest as they were. -/
noncomputable def kernelRun0_B (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : ¬cond0_0 i)
    (x0 : Vec F S8x256x256 .f32) (x1 : Vec F S8x256x256 .f32) (x2 : Vec F S8x256x256 .f32) (x3 : Vec F S8x256x256 .f32) (x4 : Vec F S256x1 .i32) (xs0 : Vec F S8x256x256 .bf16) (xs1 : Vec F S8x256x256 .bf16) :
    Σ' (L5 : List (View.Piece (Elt F) S256x8x256 .f32)), { L6 : List (View.Piece (Elt F) S256x8x256 .f32) //
      ∀ (xi7 : Vec F S256x8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ owns (c : Thread nD τ) arg10 fullShare xs0 ∗ owns (c : Thread nD τ) arg11 fullShare xs1) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, fun xi7 E K => ?run⟩
  case run =>
    simp only [cc0__kernel_eq_skeleton]; unfold cc0__kernel_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg9.eq_unread hf7; obtain rfl := harg10.eq_unread hfs0; obtain rfl := harg11.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    isplitl [HS0]
    · iexists _; isplitr; · ipureintro; exact harg10.read_unread _
      iexact HS0
    iexists _; isplitr; · ipureintro; exact harg11.read_unread _
    iexact HS1

end Cert.KernelIdeal.Body

end
-- ==== Proof.KernelIdealBody.Frame.lean ====
/-
  The proof data of the pipeline and the body obligation, with every output named.

  A row tile's first point (t % 16 = 0) stores both scratch buffers and the third output's block; the fifteen points
  that follow only read them. So after point t the first scratch holds what the point base t = t - t % 16 stored,
  likewise the second, and the third output's buffer — idle at those fifteen points and written back at the last of
  them — still holds what base t stored. The first two outputs' buffers hold, at every point, the block the body stored
  there: computed from the point's weight and label blocks and the two scratch buffers' contents.
-/
import proofs.«109032_j15315853378150_2_alg».proof.Proof.KernelIdealBody.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's run leaves, read back -/

def outA5 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) : Vec F S256x8x256 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 x0 x1 x2 x3 x4).1)
theorem cover_outA5 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) (y : S256x8x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4).1, y ∈ pc.1.set :=
  View.cover_of_tiledL _ S256x8x256.size (by sl_kernel_rfl) y

def outA6 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) : Vec F S256x8x256 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 x0 x1 x2 x3 x4).2.1)
theorem cover_outA6 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) (y : S256x8x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4).2.1, y ∈ pc.1.set :=
  View.cover_of_tiledL _ S256x8x256.size (by sl_kernel_rfl) y

def outA7 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) : Vec F S256x8x256 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 x0 x1 x2 x3 x4).2.2.1)
theorem cover_outA7 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) (y : S256x8x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4).2.2.1, y ∈ pc.1.set :=
  View.cover_of_tiledL _ S256x8x256.size (by sl_kernel_rfl) y

def scrA0 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) : Vec F S8x256x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4).2.2.2.1)
theorem cover_scrA0 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) (y : S8x256x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4).2.2.2.1, y ∈ pc.1.set :=
  View.cover_of_tiledL _ S8x256x256.size (by sl_kernel_rfl) y

def scrA1 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) : Vec F S8x256x256 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4).2.2.2.2.1)
theorem cover_scrA1 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) (y : S8x256x256.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4).2.2.2.2.1, y ∈ pc.1.set :=
  View.cover_of_tiledL _ S8x256x256.size (by sl_kernel_rfl) y

def outB5 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : ¬cond0_0 i)
    (x0 : Vec F S8x256x256 .f32) (x1 : Vec F S8x256x256 .f32) (x2 : Vec F S8x256x256 .f32) (x3 : Vec F S8x256x256 .f32) (x4 : Vec F S256x1 .i32) (xs0 : Vec F S8x256x256 .bf16) (xs1 : Vec F S8x256x256 .bf16) : Vec F S256x8x256 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 x0 x1 x2 x3 x4 xs0 xs1).1)
theorem cover_outB5 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : ¬cond0_0 i)
    (x0 : Vec F S8x256x256 .f32) (x1 : Vec F S8x256x256 .f32) (x2 : Vec F S8x256x256 .f32) (x3 : Vec F S8x256x256 .f32) (x4 : Vec F S256x1 .i32) (xs0 : Vec F S8x256x256 .bf16) (xs1 : Vec F S8x256x256 .bf16) (y : S256x8x256.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 xs0 xs1).1, y ∈ pc.1.set :=
  View.cover_of_tiledL _ S256x8x256.size (by sl_kernel_rfl) y

def outB6 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : ¬cond0_0 i)
    (x0 : Vec F S8x256x256 .f32) (x1 : Vec F S8x256x256 .f32) (x2 : Vec F S8x256x256 .f32) (x3 : Vec F S8x256x256 .f32) (x4 : Vec F S256x1 .i32) (xs0 : Vec F S8x256x256 .bf16) (xs1 : Vec F S8x256x256 .bf16) : Vec F S256x8x256 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 x0 x1 x2 x3 x4 xs0 xs1).2.1)
theorem cover_outB6 (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : ¬cond0_0 i)
    (x0 : Vec F S8x256x256 .f32) (x1 : Vec F S8x256x256 .f32) (x2 : Vec F S8x256x256 .f32) (x3 : Vec F S8x256x256 .f32) (x4 : Vec F S256x1 .i32) (xs0 : Vec F S8x256x256 .bf16) (xs1 : Vec F S8x256x256 .bf16) (y : S256x8x256.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 xs0 xs1).2.1, y ∈ pc.1.set :=
  View.cover_of_tiledL _ S256x8x256.size (by sl_kernel_rfl) y

/-! ## A row tile's first point -/

/-- The first point of t's row tile. -/
def base (t : Fin cfg0.N) : Fin cfg0.N := ⟨t.val - t.val % 16, Nat.lt_of_le_of_lt (Nat.sub_le _ _) t.isLt⟩
theorem base_mod (t : Fin cfg0.N) : (base t).val % 16 = 0 := by
  show (t.val - t.val % 16) % 16 = 0; omega
theorem base_of_first (t : Fin cfg0.N) (h : t.val % 16 = 0) : base t = t :=
  Fin.ext (by show t.val - t.val % 16 = t.val; omega)
theorem base_pred (n : ℕ) (hn : n + 1 < cfg0.N) (h : ¬ (n + 1) % 16 = 0) :
    base ⟨n, Nat.lt_of_succ_lt hn⟩ = base ⟨n + 1, hn⟩ :=
  Fin.ext (by show n - n % 16 = (n + 1) - (n + 1) % 16; omega)

/-- What the first point s of a row tile leaves in the first scratch buffer, -/
def scr0At (c : Dev nD) (s : Fin cfg0.N) (h : s.val % 16 = 0) : Vec F S8x256x256 .bf16 :=
  scrA0 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) scM0_0 (Memref.isWhole_whole _) scM0_1 (Memref.isWhole_whole _) ((hcond0_0 s).mpr h) (iblk m c 0 s) (iblk m c 1 s) (iblk m c 2 s) (iblk m c 3 s) (iblk m c 4 s)
/-- in the second, -/
def scr1At (c : Dev nD) (s : Fin cfg0.N) (h : s.val % 16 = 0) : Vec F S8x256x256 .bf16 :=
  scrA1 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) scM0_0 (Memref.isWhole_whole _) scM0_1 (Memref.isWhole_whole _) ((hcond0_0 s).mpr h) (iblk m c 0 s) (iblk m c 1 s) (iblk m c 2 s) (iblk m c 3 s) (iblk m c 4 s)
/-- and in the third output's buffer. -/
def out7At (c : Dev nD) (s : Fin cfg0.N) (h : s.val % 16 = 0) : Vec F S256x8x256 .f32 :=
  outA7 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) scM0_0 (Memref.isWhole_whole _) scM0_1 (Memref.isWhole_whole _) ((hcond0_0 s).mpr h) (iblk m c 0 s) (iblk m c 1 s) (iblk m c 2 s) (iblk m c 3 s) (iblk m c 4 s)

theorem scr0At_congr (c : Dev nD) (s s' : Fin cfg0.N) (e : s = s') (h : s.val % 16 = 0) (h' : s'.val % 16 = 0) :
    scr0At m c s h = scr0At m c s' h' := by subst e; rfl
theorem scr1At_congr (c : Dev nD) (s s' : Fin cfg0.N) (e : s = s') (h : s.val % 16 = 0) (h' : s'.val % 16 = 0) :
    scr1At m c s h = scr1At m c s' h' := by subst e; rfl
theorem out7At_congr (c : Dev nD) (s s' : Fin cfg0.N) (e : s = s') (h : s.val % 16 = 0) (h' : s'.val % 16 = 0) :
    out7At m c s h = out7At m c s' h' := by subst e; rfl

/-! ## What the outputs' buffers hold after each point -/

def after5 (c : Dev nD) (t : Fin cfg0.N) : Vec F S256x8x256 .f32 :=
  if h : t.val % 16 = 0 then outA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h) (iblk m c 0 t) (iblk m c 1 t) (iblk m c 2 t) (iblk m c 3 t) (iblk m c 4 t)
  else outB5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hc => h ((hcond0_0 t).mp hc)) (iblk m c 0 t) (iblk m c 1 t) (iblk m c 2 t) (iblk m c 3 t) (iblk m c 4 t) (scr0At m c (base t) (base_mod t)) (scr1At m c (base t) (base_mod t))
def after6 (c : Dev nD) (t : Fin cfg0.N) : Vec F S256x8x256 .f32 :=
  if h : t.val % 16 = 0 then outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h) (iblk m c 0 t) (iblk m c 1 t) (iblk m c 2 t) (iblk m c 3 t) (iblk m c 4 t)
  else outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hc => h ((hcond0_0 t).mp hc)) (iblk m c 0 t) (iblk m c 1 t) (iblk m c 2 t) (iblk m c 3 t) (iblk m c 4 t) (scr0At m c (base t) (base_mod t)) (scr1At m c (base t) (base_mod t))
def after7 (c : Dev nD) (t : Fin cfg0.N) : Vec F S256x8x256 .f32 := out7At m c (base t) (base_mod t)

/-- The region's invariant before position n: before the first point both scratch buffers hold anything; afterwards
    they hold what the first point of the previous point's row tile stored. -/
def PhiS (c : Dev nD) : (n : ℕ) → n ≤ cfg0.N → sProp 𝕄
  | 0, _ => Pipeline.ΦA spec0 c
  | n + 1, hn => iprop(iprop(owns (c : Thread nD τ) scM0_0 fullShare (scr0At m c (base ⟨n, hn⟩) (base_mod _)) ∗ owns (c : Thread nD τ) scM0_1 fullShare (scr1At m c (base ⟨n, hn⟩) (base_mod _))) ∗ (∃ r, prngReg c r))

theorem PhiS_zero (c : Dev nD) (n : ℕ) (h : n ≤ cfg0.N) (hz : n = 0) : PhiS m c n h = Pipeline.ΦA spec0 c := by
  subst hz; rfl

/-- Before any later point: the scratch buffers at what the previous point's row tile stored. -/
theorem PhiS_pos (c : Dev nD) (n : ℕ) (h : n ≤ cfg0.N) (hz : n ≠ 0) :
    PhiS m c n h = iprop(iprop(owns (c : Thread nD τ) scM0_0 fullShare (scr0At m c (base ⟨n - 1, by omega⟩) (base_mod _)) ∗ owns (c : Thread nD τ) scM0_1 fullShare (scr1At m c (base ⟨n - 1, by omega⟩) (base_mod _))) ∗ (∃ r, prngReg c r)) := by
  cases n with
  | zero => exact absurd rfl hz
  | succ n => rfl

theorem PhiS_after (c : Dev nD) (t : Fin cfg0.N) :
    PhiS m c (t.val + 1) t.isLt = iprop(iprop(owns (c : Thread nD τ) scM0_0 fullShare (scr0At m c (base t) (base_mod t)) ∗ owns (c : Thread nD τ) scM0_1 fullShare (scr1At m c (base t) (base_mod t))) ∗ (∃ r, prngReg c r)) := rfl

/-- Before a point that is not the first of its row tile the scratch buffers hold what that row tile's first point stored. -/
theorem PhiS_later (c : Dev nD) (t : Fin cfg0.N) (h0 : ¬ t.val % 16 = 0) :
    PhiS m c t.val (Nat.le_of_lt t.isLt) = iprop(iprop(owns (c : Thread nD τ) scM0_0 fullShare (scr0At m c (base t) (base_mod t)) ∗ owns (c : Thread nD τ) scM0_1 fullShare (scr1At m c (base t) (base_mod t))) ∗ (∃ r, prngReg c r)) := by
  obtain ⟨n, hn⟩ := t
  cases n with
  | zero => exact absurd (Nat.zero_mod _) h0
  | succ n =>
    show iprop(iprop(owns (c : Thread nD τ) scM0_0 fullShare (scr0At m c (base ⟨n, _⟩) (base_mod _)) ∗ owns (c : Thread nD τ) scM0_1 fullShare (scr1At m c (base ⟨n, _⟩) (base_mod _))) ∗ (∃ r, prngReg c r)) = _
    rw [scr0At_congr m c _ _ (base_pred n hn h0) _ (base_mod _), scr1At_congr m c _ _ (base_pred n hn h0) _ (base_mod _)]

/-- Before a row tile's first point that is not the grid's first the scratch buffers hold something. -/
theorem PhiS_first (c : Dev nD) (n : ℕ) (h : n ≤ cfg0.N) (hz : n ≠ 0) :
    PhiS m c n h ⊢ Pipeline.ΦA spec0 c := by
  cases n with
  | zero => exact absurd rfl hz
  | succ n =>
    rw [PhiA0_eq]
    show iprop(iprop(owns (c : Thread nD τ) scM0_0 fullShare _ ∗ owns (c : Thread nD τ) scM0_1 fullShare _) ∗ (∃ r, prngReg c r)) ⊢ _
    iintro ⟨⟨HS0, HS1⟩, Hg⟩
    isplitl [HS0 HS1]
    · isplitl [HS0]
      · iexists _; iexact HS0
      iexists _; iexact HS1
    iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => after5 m c t
    | ⟨6, _⟩ => after6 m c t
    | ⟨7, _⟩ => after7 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = after5 m c t := by dsimp only [dats]
theorem after0_6 (c : Dev nD) (t : Fin cfg0.N) : (dats m 0 c).after 6 t = after6 m c t := by dsimp only [dats]
theorem after0_7 (c : Dev nD) (t : Fin cfg0.N) : (dats m 0 c).after 7 t = after7 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a point that is not the first of its row tile the third output's buffer still holds what that first point
    stored: no point in between stores into it or writes it back. -/
theorem before0_7_later (c : Dev nD) : ∀ (n : ℕ) (hn : n < cfg0.N), ¬ n % 16 = 0 → ∀ d,
    (dats m 0 c).before 7 ⟨n, hn⟩ d = after7 m c ⟨n, hn⟩
  | 0, _, h, _ => absurd (Nat.zero_mod _) h
  | n + 1, hn, h, d => by
    rw [Dat.before_of_pos (dats m 0 c) 7 ⟨n + 1, hn⟩ (Nat.succ_ne_zero n) ((cfg0.win 7).fetch_out rfl _)]
    have hfl : (cfg0.win 7).flush ⟨n + 1 - 1, Nat.lt_of_le_of_lt (Nat.sub_le _ _) hn⟩ = false := by
      rw [flushAt0_7]; exact decide_eq_false (by show ¬ (n + 1 - 1) % 16 = 15; omega)
    rw [hfl, if_neg Bool.false_ne_true]
    unfold Dat.left
    by_cases hp : n % 16 = 0
    · rw [show cfg0.idle 7 (cfg0.grid.coords ⟨n + 1 - 1, Nat.lt_of_le_of_lt (Nat.sub_le _ _) hn⟩) = false from
        liveAt0_7 ⟨n + 1 - 1, Nat.lt_of_le_of_lt (Nat.sub_le _ _) hn⟩ (by show (n + 1 - 1) % 16 = 0; omega)]
      show (dats m 0 c).after 7 ⟨n, Nat.lt_of_succ_lt hn⟩ = _
      rw [after0_7]; unfold after7
      exact out7At_congr m c _ _ (base_pred n hn h) _ _
    · rw [show cfg0.idle 7 (cfg0.grid.coords ⟨n + 1 - 1, Nat.lt_of_le_of_lt (Nat.sub_le _ _) hn⟩) = true from
        idleAt0_7 ⟨n + 1 - 1, Nat.lt_of_le_of_lt (Nat.sub_le _ _) hn⟩ (by show ¬ (n + 1 - 1) % 16 = 0; omega)]
      show (dats m 0 c).before 7 ⟨n, Nat.lt_of_succ_lt hn⟩ d = _
      rw [before0_7_later c n (Nat.lt_of_succ_lt hn) hp d]; unfold after7
      exact out7At_congr m c _ _ (base_pred n hn h) _ _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' buffers hold their blocks; at a row tile's first point the first run applies
    (the scratch buffers at anything in, at what it stored out), at the others the second (the scratch buffers and the
    third output's buffer in and out at what the row tile's first point stored). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_after]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 16 = 0
  · rw [show (dats m 0 c).leavesExact 7 t = owns (c : Thread nD τ) (ms0_7 t) fullShare ((dats m 0 c).after 7 t) from by
      unfold Dat.leavesExact; rw [liveAt0_7 t h0], after0_7]
    rw [scr0At_congr m c (base t) t (base_of_first t h0) (base_mod t) h0, scr1At_congr m c (base t) t (base_of_first t h0) (base_mod t) h0]
    rw [show after7 m c t = out7At m c t h0 from out7At_congr m c _ _ (base_of_first t h0) _ _]
    rw [show after5 m c t = outA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) from dif_pos h0]
    rw [show after6 m c t = outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) from dif_pos h0]
    unfold outA5 outA6 out7At outA7 scr0At scrA0 scr1At scrA1
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (cover_scrA0 c _ _ _ _ _ _ _ _ _ _ _ _ _ _ _ _ _ _ _ _ _ _ _ _ _ _ _)
          unfold owns; iexists _; isplitr
          swap; · iexact HS1
          ipureintro; exact View.read_writes_of_cover _ _ _ _ _ (cover_scrA1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover_outA5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover_outA6 c _ _ _ _ _ _ _ _ _ _ _ _ _ _ _ _ _ _ _ _ _ _ _ _ _ _ _)
      unfold owns; iexists _; isplitr
      swap; · iexact H7
      ipureintro; exact View.read_writes_of_cover _ _ _ _ _ (cover_outA7 c _ _ _ _ _ _ _ _ _ _ _ _ _ _ _ _ _ _ _ _ _ _ _ _ _ _ _)
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t)).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexists _; iexact HS0
      isplitl [HS1]; · iexists _; iexact HS1
      iintro ⟨H0, H1, H2, H3, H4, ⟨%e5, H5⟩, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (cover_scrA0 c _ _ _ _ _ _ _ _ _ _ _ _ _ _ _ _ _ _ _ _ _ _ _ _ _ _ _)
          unfold owns; iexists _; isplitr
          swap; · iexact HS1
          ipureintro; exact View.read_writes_of_cover _ _ _ _ _ (cover_scrA1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover_outA5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover_outA6 c _ _ _ _ _ _ _ _ _ _ _ _ _ _ _ _ _ _ _ _ _ _ _ _ _ _ _)
      unfold owns; iexists _; isplitr
      swap; · iexact H7
      ipureintro; exact View.read_writes_of_cover _ _ _ _ _ (cover_outA7 c _ _ _ _ _ _ _ _ _ _ _ _ _ _ _ _ _ _ _ _ _ _ _ _ _ _ _)
  · rw [show after5 m c t = outB5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hc => h0 ((hcond0_0 t).mp hc)) (iblk m c 0 t) (iblk m c 1 t) (iblk m c 2 t) (iblk m c 3 t) (iblk m c 4 t) (scr0At m c (base t) (base_mod t)) (scr1At m c (base t) (base_mod t)) from dif_neg h0]
    rw [show after6 m c t = outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hc => h0 ((hcond0_0 t).mp hc)) (iblk m c 0 t) (iblk m c 1 t) (iblk m c 2 t) (iblk m c 3 t) (iblk m c 4 t) (scr0At m c (base t) (base_mod t)) (scr1At m c (base t) (base_mod t)) from dif_neg h0]
    unfold outB5 outB6
    rw [PhiS_castSucc m c t, PhiS_later m c t h0]
    simp only [before0_7_later m c t.val t.isLt h0]
    by_cases hf : t.val % 16 = 15
    · rw [show (dats m 0 c).leavesExact 7 t = owns (c : Thread nD τ) (ms0_7 t) fullShare ((dats m 0 c).after 7 t) from by
        unfold Dat.leavesExact; rw [idleAt0_7 t h0, show (cfg0.win 7).flush t = true from by rw [flushAt0_7]; exact decide_eq_true hf], after0_7]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun hc => h0 ((hcond0_0 t).mp hc)) (iblk m c 0 t) (iblk m c 1 t) (iblk m c 2 t) (iblk m c 3 t) (iblk m c 4 t) _ _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      isplitl [HS1]; · iexact HS1
      iintro ⟨H0, H1, H2, H3, H4, ⟨%e5, H5⟩, ⟨%e6, H6⟩, H7, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover_outB5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover_outB6 c _ _ _ _ _ _ _ _ _ _ _ _ _ _ _ _ _ _ _ _ _ _ _ _ _ _ _ _ _)
      iexact H7
    · rw [Dat.leavesExact_idle (dats m 0 c) 7 t (idleAt0_7 t h0) (by rw [flushAt0_7]; exact decide_eq_false hf)]
      simp only [before0_7_later m c t.val t.isLt h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun hc => h0 ((hcond0_0 t).mp hc)) (iblk m c 0 t) (iblk m c 1 t) (iblk m c 2 t) (iblk m c 3 t) (iblk m c 4 t) _ _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      isplitl [HS1]; · iexact HS1
      iintro ⟨H0, H1, H2, H3, H4, ⟨%e5, H5⟩, ⟨%e6, H6⟩, H7, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover_outB5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover_outB6 c _ _ _ _ _ _ _ _ _ _ _ _ _ _ _ _ _ _ _ _ _ _ _ _ _ _ _ _ _)
      iexists d7; iexact H7

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_first m c _ _ (by rw [Fin.val_last]; have : cfg0.N = 64 := N_0; omega)

/-! ## The run and the frame -/

set_option backward.isDefEq.respectTransparency.types false in
/-- Every weakly fair execution of @main terminates, and every final state has every array of the pipeline at what the
    proof data's blocks, written back point by point, make of it, and every other buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every argument array ends as it began, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.KernelIdealBody.Pieces.lean ====
/-
  What the two runs leave in each buffer, as the body's arithmetic: each buffer is stored once, whole, so it holds
  the stored value — a pure term over the blocks the body loaded. At a row tile's first point the two scratch
  buffers are read back after they were stored, so the first two outputs' blocks there are computed from the
  normalised rows just stored.
-/
import proofs.«109032_j15315853378150_2_alg».proof.Proof.KernelIdealBody.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scrA0_eq (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) :
    scrA0 c i arg2 harg2 arg3 harg3 arg4 harg4 arg5 harg5 arg6 harg6 arg7 harg7 arg8 harg8 arg9 harg9 arg10 harg10 arg11 harg11 hc0 x0 x1 x2 x3 x4 = k0_pay4 x0 := by
  unfold scrA0
  rw [View.read_writes_eq_canon _ _ _ (cover_scrA0 c i arg2 harg2 arg3 harg3 arg4 harg4 arg5 harg5 arg6 harg6 arg7 harg7 arg8 harg8 arg9 harg9 arg10 harg10 arg11 harg11 hc0 x0 x1 x2 x3 x4)]
  unfold kernelRun0_A
  dsimp only
  sl_unfold_words
  have hz : (![0, 0, 0] : Fin 3 → ℕ) = fun _ => 0 := by funext a; fin_cases a <;> rfl
  have hz2 : (![0, 0] : Fin 2 → ℕ) = fun _ => 0 := by funext a; fin_cases a <;> rfl
  rw [View.canon_unit_zero hz]
  simp only [View.readCov_unit_zero (S := S8x256x256) _ hz, View.readAt_eq_ld, harg2.read_unread, harg3.read_unread, harg4.read_unread,
    harg5.read_unread, harg6.read_unread, harg9.read_unread, harg10.read_unread, harg11.read_unread,
    View.ld_unit_zero (S := S8x256x256) hz, View.ld_unit_zero (S := S256x8x256) hz, View.ld_unit_zero (S := S256x1) hz2]

theorem scrA1_eq (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) :
    scrA1 c i arg2 harg2 arg3 harg3 arg4 harg4 arg5 harg5 arg6 harg6 arg7 harg7 arg8 harg8 arg9 harg9 arg10 harg10 arg11 harg11 hc0 x0 x1 x2 x3 x4 = k0_pay9 (k0_pay7 x0 x2 x3) (k0_pay8 x0 x2 x3) := by
  unfold scrA1
  rw [View.read_writes_eq_canon _ _ _ (cover_scrA1 c i arg2 harg2 arg3 harg3 arg4 harg4 arg5 harg5 arg6 harg6 arg7 harg7 arg8 harg8 arg9 harg9 arg10 harg10 arg11 harg11 hc0 x0 x1 x2 x3 x4)]
  unfold kernelRun0_A
  dsimp only
  sl_unfold_words
  have hz : (![0, 0, 0] : Fin 3 → ℕ) = fun _ => 0 := by funext a; fin_cases a <;> rfl
  have hz2 : (![0, 0] : Fin 2 → ℕ) = fun _ => 0 := by funext a; fin_cases a <;> rfl
  rw [View.canon_unit_zero hz]
  simp only [View.readCov_unit_zero (S := S8x256x256) _ hz, View.readAt_eq_ld, harg2.read_unread, harg3.read_unread, harg4.read_unread,
    harg5.read_unread, harg6.read_unread, harg9.read_unread, harg10.read_unread, harg11.read_unread,
    View.ld_unit_zero (S := S8x256x256) hz, View.ld_unit_zero (S := S256x8x256) hz, View.ld_unit_zero (S := S256x1) hz2]

theorem outA7_eq (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) :
    outA7 c i arg2 harg2 arg3 harg3 arg4 harg4 arg5 harg5 arg6 harg6 arg7 harg7 arg8 harg8 arg9 harg9 arg10 harg10 arg11 harg11 hc0 x0 x1 x2 x3 x4 = k0_pay6 x0 x2 := by
  unfold outA7
  rw [View.read_writes_eq_canon _ _ _ (cover_outA7 c i arg2 harg2 arg3 harg3 arg4 harg4 arg5 harg5 arg6 harg6 arg7 harg7 arg8 harg8 arg9 harg9 arg10 harg10 arg11 harg11 hc0 x0 x1 x2 x3 x4)]
  unfold kernelRun0_A
  dsimp only
  sl_unfold_words
  have hz : (![0, 0, 0] : Fin 3 → ℕ) = fun _ => 0 := by funext a; fin_cases a <;> rfl
  have hz2 : (![0, 0] : Fin 2 → ℕ) = fun _ => 0 := by funext a; fin_cases a <;> rfl
  rw [View.canon_unit_zero hz]
  simp only [View.readCov_unit_zero (S := S8x256x256) _ hz, View.readAt_eq_ld, harg2.read_unread, harg3.read_unread, harg4.read_unread,
    harg5.read_unread, harg6.read_unread, harg9.read_unread, harg10.read_unread, harg11.read_unread,
    View.ld_unit_zero (S := S8x256x256) hz, View.ld_unit_zero (S := S256x8x256) hz, View.ld_unit_zero (S := S256x1) hz2]

theorem outA5_eq (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) :
    outA5 c i arg2 harg2 arg3 harg3 arg4 harg4 arg5 harg5 arg6 harg6 arg7 harg7 arg8 harg8 arg9 harg9 arg10 harg10 arg11 harg11 hc0 x0 x1 x2 x3 x4 = k0_pay1 (k0_pay11 x1 (k0_pay4 x0)) (k0_pay13 i x4) := by
  unfold outA5
  rw [View.read_writes_eq_canon _ _ _ (cover_outA5 c i arg2 harg2 arg3 harg3 arg4 harg4 arg5 harg5 arg6 harg6 arg7 harg7 arg8 harg8 arg9 harg9 arg10 harg10 arg11 harg11 hc0 x0 x1 x2 x3 x4)]
  unfold kernelRun0_A
  dsimp only
  sl_unfold_words
  have hz : (![0, 0, 0] : Fin 3 → ℕ) = fun _ => 0 := by funext a; fin_cases a <;> rfl
  have hz2 : (![0, 0] : Fin 2 → ℕ) = fun _ => 0 := by funext a; fin_cases a <;> rfl
  rw [View.canon_unit_zero hz]
  simp only [View.readCov_unit_zero (S := S8x256x256) _ hz, View.readAt_eq_ld, harg2.read_unread, harg3.read_unread, harg4.read_unread,
    harg5.read_unread, harg6.read_unread, harg9.read_unread, harg10.read_unread, harg11.read_unread,
    View.ld_unit_zero (S := S8x256x256) hz, View.ld_unit_zero (S := S256x8x256) hz, View.ld_unit_zero (S := S256x1) hz2]

theorem outA6_eq (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : cond0_0 i)
    (x0 : Vec F S8x256x256 .f32) (x1 : Vec F S8x256x256 .f32) (x2 : Vec F S8x256x256 .f32) (x3 : Vec F S8x256x256 .f32) (x4 : Vec F S256x1 .i32) :
    outA6 c i arg2 harg2 arg3 harg3 arg4 harg4 arg5 harg5 arg6 harg6 arg7 harg7 arg8 harg8 arg9 harg9 arg10 harg10 arg11 harg11 hc0 x0 x1 x2 x3 x4 = k0_pay2 (k0_pay12 x1 (k0_pay9 (k0_pay7 x0 x2 x3) (k0_pay8 x0 x2 x3))) (k0_pay13 i x4) := by
  unfold outA6
  rw [View.read_writes_eq_canon _ _ _ (cover_outA6 c i arg2 harg2 arg3 harg3 arg4 harg4 arg5 harg5 arg6 harg6 arg7 harg7 arg8 harg8 arg9 harg9 arg10 harg10 arg11 harg11 hc0 x0 x1 x2 x3 x4)]
  unfold kernelRun0_A
  dsimp only
  sl_unfold_words
  have hz : (![0, 0, 0] : Fin 3 → ℕ) = fun _ => 0 := by funext a; fin_cases a <;> rfl
  have hz2 : (![0, 0] : Fin 2 → ℕ) = fun _ => 0 := by funext a; fin_cases a <;> rfl
  rw [View.canon_unit_zero hz]
  simp only [View.readCov_unit_zero (S := S8x256x256) _ hz, View.readAt_eq_ld, harg2.read_unread, harg3.read_unread, harg4.read_unread,
    harg5.read_unread, harg6.read_unread, harg9.read_unread, harg10.read_unread, harg11.read_unread,
    View.ld_unit_zero (S := S8x256x256) hz, View.ld_unit_zero (S := S256x8x256) hz, View.ld_unit_zero (S := S256x1) hz2]

theorem outB5_eq (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : ¬cond0_0 i)
    (x0 : Vec F S8x256x256 .f32) (x1 : Vec F S8x256x256 .f32) (x2 : Vec F S8x256x256 .f32) (x3 : Vec F S8x256x256 .f32) (x4 : Vec F S256x1 .i32) (xs0 : Vec F S8x256x256 .bf16) (xs1 : Vec F S8x256x256 .bf16) :
    outB5 c i arg2 harg2 arg3 harg3 arg4 harg4 arg5 harg5 arg6 harg6 arg7 harg7 arg8 harg8 arg9 harg9 arg10 harg10 arg11 harg11 hc0 x0 x1 x2 x3 x4 xs0 xs1 = k0_pay1 (k0_pay11 x1 xs0) (k0_pay13 i x4) := by
  unfold outB5
  rw [View.read_writes_eq_canon _ _ _ (cover_outB5 c i arg2 harg2 arg3 harg3 arg4 harg4 arg5 harg5 arg6 harg6 arg7 harg7 arg8 harg8 arg9 harg9 arg10 harg10 arg11 harg11 hc0 x0 x1 x2 x3 x4 xs0 xs1)]
  unfold kernelRun0_B
  dsimp only
  sl_unfold_words
  have hz : (![0, 0, 0] : Fin 3 → ℕ) = fun _ => 0 := by funext a; fin_cases a <;> rfl
  have hz2 : (![0, 0] : Fin 2 → ℕ) = fun _ => 0 := by funext a; fin_cases a <;> rfl
  rw [View.canon_unit_zero hz]
  simp only [View.readCov_unit_zero (S := S8x256x256) _ hz, View.readAt_eq_ld, harg2.read_unread, harg3.read_unread, harg4.read_unread,
    harg5.read_unread, harg6.read_unread, harg9.read_unread, harg10.read_unread, harg11.read_unread,
    View.ld_unit_zero (S := S8x256x256) hz, View.ld_unit_zero (S := S256x8x256) hz, View.ld_unit_zero (S := S256x1) hz2]

theorem outB6_eq (c : Dev nD) (i : grid0.Coords) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x256x256 .f32) (harg5 : arg5.IsWhole) (arg6 : Memref sig .tc .vmem S256x1 .i32) (harg6 : arg6.IsWhole) (arg7 : Memref sig .tc .vmem S256x8x256 .f32) (harg7 : arg7.IsWhole) (arg8 : Memref sig .tc .vmem S256x8x256 .f32) (harg8 : arg8.IsWhole) (arg9 : Memref sig .tc .vmem S256x8x256 .f32) (harg9 : arg9.IsWhole) (arg10 : Memref sig .tc .vmem S8x256x256 .bf16) (harg10 : arg10.IsWhole) (arg11 : Memref sig .tc .vmem S8x256x256 .bf16) (harg11 : arg11.IsWhole) (hc0 : ¬cond0_0 i)
    (x0 : Vec F S8x256x256 .f32) (x1 : Vec F S8x256x256 .f32) (x2 : Vec F S8x256x256 .f32) (x3 : Vec F S8x256x256 .f32) (x4 : Vec F S256x1 .i32) (xs0 : Vec F S8x256x256 .bf16) (xs1 : Vec F S8x256x256 .bf16) :
    outB6 c i arg2 harg2 arg3 harg3 arg4 harg4 arg5 harg5 arg6 harg6 arg7 harg7 arg8 harg8 arg9 harg9 arg10 harg10 arg11 harg11 hc0 x0 x1 x2 x3 x4 xs0 xs1 = k0_pay2 (k0_pay12 x1 xs1) (k0_pay13 i x4) := by
  unfold outB6
  rw [View.read_writes_eq_canon _ _ _ (cover_outB6 c i arg2 harg2 arg3 harg3 arg4 harg4 arg5 harg5 arg6 harg6 arg7 harg7 arg8 harg8 arg9 harg9 arg10 harg10 arg11 harg11 hc0 x0 x1 x2 x3 x4 xs0 xs1)]
  unfold kernelRun0_B
  dsimp only
  sl_unfold_words
  have hz : (![0, 0, 0] : Fin 3 → ℕ) = fun _ => 0 := by funext a; fin_cases a <;> rfl
  have hz2 : (![0, 0] : Fin 2 → ℕ) = fun _ => 0 := by funext a; fin_cases a <;> rfl
  rw [View.canon_unit_zero hz]
  simp only [View.readCov_unit_zero (S := S8x256x256) _ hz, View.readAt_eq_ld, harg2.read_unread, harg3.read_unread, harg4.read_unread,
    harg5.read_unread, harg6.read_unread, harg9.read_unread, harg10.read_unread, harg11.read_unread,
    View.ld_unit_zero (S := S8x256x256) hz, View.ld_unit_zero (S := S256x8x256) hz, View.ld_unit_zero (S := S256x1) hz2]

end Cert.KernelIdeal.Body

end
-- ==== Proof.LibLanes3.lean ====
/-
  A reduction over the last axis of a rank-3 vector, read at an index of the rank-2 result.

  * `multiReduction_add_lanes3_apply`: the sum over the last axis of an `[a, b, c]` vector, read at `(p, q)`, is
    `∑ k : Fin c, src (p, q, k)`;
  * `multiReduction_maximumf_lanes3_apply`: the maximum over the last axis, read at `(p, q)`, is the fold of `max`
    from the accumulator's value over `k : Fin c` of `src (p, q, k)`.
  Both hold for any extents and any float format: they are the one-axis readings of the ideal values' reductions with the
  inserted index spelt by its three coordinates.
-/
import Idealize.ShloMosaic.Lib.ValueIdx
import Idealize.ShloMosaic.PureOps.Ideal.Laws

noncomputable section

open scoped BigOperators

namespace Cert.LibLanes3

open Idealize.ShloMosaic Idealize.ShloMosaic.ValueIdx

/-- The index a last-axis reduction of a rank-3 shape inserts coordinate `k` into, at `(p, q)`, is `(p, q, k)`. -/
theorem lift_lanes3 {a b c : ℕ} (h : (⟨3, ![a, b, c]⟩ : Shape).Reduces [2] ⟨2, ![a, b]⟩) (p : Fin a) (q : Fin b)
    (k : Fin c) : h.lift (ix2 p q) k = ix3 p q k :=
  funext fun ax => Fin.ext (by match ax with | ⟨0, _⟩ => rfl | ⟨1, _⟩ => rfl | ⟨2, _⟩ => rfl)

/-- The sum over the last axis of an `[a, b, c]` vector, read at `(p, q)`: `∑ k, src (p, q, k)`. -/
theorem multiReduction_add_lanes3_apply {a b c : ℕ} {φ : FTy} (src : FVec Ideal ⟨3, ![a, b, c]⟩ φ)
    (acc : BitVec φ.bits) (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_lanes3 h p q k))

/-- The maximum over the last axis of an `[a, b, c]` vector, read at `(p, q)`: the fold of `max` from the
    accumulator's value over `k` of `src (p, q, k)`. -/
theorem multiReduction_maximumf_lanes3_apply {a b c : ℕ} {φ : FTy} (src : FVec Ideal ⟨3, ![a, b, c]⟩ φ)
    (acc : BitVec φ.bits) (h : (⟨3, ![a, b, c]⟩ : Shape).Reduces [2] ⟨2, ![a, b]⟩) (hφ : FKind.Formats φ)
    (hacc : acc = FKind.maximumf.neutral φ hφ) (p : Fin a) (q : Fin b) :
    multiReduction .maximumf [2] ⟨2, ![a, b]⟩ src acc h hφ hacc (ix2 p q)
      = (Finset.univ : Finset (Fin c)).fold max (FloatOps.ofBits φ acc) (fun k => src (ix3 p q k)) :=
  (Ideal.multiReduction_maximumf_single src acc h hφ hacc (ix2 p q)).trans
    (congrArg (fun f => (Finset.univ : Finset (Fin c)).fold max (FloatOps.ofBits φ acc) f)
      (funext fun k => congrArg src (lift_lanes3 h p q k)))

end Cert.LibLanes3

end
-- ==== Proof.LibKeepdims3.lean ====
/-
  Keep-dims layout steps of rank-2 and rank-3 vectors, and the swap of the first two axes of a rank-3 vector, each read
  at an index written by its coordinates.

  * `shapeCast_ab_ab1_apply`: an `[a, b]` array cast to `[a, b, 1]` reads, at `(p, q, u)`, the operand at `(p, q)`;
  * `broadcastTo_ab1_abc_apply`: an `[a, b, 1]` array broadcast to `[a, b, c]` reads, at `(p, q, k)`, the operand at `(p, q, 0)`;
  * `broadcastTo_1bc_abc_apply`: a `[1, b, c]` array broadcast to `[a, b, c]` reads, at `(m, p, q)`, the operand at `(0, p, q)`;
  * `broadcastTo_a1_ab_apply`: an `[a, 1]` column broadcast to `[a, b]` reads, at `(p, q)`, the operand at `(p, 0)`;
  * `transpose_ix3_102_apply`: an `[m, a, b]` array with its first two axes swapped reads, at `(i, k, j)`, the operand at `(k, i, j)`.
  All hold for any extents and any element type.
-/
import Idealize.ShloMosaic.Lib.ValueIdx
import Idealize.ShloMosaic.Lib.Pipeline.Value

namespace Cert.LibKeepdims3

open Idealize.ShloMosaic Idealize.ShloMosaic.ValueIdx

variable {α : Type}

/-- An `[a, b]` array cast to `[a, b, 1]` reads, at `(p, q, u)`, the operand at `(p, q)`: the two row-major positions
    agree because the unit coordinate is `0`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, k)`, the operand at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) := by
  refine broadcastTo_apply x h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    exact (if_pos rfl).symm

/-- A `[1, b, c]` array broadcast to `[a, b, c]` reads, at `(m, p, q)`, the operand at `(0, p, q)`. -/
theorem broadcastTo_1bc_abc_apply {a b c : ℕ} (x : (⟨3, ![1, b, c]⟩ : Shape).Idx → α)
    (h : (⟨3, ![1, b, c]⟩ : Shape).Broadcasts ⟨3, ![a, b, c]⟩) (m : Fin a) (p : Fin b) (q : Fin c) :
    broadcastTo ⟨3, ![a, b, c]⟩ x h (ix3 m p q) = x (ix3 (0 : Fin 1) p q) := by
  refine broadcastTo_apply x h (ix3 m p q) (ix3 (0 : Fin 1) p q) fun ax => ?_
  match ax with
  | ⟨0, _⟩ =>
    exact (if_pos rfl).symm
  | ⟨1, _⟩ =>
    show p.val = if b = 1 then 0 else p.val
    split
    · have := p.isLt; omega
    · rfl
  | ⟨2, _⟩ =>
    show q.val = if c = 1 then 0 else q.val
    split
    · have := q.isLt; omega
    · rfl

/-- An `[a, 1]` column broadcast to `[a, b]` reads, at `(p, q)`, the operand at `(p, 0)`. -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ =>
    exact (if_pos rfl).symm

/-- An `[m, a, b]` array with its first two axes swapped (permutation `[1, 0, 2]`) reads, at `(i, k, j)`, the operand
    at `(k, i, j)`. -/
theorem transpose_ix3_102_apply {m a b : ℕ} (x : (⟨3, ![m, a, b]⟩ : Shape).Idx → α)
    (h : (⟨3, ![m, a, b]⟩ : Shape).Transposes [1, 0, 2] ⟨3, ![a, m, b]⟩) (i : Fin a) (k : Fin m) (j : Fin b) :
    transpose ⟨3, ![a, m, b]⟩ [1, 0, 2] x h (ix3 i k j) = x (ix3 k i j) :=
  transpose_apply _ x h _ _ fun c => match c with | ⟨0, _⟩ => rfl | ⟨1, _⟩ => rfl | ⟨2, _⟩ => rfl

end Cert.LibKeepdims3
-- ==== Proof.BridgeCos.lean ====
/-
  The kernel's pure arithmetic on one tile, read one entry at a time against the reference's stages.

  The grid is 4 × 16: row tile `I` holds the 256 rows `256·I + p` of the 1024, column tile `J` the 256 classes
  `256·J + q` of the 4096. Each lemma takes the vectors a tile loads as variables with coordinate hypotheses that say
  which entries of the arrays they hold, and concludes that one entry of a computed vector is one entry of a stage of
  the reference at the tile's global index. Both sides compute the same formulas in the same order: the l2-normalised
  rows `x / max (√(∑ x²)) ε`, the batched product `∑_d a[b,n,d] · w[b,o,d]`, the clip to `[-1, 1]`, the one-hot of the
  label, and `30 · (cos − ½·onehot)`, stored with the first two axes swapped.
-/
import proofs.«109032_j15315853378150_2_alg».proof.Proof.Gen.KernelIdeal.Skeleton
import proofs.«109032_j15315853378150_2_alg».proof.Proof.Gen.ReferenceIdeal.Read
import proofs.«109032_j15315853378150_2_alg».proof.Proof.LibLanes3
import proofs.«109032_j15315853378150_2_alg».proof.Proof.LibKeepdims3
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.BridgeCos

open Cert.KernelIdeal Cert.KernelIdeal.Gen Idealize.ShloMosaic Idealize.ShloMosaic.ValueIdx
open Cert.LibLanes3 Cert.LibKeepdims3

/-- The global row of row `p` of row tile `I`. -/
abbrev row (I : Fin 4) (p : Fin 256) : Fin 1024 := ⟨256 * I.val + p.val, by omega⟩
/-- The global column of column `q` of column tile `J`. -/
abbrev col (J : Fin 16) (q : Fin 256) : Fin 4096 := ⟨256 * J.val + q.val, by omega⟩

/-- A vector square root read at an index. -/
theorem sqrt_apply {s : Shape} {φ : FTy} (a : FVec Ideal s φ) (i : s.Idx) : sqrt a i = Ideal.sqrt (a i) := rfl

/-- The sum over the last axis of an `[8, 256, 256]` vector read at `(b, p)`: `∑ k, src (b, p, k)`. -/
theorem laneSum_apply (src : FVec Ideal S8x256x256 .f32) (h : S8x256x256.Reduces [2] S8x256) (hφ : FKind.Formats .f32)
    (hacc : (0x00000000#32 : BitVec 32) = 0x00000000#32) (b : Fin 8) (p : Fin 256) :
    multiReduction (F := Ideal) .add [2] S8x256 src 0x00000000#32 h hφ hacc (ix2 b p) = ∑ k : Fin 256, src (ix3 b p k) :=
  multiReduction_add_lanes3_apply src _ h hφ hacc b p

/-! ## The l2-normalised rows of the input block -/

/-- The normalised input block is the reference's normalised input at the tile's rows: entry `(b, p, d)` is
    `x / max (√(∑_k x_k²)) ε` over row `256·I + p` of book `b`. -/
theorem xn (A0 : (⟨Cert.ReferenceIdeal.S1024x2048, .f32⟩ : BufTy).Contents (Elt Ideal)) (I : Fin 4)
    (x0 : Vec Ideal S8x256x256 .f32)
    (hx0 : ∀ (b : Fin 8) (p : Fin 256) (d : Fin 256),
      x0 (ix3 b p d) = Cert.ReferenceIdeal.Read.val_main_v1 (F := Ideal) A0 (ix3 b (row I p) d))
    (b : Fin 8) (p : Fin 256) (d : Fin 256) :
    k0_pay4 (F := Ideal) x0 (ix3 b p d) = Cert.ReferenceIdeal.Read.val_main_v17 (F := Ideal) A0 (ix3 b (row I p) d) := by
  unfold k0_pay4 k0_pay3
  simp only [shapeCast_self]
  rw [truncf_apply, divf_apply, broadcastTo_ab1_abc_apply, maximumf_apply, broadcast_apply, sqrt_apply,
    shapeCast_ab_ab1_apply, laneSum_apply]
  simp only [mulf_apply]
  rw [Cert.ReferenceIdeal.Read.val_main_v17_apply, Cert.ReferenceIdeal.Read.val_main_v16_apply,
    Cert.ReferenceIdeal.Read.val_main_v15_apply, Cert.ReferenceIdeal.Read.val_main_v13_apply,
    Cert.ReferenceIdeal.Read.val_main_v12_apply, Cert.ReferenceIdeal.Read.val_main_v11_apply,
    Cert.ReferenceIdeal.Read.val_main_v14_apply, Cert.ReferenceIdeal.Read.val_main_cst_2_apply,
    Cert.ReferenceIdeal.Read.val_main_cst_1_apply]
  simp only [Cert.ReferenceIdeal.Read.val_main_v10_apply]
  have hidx : ∀ k : Fin 256, Cert.ReferenceIdeal.Read.idx_main_v11 (Cert.ReferenceIdeal.Read.idx_main_v12
      (Cert.ReferenceIdeal.Read.idx_main_v16 (ix3 b (row I p) d))) k = ix3 b (row I p) k :=
    fun k => funext fun a => Fin.ext (by match a with | ⟨0, _⟩ => rfl | ⟨1, _⟩ => rfl | ⟨2, _⟩ => rfl)
  simp only [hidx, hx0, Ideal.hostDivf_def, Ideal.maximumf_def, Ideal.hostUnary_sqrt_def, Ideal.mulf_def, Ideal.ofBits_def,
    Ideal.ofBits_zero_f32, zero_add]

/-! ## The l2-normalised rows of the weight block -/

/-- The normalised weight block is the reference's normalised weight at the tile's classes: entry `(b, q, d)` is
    `w / max (√(∑_k w_k²)) ε` over class `256·J + q` of book `b`. -/
theorem wn (A2 : (⟨Cert.ReferenceIdeal.S8x4096x256, .f32⟩ : BufTy).Contents (Elt Ideal)) (J : Fin 16)
    (x1 : Vec Ideal S8x256x256 .f32)
    (hx1 : ∀ (b : Fin 8) (q : Fin 256) (d : Fin 256), x1 (ix3 b q d) = A2 (ix3 b (col J q) d))
    (b : Fin 8) (q : Fin 256) (d : Fin 256) :
    k0_pay10 (F := Ideal) x1 (ix3 b q d) = Cert.ReferenceIdeal.Read.val_main_v9 (F := Ideal) A2 (ix3 b (col J q) d) := by
  unfold k0_pay10
  rw [truncf_apply, divf_apply, broadcastTo_ab1_abc_apply, maximumf_apply, broadcast_apply, sqrt_apply,
    shapeCast_ab_ab1_apply, laneSum_apply]
  simp only [mulf_apply]
  rw [Cert.ReferenceIdeal.Read.val_main_v9_apply, Cert.ReferenceIdeal.Read.val_main_v8_apply,
    Cert.ReferenceIdeal.Read.val_main_v7_apply, Cert.ReferenceIdeal.Read.val_main_v5_apply,
    Cert.ReferenceIdeal.Read.val_main_v4_apply, Cert.ReferenceIdeal.Read.val_main_v3_apply,
    Cert.ReferenceIdeal.Read.val_main_v6_apply, Cert.ReferenceIdeal.Read.val_main_cst_0_apply,
    Cert.ReferenceIdeal.Read.val_main_cst_apply]
  simp only [Cert.ReferenceIdeal.Read.val_main_v2_apply]
  have hidx : ∀ k : Fin 256, Cert.ReferenceIdeal.Read.idx_main_v3 (Cert.ReferenceIdeal.Read.idx_main_v4
      (Cert.ReferenceIdeal.Read.idx_main_v8 (ix3 b (col J q) d))) k = ix3 b (col J q) k :=
    fun k => funext fun a => Fin.ext (by match a with | ⟨0, _⟩ => rfl | ⟨1, _⟩ => rfl | ⟨2, _⟩ => rfl)
  simp only [hidx, hx1, Ideal.hostDivf_def, Ideal.maximumf_def, Ideal.hostUnary_sqrt_def, Ideal.mulf_def, Ideal.ofBits_def,
    Ideal.ofBits_zero_f32, zero_add]

/-! ## The batched product `A · Bᵀ` over the last axis -/

theorem lhsT_0 (i : S8x256x256.Idx) (q : dot_S8x256x256_S8x256x256_S8x256x256_2_2_1_1_0_0.contr.Idx) :
    (dot_S8x256x256_S8x256x256_S8x256x256_2_2_1_1_0_0.lhsIdx i q 0).val = (i 0).val := by
  unfold DotDims.lhsIdx
  rw [dif_pos (show (0 : Fin S8x256x256.rank) ∈ dot_S8x256x256_S8x256x256_S8x256x256_2_2_1_1_0_0.lhsBatch by decide)]
  rfl
theorem lhsT_1 (i : S8x256x256.Idx) (q : dot_S8x256x256_S8x256x256_S8x256x256_2_2_1_1_0_0.contr.Idx) :
    (dot_S8x256x256_S8x256x256_S8x256x256_2_2_1_1_0_0.lhsIdx i q 1).val = (i 1).val := by
  unfold DotDims.lhsIdx
  rw [dif_neg (show ¬(1 : Fin S8x256x256.rank) ∈ dot_S8x256x256_S8x256x256_S8x256x256_2_2_1_1_0_0.lhsBatch by decide),
    dif_pos (show (1 : Fin S8x256x256.rank) ∈ dot_S8x256x256_S8x256x256_S8x256x256_2_2_1_1_0_0.lhsNonContracting by decide)]
  rfl
theorem lhsT_2 (i : S8x256x256.Idx) (q : dot_S8x256x256_S8x256x256_S8x256x256_2_2_1_1_0_0.contr.Idx) :
    (dot_S8x256x256_S8x256x256_S8x256x256_2_2_1_1_0_0.lhsIdx i q 2).val = (q ⟨0, by decide⟩).val :=
  dot_S8x256x256_S8x256x256_S8x256x256_2_2_1_1_0_0.lhsIdx_val_of_single rfl i q
theorem rhsT_0 (i : S8x256x256.Idx) (q : dot_S8x256x256_S8x256x256_S8x256x256_2_2_1_1_0_0.contr.Idx) :
    (dot_S8x256x256_S8x256x256_S8x256x256_2_2_1_1_0_0.rhsIdx i q 0).val = (i 0).val := by
  unfold DotDims.rhsIdx
  rw [dif_pos (show (0 : Fin S8x256x256.rank) ∈ dot_S8x256x256_S8x256x256_S8x256x256_2_2_1_1_0_0.rhsBatch by decide)]
  rfl
theorem rhsT_1 (i : S8x256x256.Idx) (q : dot_S8x256x256_S8x256x256_S8x256x256_2_2_1_1_0_0.contr.Idx) :
    (dot_S8x256x256_S8x256x256_S8x256x256_2_2_1_1_0_0.rhsIdx i q 1).val = (i 2).val := by
  unfold DotDims.rhsIdx
  rw [dif_neg (show ¬(1 : Fin S8x256x256.rank) ∈ dot_S8x256x256_S8x256x256_S8x256x256_2_2_1_1_0_0.rhsBatch by decide),
    dif_pos (show (1 : Fin S8x256x256.rank) ∈ dot_S8x256x256_S8x256x256_S8x256x256_2_2_1_1_0_0.rhsNonContracting by decide)]
  rfl
theorem rhsT_2 (i : S8x256x256.Idx) (q : dot_S8x256x256_S8x256x256_S8x256x256_2_2_1_1_0_0.contr.Idx) :
    (dot_S8x256x256_S8x256x256_S8x256x256_2_2_1_1_0_0.rhsIdx i q 2).val = (q ⟨0, by decide⟩).val :=
  dot_S8x256x256_S8x256x256_S8x256x256_2_2_1_1_0_0.rhsIdx_val_of_single rfl i q

/-- The batched product of two `[8, 256, 256]` blocks contracted over their last axes, accumulated into zero, read at
    `(b, p, q)`: `∑ k, lhs (b, p, k) · rhs (b, q, k)`. -/
theorem bmmT_apply (lhs rhs : FVec Ideal S8x256x256 .bf16) (b : Fin 8) (p q : Fin 256) :
    matmul (F := Ideal) dot_S8x256x256_S8x256x256_S8x256x256_2_2_1_1_0_0 none lhs rhs
        (constant (F := Ideal) S8x256x256 .f32 0x00000000#32) (ix3 b p q)
      = ∑ k : Fin 256, lhs (ix3 b p k) * rhs (ix3 b q k) := by
  simp only [matmul]
  rw [Ideal.matmul_constant_zero_apply,
    ← Equiv.sum_comp (contrEquiv1 dot_S8x256x256_S8x256x256_S8x256x256_2_2_1_1_0_0 256 rfl rfl).symm]
  refine Finset.sum_congr rfl fun k _ => ?_
  have hk := contrEquiv1_symm_val dot_S8x256x256_S8x256x256_S8x256x256_2_2_1_1_0_0 256 rfl rfl k
  have el : dot_S8x256x256_S8x256x256_S8x256x256_2_2_1_1_0_0.lhsIdx (ix3 b p q)
      ((contrEquiv1 dot_S8x256x256_S8x256x256_S8x256x256_2_2_1_1_0_0 256 rfl rfl).symm k) = ix3 b p k :=
    funext fun a => Fin.ext (by
      match a with
      | ⟨0, _⟩ => exact lhsT_0 _ _
      | ⟨1, _⟩ => exact lhsT_1 _ _
      | ⟨2, _⟩ => exact (lhsT_2 _ _).trans hk)
  have er : dot_S8x256x256_S8x256x256_S8x256x256_2_2_1_1_0_0.rhsIdx (ix3 b p q)
      ((contrEquiv1 dot_S8x256x256_S8x256x256_S8x256x256_2_2_1_1_0_0 256 rfl rfl).symm k) = ix3 b q k :=
    funext fun a => Fin.ext (by
      match a with
      | ⟨0, _⟩ => exact rhsT_0 _ _
      | ⟨1, _⟩ => exact rhsT_1 _ _
      | ⟨2, _⟩ => exact (rhsT_2 _ _).trans hk)
  rw [el, er]

/-! ## The clipped cosine block -/

/-- The clipped batched product of a left block `s` with the normalised weight block, read at `(b, p, q)`:
    `min 1 (max (-1) (∑ k, s (b, p, k) · ŵ (b, 256·J + q, k)))`. -/
theorem cosK (A2 : (⟨Cert.ReferenceIdeal.S8x4096x256, .f32⟩ : BufTy).Contents (Elt Ideal)) (J : Fin 16)
    (x1 : Vec Ideal S8x256x256 .f32)
    (hx1 : ∀ (b : Fin 8) (q : Fin 256) (d : Fin 256), x1 (ix3 b q d) = A2 (ix3 b (col J q) d))
    (s : Vec Ideal S8x256x256 .bf16) (b : Fin 8) (p q : Fin 256) :
    k0_pay11 (F := Ideal) x1 s (ix3 b p q)
      = min (Ideal.ofBits .f32 0x3F800000#32) (max (Ideal.ofBits .f32 0xBF800000#32)
          (∑ k : Fin 256, s (ix3 b p k) * Cert.ReferenceIdeal.Read.val_main_v9 (F := Ideal) A2 (ix3 b (col J q) k))) := by
  unfold k0_pay11
  rw [minimumf_apply, broadcast_apply, maximumf_apply, broadcast_apply, bmmT_apply]
  simp only [wn A2 J x1 hx1]
  rfl

/-- The two matmul payloads are the same term. -/
theorem pay12_eq_pay11 (x1 : Vec Ideal S8x256x256 .f32) (s : Vec Ideal S8x256x256 .bf16) :
    k0_pay12 (F := Ideal) x1 s = k0_pay11 (F := Ideal) x1 s := rfl

/-- The first cosine block is the reference's clipped cosine of the normalised input at the tile's rows and classes. -/
theorem cos1 (A0 : (⟨Cert.ReferenceIdeal.S1024x2048, .f32⟩ : BufTy).Contents (Elt Ideal))
    (A2 : (⟨Cert.ReferenceIdeal.S8x4096x256, .f32⟩ : BufTy).Contents (Elt Ideal)) (I : Fin 4) (J : Fin 16)
    (x1 : Vec Ideal S8x256x256 .f32)
    (hx1 : ∀ (b : Fin 8) (q : Fin 256) (d : Fin 256), x1 (ix3 b q d) = A2 (ix3 b (col J q) d))
    (s0 : Vec Ideal S8x256x256 .bf16)
    (hs0 : ∀ (b : Fin 8) (p : Fin 256) (d : Fin 256),
      s0 (ix3 b p d) = Cert.ReferenceIdeal.Read.val_main_v17 (F := Ideal) A0 (ix3 b (row I p) d))
    (b : Fin 8) (p q : Fin 256) :
    k0_pay11 (F := Ideal) x1 s0 (ix3 b p q)
      = Cert.ReferenceIdeal.Read.val_main_v19 (F := Ideal) A0 A2 (ix3 b (row I p) (col J q)) := by
  rw [cosK A2 J x1 hx1]
  rw [Cert.ReferenceIdeal.Read.val_main_v19_apply, Cert.ReferenceIdeal.Read.val_main_call0_v4_apply,
    Cert.ReferenceIdeal.Read.val_main_call0_v3_apply, Cert.ReferenceIdeal.Read.val_main_cst_4_apply,
    Cert.ReferenceIdeal.Read.val_main_call0_v2_apply, Cert.ReferenceIdeal.Read.val_main_call0_v1_apply,
    Cert.ReferenceIdeal.Read.val_main_call0_v0_apply, Cert.ReferenceIdeal.Read.val_main_cst_3_apply,
    Cert.ReferenceIdeal.Read.val_main_v18_apply]
  have hl : ∀ k : Fin 256, Cert.ReferenceIdeal.Read.lidx_main_v18 (ix3 b (row I p) (col J q)) k = ix3 b (row I p) k :=
    fun k => funext fun a => Fin.ext (by match a with | ⟨0, _⟩ => rfl | ⟨1, _⟩ => rfl | ⟨2, _⟩ => rfl)
  have hr : ∀ k : Fin 256, Cert.ReferenceIdeal.Read.ridx_main_v18 (ix3 b (row I p) (col J q)) k = ix3 b (col J q) k :=
    fun k => funext fun a => Fin.ext (by match a with | ⟨0, _⟩ => rfl | ⟨1, _⟩ => rfl | ⟨2, _⟩ => rfl)
  simp only [hl, hr, hs0, Ideal.minimumf_def, Ideal.maximumf_def, Ideal.ofBits_def]

/-- The second cosine block is the reference's clipped cosine of the normalised codebook mixture at the tile's rows and
    classes. -/
theorem cos2 (A0 : (⟨Cert.ReferenceIdeal.S1024x2048, .f32⟩ : BufTy).Contents (Elt Ideal))
    (A2 : (⟨Cert.ReferenceIdeal.S8x4096x256, .f32⟩ : BufTy).Contents (Elt Ideal))
    (A3 A4 : (⟨Cert.ReferenceIdeal.S8x256x256, .f32⟩ : BufTy).Contents (Elt Ideal)) (I : Fin 4) (J : Fin 16)
    (x1 : Vec Ideal S8x256x256 .f32)
    (hx1 : ∀ (b : Fin 8) (q : Fin 256) (d : Fin 256), x1 (ix3 b q d) = A2 (ix3 b (col J q) d))
    (s1 : Vec Ideal S8x256x256 .bf16)
    (hs1 : ∀ (b : Fin 8) (p : Fin 256) (d : Fin 256),
      s1 (ix3 b p d) = Cert.ReferenceIdeal.Read.val_main_v40 (F := Ideal) A0 A3 A4 (ix3 b (row I p) d))
    (b : Fin 8) (p q : Fin 256) :
    k0_pay12 (F := Ideal) x1 s1 (ix3 b p q)
      = Cert.ReferenceIdeal.Read.val_main_v42 (F := Ideal) A0 A2 A3 A4 (ix3 b (row I p) (col J q)) := by
  rw [pay12_eq_pay11, cosK A2 J x1 hx1]
  rw [Cert.ReferenceIdeal.Read.val_main_v42_apply, Cert.ReferenceIdeal.Read.val_main_call1_v4_apply,
    Cert.ReferenceIdeal.Read.val_main_call1_v3_apply, Cert.ReferenceIdeal.Read.val_main_cst_11_apply,
    Cert.ReferenceIdeal.Read.val_main_call1_v2_apply, Cert.ReferenceIdeal.Read.val_main_call1_v1_apply,
    Cert.ReferenceIdeal.Read.val_main_call1_v0_apply, Cert.ReferenceIdeal.Read.val_main_cst_10_apply,
    Cert.ReferenceIdeal.Read.val_main_v41_apply]
  have hl : ∀ k : Fin 256, Cert.ReferenceIdeal.Read.lidx_main_v41 (ix3 b (row I p) (col J q)) k = ix3 b (row I p) k :=
    fun k => funext fun a => Fin.ext (by match a with | ⟨0, _⟩ => rfl | ⟨1, _⟩ => rfl | ⟨2, _⟩ => rfl)
  have hr : ∀ k : Fin 256, Cert.ReferenceIdeal.Read.ridx_main_v41 (ix3 b (row I p) (col J q)) k = ix3 b (col J q) k :=
    fun k => funext fun a => Fin.ext (by match a with | ⟨0, _⟩ => rfl | ⟨1, _⟩ => rfl | ⟨2, _⟩ => rfl)
  simp only [hl, hr, hs1, Ideal.minimumf_def, Ideal.maximumf_def, Ideal.ofBits_def]

/-! ## The one-hot of the label -/

/-- An integer comparison of vectors read at an index. -/
theorem cmpi_apply {s : Shape} {w : Nat} (pr : CmpIPredicate) (a c : IVec s w) (i : s.Idx) :
    cmpi pr a c i = IntOp.cmpi pr (a i) (c i) := rfl
/-- An integer sum of vectors read at an index. -/
theorem addi_apply {s : Shape} {w : Nat} (a c : IVec s w) (i : s.Idx) : addi a c i = a i + c i := rfl

/-- A bit widened to 32 bits and read as a signed integer is the bit read as a natural number: both are `0` or `1`. -/
theorem sitofp_extui_bit (c : BitVec 1) :
    FloatOps.sitofp (F := Ideal) .f32 (c.setWidth 32) = FloatOps.uitofp (F := Ideal) .f32 c := by
  have h : (c.setWidth 32).toInt = (c.toNat : ℤ) := by
    rcases BitVec.eq_zero_or_eq_one c with rfl | rfl <;> decide
  show (((c.setWidth 32).toInt : ℝ) : EReal) = ((c.toNat : ℝ) : EReal)
  rw [h, Int.cast_natCast]

/-- The class index of column `q` of column tile `J` as a 32-bit word: `q + J · 256` is `256·J + q`, below `4096`. -/
theorem word_col (J : Fin 16) (q : Fin 256) :
    BitVec.ofNat 32 q.val + BitVec.ofNat 32 J.val * 256#32 = BitVec.ofNat 32 (256 * J.val + q.val) := by
  have h256 : (256#32 : BitVec 32) = BitVec.ofNat 32 256 := rfl
  rw [h256, ← BitVec.ofNat_mul, ← BitVec.ofNat_add]
  congr 1; omega

/-- The one-hot block is the reference's one-hot of the label at the tile's rows and classes: `1` where the label of
    row `256·I + p` is the class `256·J + q`, else `0`. -/
theorem onehot (A1 : (⟨Cert.ReferenceIdeal.S1024, .i32⟩ : BufTy).Contents (Elt Ideal)) (I : Fin 4) (J : Fin 16)
    (i : grid0.Coords) (hi : (i 1).val = J.val)
    (x4 : Vec Ideal S256x1 .i32) (hx4 : ∀ p : Fin 256, x4 (ix2 p 0) = A1 (ix1 (row I p)))
    (p q : Fin 256) :
    k0_pay13 (F := Ideal) i x4 (ix2 p q)
      = Cert.ReferenceIdeal.Read.val_main_v43 (F := Ideal) A1 (ix2 (row I p) (col J q)) := by
  unfold k0_pay13
  simp only [shapeCast_self]
  rw [sitofp_apply, extui_apply, cmpi_apply, addi_apply, broadcastTo_a1_ab_apply, iota_single_apply, broadcast_apply,
    hx4, sitofp_extui_bit]
  rw [Cert.ReferenceIdeal.Read.val_main_v43_apply, Cert.ReferenceIdeal.Read.val_main_call2_v4_apply,
    Cert.ReferenceIdeal.Read.val_main_call2_v2_apply, Cert.ReferenceIdeal.Read.val_main_call2_v0_apply,
    Cert.ReferenceIdeal.Read.val_main_call2_v3_apply, Cert.ReferenceIdeal.Read.val_main_call2_v1_apply]
  have ha : Cert.ReferenceIdeal.Read.idx_main_call2_v0
      (Cert.ReferenceIdeal.Read.idx_main_call2_v2 (ix2 (row I p) (col J q))) = ix1 (row I p) :=
    funext fun a => Fin.ext (by match a with | ⟨0, _⟩ => rfl)
  have hw : BitVec.ofNat 32 (ix2 p q 1).val + Scalar.muli (BitVec.ofNat 32 (i 1).val) 256#32
      = BitVec.ofNat 32 (Cert.ReferenceIdeal.Read.idx_main_call2_v3 (ix2 (row I p) (col J q)) 1).val := by
    rw [hi]; exact word_col J q
  rw [ha, hw]

/-! ## The stored logits -/

/-- The first stored block is the reference's first logits at the tile's rows and classes:
    `30 · (cos − ½ · onehot)` at `(256·I + p, b, 256·J + q)`. -/
theorem out1 (A0 : (⟨Cert.ReferenceIdeal.S1024x2048, .f32⟩ : BufTy).Contents (Elt Ideal))
    (A1 : (⟨Cert.ReferenceIdeal.S1024, .i32⟩ : BufTy).Contents (Elt Ideal))
    (A2 : (⟨Cert.ReferenceIdeal.S8x4096x256, .f32⟩ : BufTy).Contents (Elt Ideal)) (I : Fin 4) (J : Fin 16)
    (i : grid0.Coords) (hi : (i 1).val = J.val)
    (x1 : Vec Ideal S8x256x256 .f32)
    (hx1 : ∀ (b : Fin 8) (q : Fin 256) (d : Fin 256), x1 (ix3 b q d) = A2 (ix3 b (col J q) d))
    (x4 : Vec Ideal S256x1 .i32) (hx4 : ∀ p : Fin 256, x4 (ix2 p 0) = A1 (ix1 (row I p)))
    (s0 : Vec Ideal S8x256x256 .bf16)
    (hs0 : ∀ (b : Fin 8) (p : Fin 256) (d : Fin 256),
      s0 (ix3 b p d) = Cert.ReferenceIdeal.Read.val_main_v17 (F := Ideal) A0 (ix3 b (row I p) d))
    (p : Fin 256) (b : Fin 8) (q : Fin 256) :
    k0_pay1 (F := Ideal) (k0_pay11 (F := Ideal) x1 s0) (k0_pay13 (F := Ideal) i x4) (ix3 p b q)
      = Cert.ReferenceIdeal.Read.val_main_v57 (F := Ideal) A0 A1 A2 (ix3 (row I p) b (col J q)) := by
  unfold k0_pay1
  rw [transpose_ix3_102_apply, mulf_apply, broadcast_apply, subf_apply, broadcastTo_1bc_abc_apply, mulf_apply,
    broadcast_apply, shapeCast_ab_1ab_apply, cos1 A0 A2 I J x1 hx1 s0 hs0, onehot A1 I J i hi x4 hx4]
  rw [Cert.ReferenceIdeal.Read.val_main_v57_apply, Cert.ReferenceIdeal.Read.val_main_v50_apply,
    Cert.ReferenceIdeal.Read.val_main_v49_apply, Cert.ReferenceIdeal.Read.val_main_cst_13_apply,
    Cert.ReferenceIdeal.Read.val_main_v48_apply, Cert.ReferenceIdeal.Read.val_main_v47_apply,
    Cert.ReferenceIdeal.Read.val_main_v46_apply, Cert.ReferenceIdeal.Read.val_main_v44_apply,
    Cert.ReferenceIdeal.Read.val_main_v45_apply, Cert.ReferenceIdeal.Read.val_main_cst_12_apply]
  have h57 : Cert.ReferenceIdeal.Read.idx_main_v57 (ix3 (row I p) b (col J q)) = ix3 b (row I p) (col J q) :=
    funext fun a => Fin.ext (by match a with | ⟨0, _⟩ => rfl | ⟨1, _⟩ => rfl | ⟨2, _⟩ => rfl)
  have h44 : Cert.ReferenceIdeal.Read.idx_main_v44 (Cert.ReferenceIdeal.Read.idx_main_v47
      (ix3 b (row I p) (col J q))) = ix2 (row I p) (col J q) :=
    funext fun a => Fin.ext (by match a with | ⟨0, _⟩ => rfl | ⟨1, _⟩ => rfl)
  simp only [h57, h44, Ideal.mulf_def, Ideal.subf_def]

/-- The second stored block is the reference's second logits at the tile's rows and classes. -/
theorem out2 (A0 : (⟨Cert.ReferenceIdeal.S1024x2048, .f32⟩ : BufTy).Contents (Elt Ideal))
    (A1 : (⟨Cert.ReferenceIdeal.S1024, .i32⟩ : BufTy).Contents (Elt Ideal))
    (A2 : (⟨Cert.ReferenceIdeal.S8x4096x256, .f32⟩ : BufTy).Contents (Elt Ideal))
    (A3 A4 : (⟨Cert.ReferenceIdeal.S8x256x256, .f32⟩ : BufTy).Contents (Elt Ideal)) (I : Fin 4) (J : Fin 16)
    (i : grid0.Coords) (hi : (i 1).val = J.val)
    (x1 : Vec Ideal S8x256x256 .f32)
    (hx1 : ∀ (b : Fin 8) (q : Fin 256) (d : Fin 256), x1 (ix3 b q d) = A2 (ix3 b (col J q) d))
    (x4 : Vec Ideal S256x1 .i32) (hx4 : ∀ p : Fin 256, x4 (ix2 p 0) = A1 (ix1 (row I p)))
    (s1 : Vec Ideal S8x256x256 .bf16)
    (hs1 : ∀ (b : Fin 8) (p : Fin 256) (d : Fin 256),
      s1 (ix3 b p d) = Cert.ReferenceIdeal.Read.val_main_v40 (F := Ideal) A0 A3 A4 (ix3 b (row I p) d))
    (p : Fin 256) (b : Fin 8) (q : Fin 256) :
    k0_pay2 (F := Ideal) (k0_pay12 (F := Ideal) x1 s1) (k0_pay13 (F := Ideal) i x4) (ix3 p b q)
      = Cert.ReferenceIdeal.Read.val_main_v58 (F := Ideal) A0 A1 A2 A3 A4 (ix3 (row I p) b (col J q)) := by
  unfold k0_pay2
  rw [transpose_ix3_102_apply, mulf_apply, broadcast_apply, subf_apply, broadcastTo_1bc_abc_apply, mulf_apply,
    broadcast_apply, shapeCast_ab_1ab_apply, cos2 A0 A2 A3 A4 I J x1 hx1 s1 hs1, onehot A1 I J i hi x4 hx4]
  rw [Cert.ReferenceIdeal.Read.val_main_v58_apply, Cert.ReferenceIdeal.Read.val_main_v56_apply,
    Cert.ReferenceIdeal.Read.val_main_v55_apply, Cert.ReferenceIdeal.Read.val_main_cst_15_apply,
    Cert.ReferenceIdeal.Read.val_main_v54_apply, Cert.ReferenceIdeal.Read.val_main_v53_apply,
    Cert.ReferenceIdeal.Read.val_main_v52_apply, Cert.ReferenceIdeal.Read.val_main_v44_apply,
    Cert.ReferenceIdeal.Read.val_main_v51_apply, Cert.ReferenceIdeal.Read.val_main_cst_14_apply]
  have h58 : Cert.ReferenceIdeal.Read.idx_main_v58 (ix3 (row I p) b (col J q)) = ix3 b (row I p) (col J q) :=
    funext fun a => Fin.ext (by match a with | ⟨0, _⟩ => rfl | ⟨1, _⟩ => rfl | ⟨2, _⟩ => rfl)
  have h44 : Cert.ReferenceIdeal.Read.idx_main_v44 (Cert.ReferenceIdeal.Read.idx_main_v53
      (ix3 b (row I p) (col J q))) = ix2 (row I p) (col J q) :=
    funext fun a => Fin.ext (by match a with | ⟨0, _⟩ => rfl | ⟨1, _⟩ => rfl)
  simp only [h58, h44, Ideal.mulf_def, Ideal.subf_def]

end Cert.BridgeCos

end
-- ==== Proof.BridgeSoftRef.lean ====
/-
  The reference's softmax stages read at an index written by its coordinates.

  For the input `A0 : [1024, 2048]`, the matrix stack `A3 : [8, 256, 256]` and the codebooks `A4 : [8, 256, 256]`,
  with `x = transpose (reshape A0) : [8, 1024, 256]`:

  * the logits `z[b, r, w] = ∑ d, x[b, r, d] · A3[b, d, w]`;
  * the row maximum `m[b, r] = max (−∞) (fold of max from −∞ over w of z[b, r, w])`;
  * the exponentials `e[b, r, w] = exp (z[b, r, w] − m[b, r])` and their row sum `t[b, r] = ∑ w, e[b, r, w]`;
  * the softmax `σ[b, r, w] = e[b, r, w] / t[b, r]`, and its transpose `[1024, 8, 256]`;
  * the codeword mix `s[b, r, d] = ∑ w, σ[b, r, w] · A4[b, d, w]`, its squares, their row sum, and the row's
    normalisation `s[b, r, d] / max (sqrt (∑ d', s[b, r, d']²)) ε`.

  Each lemma reads one stage of the generated reading of the reference at `(b, r, w)`, `(b, r)` or `(r, b, w)` from the
  stages before it at indices written the same way.
-/
import proofs.«109032_j15315853378150_2_alg».proof.Proof.Gen.ReferenceIdeal.Read
import proofs.«109032_j15315853378150_2_alg».proof.Proof.LibLanes3
import Idealize.ShloMosaic.Lib.ValueIdx
import Idealize.ShloMosaic.Lib.Pipeline.Value
import Idealize.ShloMosaic.PureOps.Ideal.Laws

noncomputable section

open scoped BigOperators

namespace Cert.BridgeSoft

open Cert.ReferenceIdeal.Read Idealize.ShloMosaic Idealize.ShloMosaic.ValueIdx

/-- The input array's contents, `[1024, 2048]`. -/
abbrev In0 : Type := (⟨Cert.ReferenceIdeal.S1024x2048, .f32⟩ : BufTy).Contents (Elt Ideal)
/-- The contents of an `[8, 256, 256]` argument (the matrix stack, the codebooks). -/
abbrev In3 : Type := (⟨Cert.ReferenceIdeal.S8x256x256, .f32⟩ : BufTy).Contents (Elt Ideal)

/-- The word of `−∞`. -/
abbrev negInf : EReal := Ideal.ofBits .f32 0xFF800000#32
/-- The word of the normalisation's floor `ε`. -/
abbrev epsW : EReal := Ideal.ofBits .f32 0x2B8CBCCC#32

/-! ## The index functions of the generated reading, at coordinates -/

theorem lidx20 (b : Fin 8) (r : Fin 1024) (w k : Fin 256) : lidx_main_v20 (ix3 b r w) k = ix3 b r k :=
  funext fun a => Fin.ext (by match a with | ⟨0, _⟩ => rfl | ⟨1, _⟩ => rfl | ⟨2, _⟩ => rfl)
theorem ridx20 (b : Fin 8) (r : Fin 1024) (w k : Fin 256) : ridx_main_v20 (ix3 b r w) k = ix3 b k w :=
  funext fun a => Fin.ext (by match a with | ⟨0, _⟩ => rfl | ⟨1, _⟩ => rfl | ⟨2, _⟩ => rfl)
theorem idx24 (b : Fin 8) (r : Fin 1024) (u : Fin 1) : idx_main_v24 (ix3 b r u) = ix2 b r :=
  funext fun a => Fin.ext (by match a with | ⟨0, _⟩ => rfl | ⟨1, _⟩ => rfl)
theorem idx25 (b : Fin 8) (r : Fin 1024) (w : Fin 256) : idx_main_v25 (ix3 b r w) = ix3 b r (0 : Fin 1) :=
  funext fun a => Fin.ext (by match a with | ⟨0, _⟩ => rfl | ⟨1, _⟩ => rfl | ⟨2, _⟩ => rfl)
theorem idx28 (b : Fin 8) (r : Fin 1024) (k : Fin 256) : idx_main_v28 (ix2 b r) k = ix3 b r k :=
  funext fun a => Fin.ext (by match a with | ⟨0, _⟩ => rfl | ⟨1, _⟩ => rfl | ⟨2, _⟩ => rfl)
theorem idx29 (b : Fin 8) (r : Fin 1024) (u : Fin 1) : idx_main_v29 (ix3 b r u) = ix2 b r :=
  funext fun a => Fin.ext (by match a with | ⟨0, _⟩ => rfl | ⟨1, _⟩ => rfl)
theorem idx30 (b : Fin 8) (r : Fin 1024) (w : Fin 256) : idx_main_v30 (ix3 b r w) = ix3 b r (0 : Fin 1) :=
  funext fun a => Fin.ext (by match a with | ⟨0, _⟩ => rfl | ⟨1, _⟩ => rfl | ⟨2, _⟩ => rfl)
theorem lidx32 (b : Fin 8) (r : Fin 1024) (d k : Fin 256) : lidx_main_v32 (ix3 b r d) k = ix3 b r k :=
  funext fun a => Fin.ext (by match a with | ⟨0, _⟩ => rfl | ⟨1, _⟩ => rfl | ⟨2, _⟩ => rfl)
theorem ridx32 (b : Fin 8) (r : Fin 1024) (d k : Fin 256) : ridx_main_v32 (ix3 b r d) k = ix3 b d k :=
  funext fun a => Fin.ext (by match a with | ⟨0, _⟩ => rfl | ⟨1, _⟩ => rfl | ⟨2, _⟩ => rfl)
theorem idx34 (b : Fin 8) (r : Fin 1024) (k : Fin 256) : idx_main_v34 (ix2 b r) k = ix3 b r k :=
  funext fun a => Fin.ext (by match a with | ⟨0, _⟩ => rfl | ⟨1, _⟩ => rfl | ⟨2, _⟩ => rfl)
theorem idx35 (b : Fin 8) (r : Fin 1024) (u : Fin 1) : idx_main_v35 (ix3 b r u) = ix2 b r :=
  funext fun a => Fin.ext (by match a with | ⟨0, _⟩ => rfl | ⟨1, _⟩ => rfl)
theorem idx39 (b : Fin 8) (r : Fin 1024) (d : Fin 256) : idx_main_v39 (ix3 b r d) = ix3 b r (0 : Fin 1) :=
  funext fun a => Fin.ext (by match a with | ⟨0, _⟩ => rfl | ⟨1, _⟩ => rfl | ⟨2, _⟩ => rfl)
theorem idx59 (r : Fin 1024) (b : Fin 8) (w : Fin 256) : idx_main_v59 (ix3 r b w) = ix3 b r w :=
  funext fun a => Fin.ext (by match a with | ⟨0, _⟩ => rfl | ⟨1, _⟩ => rfl | ⟨2, _⟩ => rfl)

/-! ## The softmax -/

/-- The logits: `z[b, r, w] = ∑ d, x[b, r, d] · A3[b, d, w]`. -/
theorem ref_logits (A0 : In0) (A3 : In3) (b : Fin 8) (r : Fin 1024) (w : Fin 256) :
    val_main_v20 (F := Ideal) A0 A3 (ix3 b r w)
      = ∑ d : Fin 256, val_main_v1 (F := Ideal) A0 (ix3 b r d) * A3 (ix3 b d w) :=
  (val_main_v20_apply A0 A3 (ix3 b r w)).trans
    (Finset.sum_congr rfl fun k _ => by rw [lidx20, ridx20])

/-- The shape fact that names the index a last-axis reduction of `[8, 1024, 256]` inserts a coordinate into. -/
theorem reduces_ref : Cert.ReferenceIdeal.S8x1024x256.Reduces [2] Cert.ReferenceIdeal.S8x1024 := by decide

/-- The row maximum: `m[b, r] = max (−∞) (fold of max from −∞ over w of z[b, r, w])`. -/
theorem ref_rowmax (A0 : In0) (A3 : In3) (b : Fin 8) (r : Fin 1024) :
    val_main_v23 (F := Ideal) A0 A3 (ix2 b r)
      = max negInf ((Finset.univ : Finset (Fin 256)).fold max negInf
          (fun k => val_main_v20 (F := Ideal) A0 A3 (ix3 b r k))) := by
  have h21 : val_main_v21 (F := Ideal) A0 A3 (ix2 b r)
      = (Finset.univ : Finset (Fin 256)).fold max negInf (fun k => val_main_v20 (F := Ideal) A0 A3 (ix3 b r k)) := by
    unfold val_main_v21
    refine (Host.reduce_eq_fold_single (α := Ideal .f32) (FloatOps.maximumf (F := Ideal) (φ := .f32))
      (val_main_v20 (F := Ideal) A0 A3) (val_main_cst_5 (F := Ideal))
      Cert.ReferenceIdeal.Gen.reducesTo_S8x1024x256_S8x1024_d2 reduces_ref Cert.ReferenceIdeal.Gen.h_S_ (ix2 b r)).trans ?_
    exact congrArg (fun f => (Finset.univ : Finset (Fin 256)).fold max negInf f)
      (funext fun k => congrArg (val_main_v20 (F := Ideal) A0 A3) (Cert.LibLanes3.lift_lanes3 reduces_ref b r k))
  have h22 : val_main_v22 (F := Ideal) (ix2 b r) = negInf := val_main_v22_apply (F := Ideal) (ix2 b r)
  rw [val_main_v23_apply, h21, h22]
  rfl

/-- The exponentials: `e[b, r, w] = exp (z[b, r, w] − m[b, r])`. -/
theorem ref_exp (A0 : In0) (A3 : In3) (b : Fin 8) (r : Fin 1024) (w : Fin 256) :
    val_main_v27 (F := Ideal) A0 A3 (ix3 b r w)
      = Ideal.exp (val_main_v20 (F := Ideal) A0 A3 (ix3 b r w) - val_main_v23 (F := Ideal) A0 A3 (ix2 b r)) := by
  rw [val_main_v27_apply, val_main_v26_apply, val_main_v25_apply, idx25, val_main_v24_apply, idx24]
  rfl

/-- The row sum of the exponentials: `t[b, r] = ∑ w, e[b, r, w]`. -/
theorem ref_rowsum (A0 : In0) (A3 : In3) (b : Fin 8) (r : Fin 1024) :
    val_main_v28 (F := Ideal) A0 A3 (ix2 b r) = ∑ k : Fin 256, val_main_v27 (F := Ideal) A0 A3 (ix3 b r k) := by
  rw [val_main_v28_apply, val_main_cst_7_apply]
  show Ideal.ofBits .f32 0x00000000#32 + _ = _
  rw [Ideal.ofBits_zero_f32, zero_add]
  exact Finset.sum_congr rfl fun k _ => by rw [idx28]

/-- The softmax: `σ[b, r, w] = e[b, r, w] / t[b, r]`. -/
theorem ref_soft (A0 : In0) (A3 : In3) (b : Fin 8) (r : Fin 1024) (w : Fin 256) :
    val_main_v31 (F := Ideal) A0 A3 (ix3 b r w)
      = Ideal.div (val_main_v27 (F := Ideal) A0 A3 (ix3 b r w)) (val_main_v28 (F := Ideal) A0 A3 (ix2 b r)) := by
  rw [val_main_v31_apply, val_main_v30_apply, idx30, val_main_v29_apply, idx29]
  rfl

/-- The transposed softmax, `[1024, 8, 256]`, at `(r, b, w)` is the softmax at `(b, r, w)`. -/
theorem ref_soft_t (A0 : In0) (A3 : In3) (r : Fin 1024) (b : Fin 8) (w : Fin 256) :
    val_main_v59 (F := Ideal) A0 A3 (ix3 r b w) = val_main_v31 (F := Ideal) A0 A3 (ix3 b r w) := by
  rw [val_main_v59_apply, idx59]

/-! ## The codeword mix and its normalisation -/

/-- The codeword mix: `s[b, r, d] = ∑ w, σ[b, r, w] · A4[b, d, w]`. -/
theorem ref_mix (A0 : In0) (A3 A4 : In3) (b : Fin 8) (r : Fin 1024) (d : Fin 256) :
    val_main_v32 (F := Ideal) A0 A3 A4 (ix3 b r d)
      = ∑ w : Fin 256, val_main_v31 (F := Ideal) A0 A3 (ix3 b r w) * A4 (ix3 b d w) :=
  (val_main_v32_apply A0 A3 A4 (ix3 b r d)).trans
    (Finset.sum_congr rfl fun k _ => by rw [lidx32, ridx32])

/-- The row sum of the mix's squares. -/
theorem ref_sqsum (A0 : In0) (A3 A4 : In3) (b : Fin 8) (r : Fin 1024) :
    val_main_v34 (F := Ideal) A0 A3 A4 (ix2 b r)
      = ∑ k : Fin 256, val_main_v32 (F := Ideal) A0 A3 A4 (ix3 b r k) * val_main_v32 (F := Ideal) A0 A3 A4 (ix3 b r k) := by
  rw [val_main_v34_apply, val_main_cst_8_apply]
  show Ideal.ofBits .f32 0x00000000#32 + _ = _
  rw [Ideal.ofBits_zero_f32, zero_add]
  exact Finset.sum_congr rfl fun k _ => by rw [idx34]; rfl

/-- The normalised mix: `s[b, r, d] / max (sqrt (∑ d', s[b, r, d']²)) ε`. -/
theorem ref_norm (A0 : In0) (A3 A4 : In3) (b : Fin 8) (r : Fin 1024) (d : Fin 256) :
    val_main_v40 (F := Ideal) A0 A3 A4 (ix3 b r d)
      = Ideal.div (val_main_v32 (F := Ideal) A0 A3 A4 (ix3 b r d))
          (max (Ideal.sqrt (val_main_v34 (F := Ideal) A0 A3 A4 (ix2 b r))) epsW) := by
  rw [val_main_v40_apply, val_main_v39_apply, idx39, val_main_v38_apply, val_main_v36_apply, val_main_v35_apply, idx35,
    val_main_v37_apply]
  rfl

end Cert.BridgeSoft

end
-- ==== Proof.LibLayout3.lean ====
/-
  Layout steps of rank-3 vectors read at an index written by its coordinates, and a one-axis contraction re-indexed by
  its coordinate.

  * `shapeCast_keep_apply`: an `[a, b]` vector cast to `[a, b, 1]` reads, at `(i, j, u)`, the operand at `(i, j)`;
  * `broadcastTo_lanes_apply`: an `[a, b, 1]` vector broadcast to `[a, b, c]` reads, at `(i, j, k)`, the operand at `(i, j, 0)`;
  * `transpose_swap01_apply`: an `[m, a, b]` vector with its first two axes swapped reads, at `(i, k, j)`, the operand
    at `(k, i, j)`;
  * `matmul_zero_reindex`: a matrix product into the zero accumulator whose dimension numbers contract ONE axis of
    extent `K`, read at an index `j`, is `∑ k : Fin K, lhs (li k) * rhs (ri k)` for any description `li`, `ri` of the
    two operand indices at contraction coordinate `k`.
  The first three hold for any extents and element type; the last for any shapes and float formats.
-/
import Idealize.ShloMosaic.Lib.ValueIdx
import Idealize.ShloMosaic.Lib.Pipeline.Value
import Idealize.ShloMosaic.PureOps.Ideal.Laws

noncomputable section

open scoped BigOperators

namespace Cert.LibLayout3

open Idealize.ShloMosaic Idealize.ShloMosaic.ValueIdx

variable {α : Type}

/-- An `[a, b]` vector cast to `[a, b, 1]` reads, at `(i, j, u)`, the operand at `(i, j)`: the unit coordinate is `0`, so
    the two row-major positions are the same number. -/
theorem shapeCast_keep_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    rw [Shape.rowMajor_val_two, Shape.rowMajor_val_three]
    show i.val * b + j.val = (i.val * b + j.val) * 1 + u.val
    have hu : u.val = 0 := by omega
    omega)

/-- An `[a, b, 1]` vector broadcast to `[a, b, c]` reads, at `(i, j, k)`, the operand at `(i, j, 0)`. -/
theorem broadcastTo_lanes_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    have := i.isLt
    split <;> omega
  | ⟨1, _⟩ =>
    show j.val = if b = 1 then 0 else j.val
    have := j.isLt
    split <;> omega
  | ⟨2, _⟩ =>
    show (0 : ℕ) = if (1 : ℕ) = 1 then 0 else k.val
    rw [if_pos rfl]

/-- An `[m, a, b]` vector with its first two axes swapped (permutation `[1, 0, 2]`) reads, at `(i, k, j)`, the operand at
    `(k, i, j)`. -/
theorem transpose_swap01_apply {m a b : ℕ} (x : (⟨3, ![m, a, b]⟩ : Shape).Idx → α)
    (h : (⟨3, ![m, a, b]⟩ : Shape).Transposes [1, 0, 2] ⟨3, ![a, m, b]⟩) (i : Fin a) (k : Fin m) (j : Fin b) :
    transpose ⟨3, ![a, m, b]⟩ [1, 0, 2] x h (ix3 i k j) = x (ix3 k i j) :=
  transpose_apply _ x h _ _ fun c => match c with | ⟨0, _⟩ => rfl | ⟨1, _⟩ => rfl | ⟨2, _⟩ => rfl

/-- A matrix product into the zero accumulator, with ONE contracted axis of extent `K`, read at `j`: the sum over the
    contraction coordinate `k` of the operands' products at the indices `li k`, `ri k` that the dimension numbers give
    there (`hl`, `hr`). -/
theorem matmul_zero_reindex {sl sr so : Shape} {φ₁ φ₂ : FTy} (D : DotDims sl sr so) (prec : Option ContractPrecision)
    (K : ℕ) (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibLayout3

end
-- ==== Proof.BridgeSoftKer.lean ====
/-
  The kernel body's softmax arithmetic on one tile, read at an index written by its coordinates.

  For the loaded blocks `x : [8, 256, 256]` (rows of the input), `M : [8, 256, 256]` (the matrix stack) and
  `C : [8, 256, 256]` (the codebooks) the body computes, per book `b` and tile row `p`:

  * the logits `z[b, p, w] = ∑ d, x[b, p, d] · M[b, d, w]`;
  * the row maximum `m[b, p] = max (−∞) (fold of max from −∞ over w of z[b, p, w])`;
  * the exponentials `e[b, p, w] = exp (z[b, p, w] − m[b, p])`, their row sum `t[b, p] = ∑ w, e[b, p, w]`;
  * the softmax `σ[b, p, w] = e[b, p, w] / t[b, p]` (the payload `k0_pay5`), stored transposed (`k0_pay6`);
  * the codeword mix `s[b, p, d] = ∑ w, σ[b, p, w] · C[b, d, w]` (`k0_pay7`), its squares (`k0_pay8`), and the row's
    normalisation `s[b, p, d] / max (sqrt (∑ d', s[b, p, d']²)) ε` (`k0_pay9`).

  The intermediate vectors are named here (`tileLogits`, `tileMax`, `tileExp`, `tileSum`) and the payloads are shown
  to be built from them; a change of float format is the identity on the extended reals.
-/
import proofs.«109032_j15315853378150_2_alg».proof.Proof.Gen.KernelIdeal.Skeleton
import proofs.«109032_j15315853378150_2_alg».proof.Proof.LibLanes3
import proofs.«109032_j15315853378150_2_alg».proof.Proof.LibLayout3
import Idealize.ShloMosaic.Lib.ValueIdx
import Idealize.ShloMosaic.Lib.Pipeline.Value
import Idealize.ShloMosaic.PureOps.Ideal.Laws

noncomputable section

open scoped BigOperators

namespace Cert.BridgeSoft

open Cert.KernelIdeal Cert.KernelIdeal.Gen Idealize.ShloMosaic Idealize.ShloMosaic.ValueIdx

/-- The dimension numbers of `x · M`: batch axis 0, the left operand's axis 2 contracted with the right's axis 1. -/
abbrev dotXM : DotDims S8x256x256 S8x256x256 S8x256x256 := dot_S8x256x256_S8x256x256_S8x256x256_2_1_1_2_0_0
/-- The dimension numbers of `σ · Cᵀ`: batch axis 0, both operands' axis 2 contracted. -/
abbrev dotSC : DotDims S8x256x256 S8x256x256 S8x256x256 := dot_S8x256x256_S8x256x256_S8x256x256_2_2_1_1_0_0

/-! ## The operand indices of the two products -/

theorem dotXM_lhs0 (i : S8x256x256.Idx) (q : dotXM.contr.Idx) : (dotXM.lhsIdx i q 0).val = (i 0).val := by
  unfold DotDims.lhsIdx
  rw [dif_pos (show (0 : Fin S8x256x256.rank) ∈ dotXM.lhsBatch by decide)]
  rfl
theorem dotXM_lhs1 (i : S8x256x256.Idx) (q : dotXM.contr.Idx) : (dotXM.lhsIdx i q 1).val = (i 1).val := by
  unfold DotDims.lhsIdx
  rw [dif_neg (show ¬(1 : Fin S8x256x256.rank) ∈ dotXM.lhsBatch by decide),
    dif_pos (show (1 : Fin S8x256x256.rank) ∈ dotXM.lhsNonContracting by decide)]
  rfl
theorem dotXM_lhs2 (i : S8x256x256.Idx) (q : dotXM.contr.Idx) : (dotXM.lhsIdx i q 2).val = (q ⟨0, by decide⟩).val :=
  dotXM.lhsIdx_val_of_single rfl i q
theorem dotXM_rhs0 (i : S8x256x256.Idx) (q : dotXM.contr.Idx) : (dotXM.rhsIdx i q 0).val = (i 0).val := by
  unfold DotDims.rhsIdx
  rw [dif_pos (show (0 : Fin S8x256x256.rank) ∈ dotXM.rhsBatch by decide)]
  rfl
theorem dotXM_rhs1 (i : S8x256x256.Idx) (q : dotXM.contr.Idx) : (dotXM.rhsIdx i q 1).val = (q ⟨0, by decide⟩).val :=
  dotXM.rhsIdx_val_of_single rfl i q
theorem dotXM_rhs2 (i : S8x256x256.Idx) (q : dotXM.contr.Idx) : (dotXM.rhsIdx i q 2).val = (i 2).val := by
  unfold DotDims.rhsIdx
  rw [dif_neg (show ¬(2 : Fin S8x256x256.rank) ∈ dotXM.rhsBatch by decide),
    dif_pos (show (2 : Fin S8x256x256.rank) ∈ dotXM.rhsNonContracting by decide)]
  rfl

/-- At `(b, p, w)` and contraction coordinate `k` the left operand of `x · M` is read at `(b, p, k)` … -/
theorem dotXM_lhs (b : Fin 8) (p w k : Fin 256) :
    dotXM.lhsIdx (ix3 b p w) ((contrEquiv1 dotXM 256 rfl rfl).symm k) = ix3 b p k :=
  funext fun a => Fin.ext (by
    match a with
    | ⟨0, _⟩ => exact dotXM_lhs0 _ _
    | ⟨1, _⟩ => exact dotXM_lhs1 _ _
    | ⟨2, _⟩ => exact (dotXM_lhs2 _ _).trans (contrEquiv1_symm_val dotXM 256 rfl rfl k))
/-- … and the right operand at `(b, k, w)`. -/
theorem dotXM_rhs (b : Fin 8) (p w k : Fin 256) :
    dotXM.rhsIdx (ix3 b p w) ((contrEquiv1 dotXM 256 rfl rfl).symm k) = ix3 b k w :=
  funext fun a => Fin.ext (by
    match a with
    | ⟨0, _⟩ => exact dotXM_rhs0 _ _
    | ⟨1, _⟩ => exact (dotXM_rhs1 _ _).trans (contrEquiv1_symm_val dotXM 256 rfl rfl k)
    | ⟨2, _⟩ => exact dotXM_rhs2 _ _)

theorem dotSC_lhs0 (i : S8x256x256.Idx) (q : dotSC.contr.Idx) : (dotSC.lhsIdx i q 0).val = (i 0).val := by
  unfold DotDims.lhsIdx
  rw [dif_pos (show (0 : Fin S8x256x256.rank) ∈ dotSC.lhsBatch by decide)]
  rfl
theorem dotSC_lhs1 (i : S8x256x256.Idx) (q : dotSC.contr.Idx) : (dotSC.lhsIdx i q 1).val = (i 1).val := by
  unfold DotDims.lhsIdx
  rw [dif_neg (show ¬(1 : Fin S8x256x256.rank) ∈ dotSC.lhsBatch by decide),
    dif_pos (show (1 : Fin S8x256x256.rank) ∈ dotSC.lhsNonContracting by decide)]
  rfl
theorem dotSC_lhs2 (i : S8x256x256.Idx) (q : dotSC.contr.Idx) : (dotSC.lhsIdx i q 2).val = (q ⟨0, by decide⟩).val :=
  dotSC.lhsIdx_val_of_single rfl i q
theorem dotSC_rhs0 (i : S8x256x256.Idx) (q : dotSC.contr.Idx) : (dotSC.rhsIdx i q 0).val = (i 0).val := by
  unfold DotDims.rhsIdx
  rw [dif_pos (show (0 : Fin S8x256x256.rank) ∈ dotSC.rhsBatch by decide)]
  rfl
theorem dotSC_rhs1 (i : S8x256x256.Idx) (q : dotSC.contr.Idx) : (dotSC.rhsIdx i q 1).val = (i 2).val := by
  unfold DotDims.rhsIdx
  rw [dif_neg (show ¬(1 : Fin S8x256x256.rank) ∈ dotSC.rhsBatch by decide),
    dif_pos (show (1 : Fin S8x256x256.rank) ∈ dotSC.rhsNonContracting by decide)]
  rfl
theorem dotSC_rhs2 (i : S8x256x256.Idx) (q : dotSC.contr.Idx) : (dotSC.rhsIdx i q 2).val = (q ⟨0, by decide⟩).val :=
  dotSC.rhsIdx_val_of_single rfl i q

/-- At `(b, p, d)` and contraction coordinate `k` the left operand of `σ · Cᵀ` is read at `(b, p, k)` … -/
theorem dotSC_lhs (b : Fin 8) (p d k : Fin 256) :
    dotSC.lhsIdx (ix3 b p d) ((contrEquiv1 dotSC 256 rfl rfl).symm k) = ix3 b p k :=
  funext fun a => Fin.ext (by
    match a with
    | ⟨0, _⟩ => exact dotSC_lhs0 _ _
    | ⟨1, _⟩ => exact dotSC_lhs1 _ _
    | ⟨2, _⟩ => exact (dotSC_lhs2 _ _).trans (contrEquiv1_symm_val dotSC 256 rfl rfl k))
/-- … and the right operand at `(b, d, k)`. -/
theorem dotSC_rhs (b : Fin 8) (p d k : Fin 256) :
    dotSC.rhsIdx (ix3 b p d) ((contrEquiv1 dotSC 256 rfl rfl).symm k) = ix3 b d k :=
  funext fun a => Fin.ext (by
    match a with
    | ⟨0, _⟩ => exact dotSC_rhs0 _ _
    | ⟨1, _⟩ => exact dotSC_rhs1 _ _
    | ⟨2, _⟩ => exact (dotSC_rhs2 _ _).trans (contrEquiv1_symm_val dotSC 256 rfl rfl k))

/-! ## The softmax's intermediate vectors -/

/-- The logits `x · M` of the tile. -/
def tileLogits (x M : Vec Ideal S8x256x256 .f32) : FVec Ideal S8x256x256 .f32 :=
  matmul dotXM none (truncf .bf16 (k0_pay3 (F := Ideal) x) bitsLt_bf16_f32)
    (truncf .bf16 M bitsLt_bf16_f32) (constant (F := Ideal) S8x256x256 .f32 0x00000000#32)

/-- The row maxima of the logits. -/
def tileMax (x M : Vec Ideal S8x256x256 .f32) : FVec Ideal S8x256 .f32 :=
  maximumf (broadcast S8x256 (Scalar.ofBits (F := Ideal) .f32 0xFF800000#32))
    (multiReduction (F := Ideal) .maximumf [2] S8x256 (tileLogits x M) 0xFF800000#32 reduces_S8x256x256_S8x256 (.inl rfl) rfl)

/-- The exponentials of the logits less their row maximum. -/
def tileExp (x M : Vec Ideal S8x256x256 .f32) : FVec Ideal S8x256x256 .f32 :=
  exp (subf (tileLogits x M)
    (broadcastTo S8x256x256 (shapeCast S8x256x1 (tileMax x M) shapeCasts_S8x256_S8x256x1) broadcasts_S8x256x1_S8x256x256))

/-- The row sums of the exponentials. -/
def tileSum (x M : Vec Ideal S8x256x256 .f32) : FVec Ideal S8x256 .f32 :=
  multiReduction (F := Ideal) .add [2] S8x256 (tileExp x M) 0x00000000#32 reduces_S8x256x256_S8x256 (.inl rfl) rfl

/-- The softmax payload is the exponentials divided by their row sums. -/
theorem k0_pay5_eq (x M : Vec Ideal S8x256x256 .f32) :
    k0_pay5 (F := Ideal) x M = divf (tileExp x M)
      (broadcastTo S8x256x256 (shapeCast S8x256x1 (tileSum x M) shapeCasts_S8x256_S8x256x1) broadcasts_S8x256x1_S8x256x256) := rfl

/-- `z[b, p, w] = ∑ d, x[b, p, d] · M[b, d, w]`. -/
theorem tileLogits_apply (x M : Vec Ideal S8x256x256 .f32) (b : Fin 8) (p w : Fin 256) :
    tileLogits x M (ix3 b p w) = ∑ d : Fin 256, x (ix3 b p d) * M (ix3 b d w) := by
  unfold tileLogits
  refine (Cert.LibLayout3.matmul_zero_reindex dotXM none 256 rfl rfl _ _ (ix3 b p w) (fun k => ix3 b p k)
    (fun k => ix3 b k w) (dotXM_lhs b p w) (dotXM_rhs b p w)).trans ?_
  refine Finset.sum_congr rfl fun k _ => ?_
  show (k0_pay3 (F := Ideal) x) (ix3 b p k) * M (ix3 b k w) = _
  rw [show k0_pay3 (F := Ideal) x = x from shapeCast_self x _]

/-- `m[b, p] = max (−∞) (fold of max from −∞ over w of z[b, p, w])`. -/
theorem tileMax_apply (x M : Vec Ideal S8x256x256 .f32) (b : Fin 8) (p : Fin 256) :
    tileMax x M (ix2 b p)
      = max (Ideal.ofBits .f32 0xFF800000#32) ((Finset.univ : Finset (Fin 256)).fold max (Ideal.ofBits .f32 0xFF800000#32)
          (fun k => tileLogits x M (ix3 b p k))) := by
  unfold tileMax
  refine (maximumf_apply _ _ (ix2 b p)).trans ?_
  refine congrArg (max (Ideal.ofBits .f32 0xFF800000#32)) ?_
  exact Cert.LibLanes3.multiReduction_maximumf_lanes3_apply (tileLogits x M) 0xFF800000#32 reduces_S8x256x256_S8x256 (.inl rfl) rfl b p

/-- `e[b, p, w] = exp (z[b, p, w] − m[b, p])`. -/
theorem tileExp_apply (x M : Vec Ideal S8x256x256 .f32) (b : Fin 8) (p w : Fin 256) :
    tileExp x M (ix3 b p w) = Ideal.exp (tileLogits x M (ix3 b p w) - tileMax x M (ix2 b p)) := by
  unfold tileExp
  exact congrArg (fun t => Ideal.exp (tileLogits x M (ix3 b p w) - t))
    ((Cert.LibLayout3.broadcastTo_lanes_apply _ broadcasts_S8x256x1_S8x256x256 b p w).trans
      (Cert.LibLayout3.shapeCast_keep_apply (tileMax x M) shapeCasts_S8x256_S8x256x1 b p 0))

/-- `t[b, p] = ∑ w, e[b, p, w]`. -/
theorem tileSum_apply (x M : Vec Ideal S8x256x256 .f32) (b : Fin 8) (p : Fin 256) :
    tileSum x M (ix2 b p) = ∑ k : Fin 256, tileExp x M (ix3 b p k) := by
  unfold tileSum
  exact Cert.LibLanes3.multiReduction_add_lanes3_apply (tileExp x M) 0x00000000#32 reduces_S8x256x256_S8x256 (.inl rfl) rfl b p

/-- `σ[b, p, w] = e[b, p, w] / t[b, p]`. -/
theorem k0_pay5_apply (x M : Vec Ideal S8x256x256 .f32) (b : Fin 8) (p w : Fin 256) :
    k0_pay5 (F := Ideal) x M (ix3 b p w) = Ideal.div (tileExp x M (ix3 b p w)) (tileSum x M (ix2 b p)) := by
  rw [k0_pay5_eq]
  exact congrArg (fun t => Ideal.div (tileExp x M (ix3 b p w)) t)
    ((Cert.LibLayout3.broadcastTo_lanes_apply _ broadcasts_S8x256x1_S8x256x256 b p w).trans
      (Cert.LibLayout3.shapeCast_keep_apply (tileSum x M) shapeCasts_S8x256_S8x256x1 b p 0))

/-- The stored softmax block `[256, 8, 256]` at `(p, b, w)` is the softmax at `(b, p, w)`. -/
theorem k0_pay6_apply (x M : Vec Ideal S8x256x256 .f32) (p : Fin 256) (b : Fin 8) (w : Fin 256) :
    k0_pay6 (F := Ideal) x M (ix3 p b w) = k0_pay5 (F := Ideal) x M (ix3 b p w) := by
  unfold k0_pay6
  exact Cert.LibLayout3.transpose_swap01_apply (k0_pay5 (F := Ideal) x M) transposes_S8x256x256_p1_0_2_S256x8x256 p b w

/-! ## The codeword mix and its normalisation -/

/-- `s[b, p, d] = ∑ w, σ[b, p, w] · C[b, d, w]`. -/
theorem k0_pay7_apply (x M C : Vec Ideal S8x256x256 .f32) (b : Fin 8) (p d : Fin 256) :
    k0_pay7 (F := Ideal) x M C (ix3 b p d) = ∑ w : Fin 256, k0_pay5 (F := Ideal) x M (ix3 b p w) * C (ix3 b d w) := by
  unfold k0_pay7
  exact Cert.LibLayout3.matmul_zero_reindex dotSC none 256 rfl rfl _ _ (ix3 b p d) (fun k => ix3 b p k)
    (fun k => ix3 b d k) (dotSC_lhs b p d) (dotSC_rhs b p d)

/-- The squares of the mix. -/
theorem k0_pay8_apply (x M C : Vec Ideal S8x256x256 .f32) (b : Fin 8) (p d : Fin 256) :
    k0_pay8 (F := Ideal) x M C (ix3 b p d)
      = k0_pay7 (F := Ideal) x M C (ix3 b p d) * k0_pay7 (F := Ideal) x M C (ix3 b p d) := rfl

/-- The normalisation of any `s` with squares `q`: `s[b, p, d] / max (sqrt (∑ k, q[b, p, k])) ε`. -/
theorem k0_pay9_apply (s q : FVec Ideal S8x256x256 .f32) (b : Fin 8) (p d : Fin 256) :
    k0_pay9 (F := Ideal) s q (ix3 b p d)
      = Ideal.div (s (ix3 b p d)) (max (Ideal.sqrt (∑ k : Fin 256, q (ix3 b p k))) (Ideal.ofBits .f32 0x2B8CBCCC#32)) := by
  unfold k0_pay9
  rw [shapeCast_self]
  show Ideal.div (s (ix3 b p d)) (broadcastTo S8x256x256 _ broadcasts_S8x256x1_S8x256x256 (ix3 b p d)) = _
  refine congrArg (Ideal.div (s (ix3 b p d))) ?_
  refine (Cert.LibLayout3.broadcastTo_lanes_apply _ broadcasts_S8x256x1_S8x256x256 b p d).trans ?_
  show max (Ideal.sqrt (shapeCast S8x256x1 _ shapeCasts_S8x256_S8x256x1 (ix3 b p (0 : Fin 1)))) (Ideal.ofBits .f32 0x2B8CBCCC#32) = _
  refine congrArg (fun t => max (Ideal.sqrt t) (Ideal.ofBits .f32 0x2B8CBCCC#32)) ?_
  refine (Cert.LibLayout3.shapeCast_keep_apply _ shapeCasts_S8x256_S8x256x1 b p 0).trans ?_
  exact Cert.LibLanes3.multiReduction_add_lanes3_apply q 0x00000000#32 reduces_S8x256x256_S8x256 (.inl rfl) rfl b p

end Cert.BridgeSoft

end
-- ==== Proof.BridgeSoft.lean ====
/-
  The kernel body's softmax payloads on the tile of rows `256·I … 256·I + 255` are the reference's softmax stages at
  those rows, entry by entry.

  With `x` the tile's block of the input rows (`x[b, p, d]` is the reference's `x[b, 256·I + p, d]`), `M` the whole matrix
  stack and `C` the whole codebooks, both sides compute the same formulas in the same order — logits, row maximum,
  exponentials, row sum, quotient; then the codeword mix, its squares' row sum, square root, floor `ε`, quotient — so each
  stage of the kernel at `(b, p, ·)` is the reference's stage at `(b, 256·I + p, ·)`:

  * `soft_entry`: the softmax payload at `(b, p, w)` is the reference's softmax at `(b, row I p, w)`;
  * `xcs`: the stored softmax block at `(p, b, w)` is the reference's transposed softmax at `(row I p, b, w)`;
  * `mix_entry`: the codeword mix at `(b, p, d)` is the reference's at `(b, row I p, d)`;
  * `sn`: the normalised mix at `(b, p, d)` is the reference's at `(b, row I p, d)`.
-/
import proofs.«109032_j15315853378150_2_alg».proof.Proof.BridgeSoftRef
import proofs.«109032_j15315853378150_2_alg».proof.Proof.BridgeSoftKer

noncomputable section

open scoped BigOperators

namespace Cert.BridgeSoft

open Cert.KernelIdeal Cert.KernelIdeal.Gen Cert.ReferenceIdeal.Read Idealize.ShloMosaic Idealize.ShloMosaic.ValueIdx

/-- The global row of tile `I`'s row `p`. -/
abbrev row (I : Fin 4) (p : Fin 256) : Fin 1024 := ⟨256 * I.val + p.val, by omega⟩
/-- The global column (class) of tile `J`'s column `q`. -/
abbrev col (J : Fin 16) (q : Fin 256) : Fin 4096 := ⟨256 * J.val + q.val, by omega⟩

section Tile

variable (A0 : In0) (A3 A4 : In3) (I : Fin 4)
  (x0 : Vec Ideal S8x256x256 .f32)
  (hx0 : ∀ (b : Fin 8) (p d : Fin 256), x0 (ix3 b p d) = val_main_v1 (F := Ideal) A0 (ix3 b (row I p) d))
  (x2 : Vec Ideal S8x256x256 .f32) (hx2 : ∀ (b : Fin 8) (d w : Fin 256), x2 (ix3 b d w) = A3 (ix3 b d w))
  (x3 : Vec Ideal S8x256x256 .f32) (hx3 : ∀ (b : Fin 8) (d w : Fin 256), x3 (ix3 b d w) = A4 (ix3 b d w))

include hx0 hx2 in
/-- The tile's logits are the reference's logits at the tile's rows. -/
theorem logits_entry (b : Fin 8) (p w : Fin 256) :
    tileLogits x0 x2 (ix3 b p w) = val_main_v20 (F := Ideal) A0 A3 (ix3 b (row I p) w) := by
  rw [tileLogits_apply, ref_logits]
  exact Finset.sum_congr rfl fun d _ => by rw [hx0, hx2]

include hx0 hx2 in
/-- The tile's row maxima are the reference's at the tile's rows. -/
theorem rowmax_entry (b : Fin 8) (p : Fin 256) :
    tileMax x0 x2 (ix2 b p) = val_main_v23 (F := Ideal) A0 A3 (ix2 b (row I p)) := by
  rw [tileMax_apply, ref_rowmax]
  exact congrArg (fun f => max negInf ((Finset.univ : Finset (Fin 256)).fold max negInf f))
    (funext fun k => logits_entry A0 A3 I x0 hx0 x2 hx2 b p k)

include hx0 hx2 in
/-- The tile's exponentials are the reference's at the tile's rows. -/
theorem exp_entry (b : Fin 8) (p w : Fin 256) :
    tileExp x0 x2 (ix3 b p w) = val_main_v27 (F := Ideal) A0 A3 (ix3 b (row I p) w) := by
  rw [tileExp_apply, ref_exp, logits_entry A0 A3 I x0 hx0 x2 hx2, rowmax_entry A0 A3 I x0 hx0 x2 hx2]

include hx0 hx2 in
/-- The tile's row sums of exponentials are the reference's at the tile's rows. -/
theorem rowsum_entry (b : Fin 8) (p : Fin 256) :
    tileSum x0 x2 (ix2 b p) = val_main_v28 (F := Ideal) A0 A3 (ix2 b (row I p)) := by
  rw [tileSum_apply, ref_rowsum]
  exact Finset.sum_congr rfl fun k _ => exp_entry A0 A3 I x0 hx0 x2 hx2 b p k

include hx0 hx2 in
/-- The softmax payload at `(b, p, w)` is the reference's softmax at `(b, row I p, w)`. -/
theorem soft_entry (b : Fin 8) (p w : Fin 256) :
    k0_pay5 (F := Ideal) x0 x2 (ix3 b p w) = val_main_v31 (F := Ideal) A0 A3 (ix3 b (row I p) w) := by
  rw [k0_pay5_apply, ref_soft, exp_entry A0 A3 I x0 hx0 x2 hx2, rowsum_entry A0 A3 I x0 hx0 x2 hx2]

include hx0 hx2 in
/-- The stored softmax block at `(p, b, w)` is the reference's transposed softmax at `(row I p, b, w)`. -/
theorem xcs (p : Fin 256) (b : Fin 8) (w : Fin 256) :
    k0_pay6 (F := Ideal) x0 x2 (ix3 p b w) = val_main_v59 (F := Ideal) A0 A3 (ix3 (row I p) b w) := by
  rw [k0_pay6_apply, ref_soft_t]
  exact soft_entry A0 A3 I x0 hx0 x2 hx2 b p w

include hx0 hx2 hx3 in
/-- The codeword mix at `(b, p, d)` is the reference's at `(b, row I p, d)`. -/
theorem mix_entry (b : Fin 8) (p d : Fin 256) :
    k0_pay7 (F := Ideal) x0 x2 x3 (ix3 b p d) = val_main_v32 (F := Ideal) A0 A3 A4 (ix3 b (row I p) d) := by
  rw [k0_pay7_apply, ref_mix]
  exact Finset.sum_congr rfl fun w _ => by rw [soft_entry A0 A3 I x0 hx0 x2 hx2, hx3]

include hx0 hx2 hx3 in
/-- The normalised codeword mix at `(b, p, d)` is the reference's at `(b, row I p, d)`. -/
theorem sn (b : Fin 8) (p d : Fin 256) :
    k0_pay9 (F := Ideal) (k0_pay7 (F := Ideal) x0 x2 x3) (k0_pay8 (F := Ideal) x0 x2 x3) (ix3 b p d)
      = val_main_v40 (F := Ideal) A0 A3 A4 (ix3 b (row I p) d) := by
  rw [k0_pay9_apply, ref_norm, ref_sqsum, mix_entry A0 A3 A4 I x0 hx0 x2 hx2 x3 hx3]
  refine congrArg (fun t => Ideal.div (val_main_v32 (F := Ideal) A0 A3 A4 (ix3 b (row I p) d)) (max (Ideal.sqrt t) epsW)) ?_
  exact Finset.sum_congr rfl fun k _ => by
    rw [k0_pay8_apply, mix_entry A0 A3 A4 I x0 hx0 x2 hx2 x3 hx3]

end Tile

end Cert.BridgeSoft

end
-- ==== Proof.KValue.lean ====
/-
  The idealised kernel's three result arrays, as whole-array functions of the argument arrays.

  A grid point t = 16·I + J (row tile I of 256 rows, column tile J of 256 classes) writes back block (I, ·, J) of the
  first two results and — at the last column tile — block (I, ·, ·) of the third. What it writes is the body's
  arithmetic on the point's blocks: the weight block of column tile J, the label block of row tile I, and the two
  scratch buffers, which hold the normalised x rows and the normalised soft-quantised rows of row tile I as the row
  tile's first point stored them. Entry by entry this is the reference's stage at the tile's global index: the
  cosine logits with the margin for the first two results, the softmax for the third. The blocks tile each result
  array, so each array ends as the reference's stage of the argument arrays.
-/
import proofs.«109032_j15315853378150_2_alg».proof.Proof.KernelIdealBody.Pieces
import proofs.«109032_j15315853378150_2_alg».proof.Proof.BridgeCos
import proofs.«109032_j15315853378150_2_alg».proof.Proof.BridgeSoft
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)
open Cert.ReferenceIdeal (Read.val_main_v1 Read.val_main_v17 Read.val_main_v40 Read.val_main_v57 Read.val_main_v58 Read.val_main_v59)

variable (m : (ℓ : Loc nD τ sig) → Buf (Elt Ideal) ℓ) (ρ : Dev nD → PrngReg)

/-! ## The grid's arithmetic -/

theorem hN (t : Fin cfg0.N) : t.val < 64 := lt_of_lt_of_eq t.isLt (show cfg0.N = 64 from N_0)

/-- The row tile and the column tile of a point. -/
def tI (t : Fin cfg0.N) : Fin 4 := ⟨t.val / 16, by have := hN t; omega⟩
def tJ (t : Fin cfg0.N) : Fin 16 := ⟨t.val % 16, by omega⟩

theorem tI_base (t : Fin cfg0.N) : tI (base t) = tI t :=
  Fin.ext (by show (t.val - t.val % 16) / 16 = t.val / 16; omega)

/-- The printed index maps, decided over the grid. -/
theorem idx0 : ∀ t : Fin cfg0.N, win0_0.index t (0 : Fin 3) = 0 ∧ win0_0.index t (1 : Fin 3) = t.val / 16 ∧ win0_0.index t (2 : Fin 3) = 0 :=
  (by decide +kernel : ∀ t : Fin grid0.N, _)
theorem idx1 : ∀ t : Fin cfg0.N, win0_1.index t (0 : Fin 3) = 0 ∧ win0_1.index t (1 : Fin 3) = t.val % 16 ∧ win0_1.index t (2 : Fin 3) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 2) = t.val / 16 ∧ win0_4.index t (1 : Fin 2) = 0 :=
  (by decide +kernel : ∀ t : Fin grid0.N, _)
theorem idx5 : ∀ t : Fin cfg0.N, win0_5.index t (0 : Fin 3) = t.val / 16 ∧ win0_5.index t (1 : Fin 3) = 0 ∧ win0_5.index t (2 : Fin 3) = t.val % 16 :=
  (by decide +kernel : ∀ t : Fin grid0.N, _)
theorem idx6 : ∀ t : Fin cfg0.N, win0_6.index t (0 : Fin 3) = t.val / 16 ∧ win0_6.index t (1 : Fin 3) = 0 ∧ win0_6.index t (2 : Fin 3) = t.val % 16 :=
  (by decide +kernel : ∀ t : Fin grid0.N, _)
theorem idx7 : ∀ t : Fin cfg0.N, win0_7.index t (0 : Fin 3) = t.val / 16 ∧ win0_7.index t (1 : Fin 3) = 0 ∧ win0_7.index t (2 : Fin 3) = 0 :=
  (by decide +kernel : ∀ t : Fin grid0.N, _)
theorem coord1 : ∀ t : Fin cfg0.N, (grid0.coords t 1).val = t.val % 16 :=
  (by decide +kernel : ∀ t : Fin grid0.N, _)

/-! ## The arrays the region finds -/

/-- The x operand: the input regrouped by book, as the reference's first two operations compute it. -/
theorem V_v1 (c : Dev nD) :
    (V m c main_v1 : S8x1024x256.Idx → EReal) = Read.val_main_v1 (F := Ideal) (m ((c.tc : Thread nD τ).loc main_arg0)) := by
  dsimp only [Gen.V, Gen.hostOps0]; after_results; rfl

/-- The label operand: the labels as a column. -/
theorem V_v2 (c : Dev nD) :
    (V m c main_v2 : S1024x1.Idx → BitVec 32) = shapeCast S1024x1 (m ((c.tc : Thread nD τ).loc main_arg1)) Facts₀.shapeCasts_S1024_S1024x1 := by
  dsimp only [Gen.V, Gen.hostOps0]; after_results; rfl

/-! ## The blocks a point loads, entry by entry -/

/-- The x block of a point holds the rows of the point's row tile. -/
theorem blk0 (c : Dev nD) (s : Fin cfg0.N) (b : Fin 8) (p d : Fin 256) :
    iblk m c 0 s (ix3 b p d) = Read.val_main_v1 (F := Ideal) (m ((c.tc : Thread nD τ).loc main_arg0)) (ix3 b (BridgeCos.row (tI s) p) d) := by
  show V m c main_v1 (((cfg0.win 0).blk s).view.emb (ix3 b p d)) = _
  rw [V_v1]
  refine congrArg _ ?_
  obtain ⟨e0, e1, e2⟩ := idx0 s
  funext a; apply Fin.ext
  match a with
  | ⟨0, _⟩ => show win0_0.index s (0 : Fin 3) * 8 + 1 * b.val = b.val; omega
  | ⟨1, _⟩ => show win0_0.index s (1 : Fin 3) * 256 + 1 * p.val = 256 * (s.val / 16) + p.val; omega
  | ⟨2, _⟩ => show win0_0.index s (2 : Fin 3) * 256 + 1 * d.val = d.val; omega

/-- The weight block of a point holds the classes of the point's column tile. -/
theorem blk1 (c : Dev nD) (t : Fin cfg0.N) (b : Fin 8) (q d : Fin 256) :
    iblk m c 1 t (ix3 b q d) = (m ((c.tc : Thread nD τ).loc main_arg2)) (ix3 b (BridgeCos.col (tJ t) q) d) := by
  show V m c main_arg2 (((cfg0.win 1).blk t).view.emb (ix3 b q d)) = _
  rw [V_main_arg2 m c]
  refine congrArg _ ?_
  obtain ⟨e0, e1, e2⟩ := idx1 t
  funext a; apply Fin.ext
  match a with
  | ⟨0, _⟩ => show win0_1.index t (0 : Fin 3) * 8 + 1 * b.val = b.val; omega
  | ⟨1, _⟩ => show win0_1.index t (1 : Fin 3) * 256 + 1 * q.val = 256 * (t.val % 16) + q.val; omega
  | ⟨2, _⟩ => show win0_1.index t (2 : Fin 3) * 256 + 1 * d.val = d.val; omega

/-- The mlp block is the whole array at every point, -/
theorem blk2 (c : Dev nD) (s : Fin cfg0.N) (b : Fin 8) (d w : Fin 256) :
    iblk m c 2 s (ix3 b d w) = (m ((c.tc : Thread nD τ).loc main_arg3)) (ix3 b d w) := by
  show V m c main_arg3 (((cfg0.win 2).blk s).view.emb (ix3 b d w)) = _
  rw [V_main_arg3 m c]
  refine congrArg _ ?_
  obtain ⟨e0, e1, e2⟩ := idx2 s
  funext a; apply Fin.ext
  match a with
  | ⟨0, _⟩ => show win0_2.index s (0 : Fin 3) * 8 + 1 * b.val = b.val; omega
  | ⟨1, _⟩ => show win0_2.index s (1 : Fin 3) * 256 + 1 * d.val = d.val; omega
  | ⟨2, _⟩ => show win0_2.index s (2 : Fin 3) * 256 + 1 * w.val = w.val; omega

/-- and so is the codebook block. -/
theorem blk3 (c : Dev nD) (s : Fin cfg0.N) (b : Fin 8) (d w : Fin 256) :
    iblk m c 3 s (ix3 b d w) = (m ((c.tc : Thread nD τ).loc main_arg4)) (ix3 b d w) := by
  show V m c main_arg4 (((cfg0.win 3).blk s).view.emb (ix3 b d w)) = _
  rw [V_main_arg4 m c]
  refine congrArg _ ?_
  obtain ⟨e0, e1, e2⟩ := idx3 s
  funext a; apply Fin.ext
  match a with
  | ⟨0, _⟩ => show win0_3.index s (0 : Fin 3) * 8 + 1 * b.val = b.val; omega
  | ⟨1, _⟩ => show win0_3.index s (1 : Fin 3) * 256 + 1 * d.val = d.val; omega
  | ⟨2, _⟩ => show win0_3.index s (2 : Fin 3) * 256 + 1 * w.val = w.val; omega

/-- The label block of a point holds the labels of the point's row tile. -/
theorem blk4 (c : Dev nD) (t : Fin cfg0.N) (p : Fin 256) :
    iblk m c 4 t (ix2 p 0) = (m ((c.tc : Thread nD τ).loc main_arg1)) (ix1 (BridgeCos.row (tI t) p)) := by
  show V m c main_v2 (((cfg0.win 4).blk t).view.emb (ix2 p 0)) = _
  rw [V_v2]
  obtain ⟨e0, e1⟩ := idx4 t
  refine shapeCast_apply _ _ _ (ix1 (BridgeCos.row (tI t) p)) ?_
  rewrite [Shape.rowMajor_val_two, Shape.rowMajor_val_one]
  show 256 * (t.val / 16) + p.val = (win0_4.index t (0 : Fin 2) * 256 + 1 * p.val) * 1 + (win0_4.index t (1 : Fin 2) * 1 + 1 * 0)
  omega

/-! ## What a point writes back, entry by entry -/

/-- The global index of an entry of the first two results' block at a point. -/
theorem emb5 (t : Fin cfg0.N) (p : Fin 256) (b : Fin 8) (q : Fin 256) :
    ((cfg0.win 5).blk t).view.emb (ix3 p b q) = ix3 (BridgeCos.row (tI t) p) b (BridgeCos.col (tJ t) q) := by
  obtain ⟨e0, e1, e2⟩ := idx5 t
  funext a; apply Fin.ext
  match a with
  | ⟨0, _⟩ => show win0_5.index t (0 : Fin 3) * 256 + 1 * p.val = 256 * (t.val / 16) + p.val; omega
  | ⟨1, _⟩ => show win0_5.index t (1 : Fin 3) * 8 + 1 * b.val = b.val; omega
  | ⟨2, _⟩ => show win0_5.index t (2 : Fin 3) * 256 + 1 * q.val = 256 * (t.val % 16) + q.val; omega
theorem emb6 (t : Fin cfg0.N) (p : Fin 256) (b : Fin 8) (q : Fin 256) :
    ((cfg0.win 6).blk t).view.emb (ix3 p b q) = ix3 (BridgeCos.row (tI t) p) b (BridgeCos.col (tJ t) q) := by
  obtain ⟨e0, e1, e2⟩ := idx6 t
  funext a; apply Fin.ext
  match a with
  | ⟨0, _⟩ => show win0_6.index t (0 : Fin 3) * 256 + 1 * p.val = 256 * (t.val / 16) + p.val; omega
  | ⟨1, _⟩ => show win0_6.index t (1 : Fin 3) * 8 + 1 * b.val = b.val; omega
  | ⟨2, _⟩ => show win0_6.index t (2 : Fin 3) * 256 + 1 * q.val = 256 * (t.val % 16) + q.val; omega
/-- The global index of an entry of the third result's block at a point. -/
theorem emb7 (t : Fin cfg0.N) (p : Fin 256) (b : Fin 8) (w : Fin 256) :
    ((cfg0.win 7).blk t).view.emb (ix3 p b w) = ix3 (BridgeSoft.row (tI t) p) b w := by
  obtain ⟨e0, e1, e2⟩ := idx7 t
  funext a; apply Fin.ext
  match a with
  | ⟨0, _⟩ => show win0_7.index t (0 : Fin 3) * 256 + 1 * p.val = 256 * (t.val / 16) + p.val; omega
  | ⟨1, _⟩ => show win0_7.index t (1 : Fin 3) * 8 + 1 * b.val = b.val; omega
  | ⟨2, _⟩ => show win0_7.index t (2 : Fin 3) * 256 + 1 * w.val = w.val; omega

/-- The three result arrays, as the reference's stages of the argument arrays. -/
abbrev G5 (c : Dev nD) := Read.val_main_v57 (F := Ideal) (m ((c.tc : Thread nD τ).loc main_arg0)) (m ((c.tc : Thread nD τ).loc main_arg1)) (m ((c.tc : Thread nD τ).loc main_arg2))
abbrev G6 (c : Dev nD) := Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
abbrev G7 (c : Dev nD) := Read.val_main_v59 (F := Ideal) (m ((c.tc : Thread nD τ).loc main_arg0)) (m ((c.tc : Thread nD τ).loc main_arg3))

/-- The first scratch buffer after a row tile's first point: the normalised x rows of the tile. -/
theorem scr0_entry (c : Dev nD) (t : Fin cfg0.N) (b : Fin 8) (p d : Fin 256) :
    scr0At m c (base t) (base_mod t) (ix3 b p d) = Read.val_main_v17 (F := Ideal) (m ((c.tc : Thread nD τ).loc main_arg0)) (ix3 b (BridgeCos.row (tI t) p) d) := by
  unfold scr0At; rw [scrA0_eq, ← tI_base t]
  exact BridgeCos.xn _ (tI (base t)) _ (blk0 m c (base t)) b p d

/-- The second: the normalised soft-quantised rows of the tile. -/
theorem scr1_entry (c : Dev nD) (t : Fin cfg0.N) (b : Fin 8) (p d : Fin 256) :
    scr1At m c (base t) (base_mod t) (ix3 b p d) = Read.val_main_v40 (F := Ideal) (m ((c.tc : Thread nD τ).loc main_arg0)) (m ((c.tc : Thread nD τ).loc main_arg3)) (m ((c.tc : Thread nD τ).loc main_arg4)) (ix3 b (BridgeCos.row (tI t) p) d) := by
  unfold scr1At; rw [scrA1_eq, ← tI_base t]
  exact BridgeSoft.sn _ _ _ (tI (base t)) _ (blk0 m c (base t)) _ (blk2 m c (base t)) _ (blk3 m c (base t)) b p d

theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  funext y
  obtain ⟨p, b, q, rfl⟩ : ∃ (p : Fin 256) (b : Fin 8) (q : Fin 256), y = ix3 p b q := ⟨y 0, y 1, y 2, eq_ix3 y⟩
  show after5 m c t (ix3 p b q) = G5 m c (((cfg0.win 5).blk t).view.emb (ix3 p b q))
  rw [emb5 t p b q]
  unfold after5
  by_cases h : t.val % 16 = 0
  · rw [dif_pos h, outA5_eq]
    have hb : tI t = tI t := rfl
    exact BridgeCos.out1 _ _ _ (tI t) (tJ t) (grid0.coords t) (coord1 t) _ (blk1 m c t) _ (blk4 m c t) _
      (fun b p d => BridgeCos.xn _ (tI t) _ (blk0 m c t) b p d) p b q
  · rw [dif_neg h, outB5_eq]
    exact BridgeCos.out1 _ _ _ (tI t) (tJ t) (grid0.coords t) (coord1 t) _ (blk1 m c t) _ (blk4 m c t) _
      (scr0_entry m c t) p b q

theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  funext y
  obtain ⟨p, b, q, rfl⟩ : ∃ (p : Fin 256) (b : Fin 8) (q : Fin 256), y = ix3 p b q := ⟨y 0, y 1, y 2, eq_ix3 y⟩
  show after6 m c t (ix3 p b q) = G6 m c (((cfg0.win 6).blk t).view.emb (ix3 p b q))
  rw [emb6 t p b q]
  unfold after6
  by_cases h : t.val % 16 = 0
  · rw [dif_pos h, outA6_eq]
    exact BridgeCos.out2 _ _ _ _ _ (tI t) (tJ t) (grid0.coords t) (coord1 t) _ (blk1 m c t) _ (blk4 m c t) _
      (fun b p d => BridgeSoft.sn _ _ _ (tI t) _ (blk0 m c t) _ (blk2 m c t) _ (blk3 m c t) b p d) p b q
  · rw [dif_neg h, outB6_eq]
    exact BridgeCos.out2 _ _ _ _ _ (tI t) (tJ t) (grid0.coords t) (coord1 t) _ (blk1 m c t) _ (blk4 m c t) _
      (scr1_entry m c t) p b q

theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  funext y
  obtain ⟨p, b, w, rfl⟩ : ∃ (p : Fin 256) (b : Fin 8) (w : Fin 256), y = ix3 p b w := ⟨y 0, y 1, y 2, eq_ix3 y⟩
  show after7 m c t (ix3 p b w) = G7 m c (((cfg0.win 7).blk t).view.emb (ix3 p b w))
  rw [emb7 t p b w]
  unfold after7 out7At; rw [outA7_eq, ← tI_base t]
  exact BridgeSoft.xcs _ _ (tI (base t)) _ (blk0 m c (base t)) _ (blk2 m c (base t)) p b w

/-! ## The blocks tile each result -/

theorem mem_blk5 (t : Fin cfg0.N) (i : S1024x8x4096.Idx) :
    i ∈ ((cfg0.win 5).blk t).view.set ↔ ∀ a : Fin 3, win0_5.index t a * S256x8x256.size a ≤ (i a).val ∧ (i a).val < win0_5.index t a * S256x8x256.size a + S256x8x256.size a := by
  show i ∈ ((View.whole main_v3_0).slice (win0_5.rect t)).set ↔ _
  rw [View.set_slice_whole, Rect.mem_set_unit]
  exact Iff.rfl

theorem mem_blk6 (t : Fin cfg0.N) (i : S1024x8x4096.Idx) :
    i ∈ ((cfg0.win 6).blk t).view.set ↔ ∀ a : Fin 3, win0_6.index t a * S256x8x256.size a ≤ (i a).val ∧ (i a).val < win0_6.index t a * S256x8x256.size a + S256x8x256.size a := by
  show i ∈ ((View.whole main_v3_1).slice (win0_6.rect t)).set ↔ _
  rw [View.set_slice_whole, Rect.mem_set_unit]
  exact Iff.rfl

theorem mem_blk7 (t : Fin cfg0.N) (i : S1024x8x256.Idx) :
    i ∈ ((cfg0.win 7).blk t).view.set ↔ ∀ a : Fin 3, win0_7.index t a * S256x8x256.size a ≤ (i a).val ∧ (i a).val < win0_7.index t a * S256x8x256.size a + S256x8x256.size a := by
  show i ∈ ((View.whole main_v3_2).slice (win0_7.rect t)).set ↔ _
  rw [View.set_slice_whole, Rect.mem_set_unit]
  exact Iff.rfl

/-- Every entry of the result lies in the block of the point of its row tile and column tile. -/
theorem cover5 (i : S1024x8x4096.Idx) :
    ∃ t : Fin cfg0.N, (cfg0.win 5).flush t = true ∧ i ∈ ((cfg0.win 5).blk t).view.set := by
  have h0 : (i 0).val < 1024 := (i 0).isLt
  have h1 : (i 1).val < 8 := (i 1).isLt
  have h2 : (i 2).val < 4096 := (i 2).isLt
  let t : Fin cfg0.N := ⟨16 * ((i 0).val / 256) + (i 2).val / 256, by rw [show cfg0.N = 64 from N_0]; omega⟩
  have ht : t.val = 16 * ((i 0).val / 256) + (i 2).val / 256 := rfl
  obtain ⟨e0, e1, e2⟩ := idx5 t
  refine ⟨t, flush0_5 t, ?_⟩
  rw [mem_blk5]
  intro a
  match a with
  | ⟨0, _⟩ => show win0_5.index t (0 : Fin 3) * 256 ≤ (i 0).val ∧ (i 0).val < win0_5.index t (0 : Fin 3) * 256 + 256; omega
  | ⟨1, _⟩ => show win0_5.index t (1 : Fin 3) * 8 ≤ (i 1).val ∧ (i 1).val < win0_5.index t (1 : Fin 3) * 8 + 8; omega
  | ⟨2, _⟩ => show win0_5.index t (2 : Fin 3) * 256 ≤ (i 2).val ∧ (i 2).val < win0_5.index t (2 : Fin 3) * 256 + 256; omega

/-- Every entry of the result lies in the block of the point of its row tile and column tile. -/
theorem cover6 (i : S1024x8x4096.Idx) :
    ∃ t : Fin cfg0.N, (cfg0.win 6).flush t = true ∧ i ∈ ((cfg0.win 6).blk t).view.set := by
  have h0 : (i 0).val < 1024 := (i 0).isLt
  have h1 : (i 1).val < 8 := (i 1).isLt
  have h2 : (i 2).val < 4096 := (i 2).isLt
  let t : Fin cfg0.N := ⟨16 * ((i 0).val / 256) + (i 2).val / 256, by rw [show cfg0.N = 64 from N_0]; omega⟩
  have ht : t.val = 16 * ((i 0).val / 256) + (i 2).val / 256 := rfl
  obtain ⟨e0, e1, e2⟩ := idx6 t
  refine ⟨t, flush0_6 t, ?_⟩
  rw [mem_blk6]
  intro a
  match a with
  | ⟨0, _⟩ => show win0_6.index t (0 : Fin 3) * 256 ≤ (i 0).val ∧ (i 0).val < win0_6.index t (0 : Fin 3) * 256 + 256; omega
  | ⟨1, _⟩ => show win0_6.index t (1 : Fin 3) * 8 ≤ (i 1).val ∧ (i 1).val < win0_6.index t (1 : Fin 3) * 8 + 8; omega
  | ⟨2, _⟩ => show win0_6.index t (2 : Fin 3) * 256 ≤ (i 2).val ∧ (i 2).val < win0_6.index t (2 : Fin 3) * 256 + 256; omega

/-- Every entry of the third result lies in the block its row tile's last point writes back. -/
theorem cover7 (i : S1024x8x256.Idx) :
    ∃ t : Fin cfg0.N, (cfg0.win 7).flush t = true ∧ i ∈ ((cfg0.win 7).blk t).view.set := by
  have h0 : (i 0).val < 1024 := (i 0).isLt
  have h1 : (i 1).val < 8 := (i 1).isLt
  have h2 : (i 2).val < 256 := (i 2).isLt
  let t : Fin cfg0.N := ⟨16 * ((i 0).val / 256) + 15, by rw [show cfg0.N = 64 from N_0]; omega⟩
  have ht : t.val = 16 * ((i 0).val / 256) + 15 := rfl
  obtain ⟨e0, e1, e2⟩ := idx7 t
  refine ⟨t, (flush0_7 t).mpr (by omega), ?_⟩
  rw [mem_blk7]
  intro a
  match a with
  | ⟨0, _⟩ => show win0_7.index t (0 : Fin 3) * 256 ≤ (i 0).val ∧ (i 0).val < win0_7.index t (0 : Fin 3) * 256 + 256; omega
  | ⟨1, _⟩ => show win0_7.index t (1 : Fin 3) * 8 ≤ (i 1).val ∧ (i 1).val < win0_7.index t (1 : Fin 3) * 8 + 8; omega
  | ⟨2, _⟩ => show win0_7.index t (2 : Fin 3) * 256 ≤ (i 2).val ∧ (i 2).val < win0_7.index t (2 : Fin 3) * 256 + 256; omega

/-! ## The arrays after the run -/

theorem final5 (c : Dev nD) : (dats m 0 c).arrAt 5 cfg0.N = G5 m c :=
  (dats m 0 c).arrAt_eq_of_cover 5 (G5 m c) (fun t _ => flushed5_eq m c t) cover5
theorem final6 (c : Dev nD) : (dats m 0 c).arrAt 6 cfg0.N = G6 m c :=
  (dats m 0 c).arrAt_eq_of_cover 6 (G6 m c) (fun t _ => flushed6_eq m c t) cover6
theorem final7 (c : Dev nD) : (dats m 0 c).arrAt 7 cfg0.N = G7 m c :=
  (dats m 0 c).arrAt_eq_of_cover 7 (G7 m c) (fun t _ => flushed7_eq m c t) cover7

/-- Every weakly fair execution of the idealised kernel terminates with its three results at the reference's
    stages of the argument arrays, and the argument arrays unchanged. -/
theorem run : θ_run defs (onTc (τ := τ) (main (F := Ideal))) ⟨m, fun _ => 0, ρ⟩ fun r => ∀ c : Dev nD,
      r.2.mem ((c.tc : Thread nD τ).loc main_v3_0) = G5 m c
      ∧ r.2.mem ((c.tc : Thread nD τ).loc main_v3_1) = G6 m c
      ∧ r.2.mem ((c.tc : Thread nD τ).loc main_v3_2) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final5 m c), ((h c).1 6).trans (final6 m c), ((h c).1 7).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.KValue

end
-- ==== Proof.lean ====
/-
  The kernel computes, per book, two cosine-logit arrays and a soft codeword assignment, tile by tile: for a row tile
  of 256 samples it normalises the book's x rows, takes the softmax of x·mlp over the codewords, mixes the codebook
  with it and normalises the result — once, at the row tile's first column tile, keeping the two normalised arrays in
  scratch memory — and for each column tile of 256 classes it normalises the weight rows, multiplies both normalised
  arrays with them, clips to [−1, 1], subtracts the margin one half at the sample's label and scales by thirty. The
  reference does the same on the whole arrays. At the ideal instance (extended reals, exact operations, changes of
  float format the identity) every entry of each kernel block is the same expression — the same sums over the same
  256 products, the same divisions by the same row norms, the same maxima — as the reference's entry at the block's
  place in the array, so the two programs end with equal results; nothing is rearranged, and no law that would need
  finiteness is used.

  The three frames: the kernel's two instances run the same body, whose every point terminates without a fault and
  hands each staging buffer and both scratch buffers back; the reference is a straight line of host operations. The
  idealisation rewrote no operation, so there is nothing to preserve beyond the program's own text.
-/
import proofs.«109032_j15315853378150_2_alg».proof.Defs
import proofs.«109032_j15315853378150_2_alg».proof.Proof.Gen.Kernel
import proofs.«109032_j15315853378150_2_alg».proof.Proof.Gen.KernelIdeal
import proofs.«109032_j15315853378150_2_alg».proof.Proof.Gen.ReferenceIdeal
import proofs.«109032_j15315853378150_2_alg».proof.Proof.Gen.Pre_finite_inputs
import proofs.«109032_j15315853378150_2_alg».proof.Proof.Gen.ReferenceIdeal.Run
import proofs.«109032_j15315853378150_2_alg».proof.Proof.Gen.ReferenceIdeal.Read
import proofs.«109032_j15315853378150_2_alg».proof.Proof.KernelBody.Frame
import proofs.«109032_j15315853378150_2_alg».proof.Proof.KValue
import Idealize.ShloMosaic.Adequacy
import Idealize.ShloMosaic.Init

noncomputable section

namespace Cert.Proof

open Idealize.ShloMosaic Idealize.ShloMosaic.TcCoe Idealize.SL.Sem

/-- The kernel as printed runs, and its argument arrays end unchanged. -/
theorem frame_k : Cert.frame_Kernel := fun m ρ _ => Cert.Kernel.Body.frame m ρ

/-- So does its idealisation: the same body at the other instance. -/
theorem frame_ki : Cert.frame_KernelIdeal := fun m ρ _ => Cert.KernelIdeal.Body.frame m ρ

/-- The reference is a line of host operations: it runs, and writes no argument. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealisation rewrote nothing. -/
theorem preserves : Cert.preserves_Kernel_KernelIdeal := trivial

/-- Both idealised programs end with the reference's three stages of the argument arrays: the kernel's blocks tile them
    entry by entry, and the reference's run is those stages by definition; the arguments agree. -/
theorem algebraic : Cert.algebraic_KernelIdeal_ReferenceIdeal := by
  intro m ρ m' ρ' _ hagree
  refine ⟨fun c => Cert.KernelIdeal.KValue.G5 m c, fun c => Cert.KernelIdeal.KValue.G6 m c, fun c => Cert.KernelIdeal.KValue.G7 m c,
    Cert.KernelIdeal.KValue.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · refine (Cert.ReferenceIdeal.Read.val_main_v57_eq _ _ _).trans ?_
    rw [(hagree c).1, (hagree c).2.1, (hagree c).2.2.1]
  · refine (Cert.ReferenceIdeal.Read.val_main_v58_eq m' c).trans ?_
    rw [(hagree c).1, (hagree c).2.1, (hagree c).2.2.1, (hagree c).2.2.2.1, (hagree c).2.2.2.2]
  · refine (Cert.ReferenceIdeal.Read.val_main_v59_eq _ _).trans ?_
    rw [(hagree c).1, (hagree c).2.2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
